-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_cst_0 : FVec F S_ .f32 := constant S_ .f32 0x00000000#32
  let main_v4 : FVec F S8192x128 .f32 := broadcastInDim S8192x128 ![] bcast_S_S8192x128 main_cst_0
  let main_v5 : IVec S8192x128 1 := cmpf .une main_arg0 main_v4
  let main_c_1 : IVec S_ 1 := constantI S_ 1 0#1
  let main_v6 : IVec S8192 1 := (fun x v => Host.reduce IntOp.ori x v reducesTo_S8192x128_S8192_d1 h_S_) main_v5 main_c_1
  let main_c_2 : IVec S_ 1 := constantI S_ 1 1#1
  let main_v7 : IVec S_ 1 := (fun x v => Host.reduce IntOp.andi x v reducesTo_S8192_S_d0 h_S_) main_v6 main_c_2
  let main_v8 : IVec S_ 1 := andi main_v3 main_v7
  main_v8
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 41
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S8192x128, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1, .i32⟩
  | .local _ .vmem, ⟨16, _⟩ => ⟨S1024x1, .i32⟩
  | .local _ .vmem, ⟨17, _⟩ => ⟨S1x1024, .i32⟩
  | .local _ .vmem, ⟨18, _⟩ => ⟨S1x1024, .i32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  shapeCasts_S1024_S1024x1 : S1024.ShapeCasts S1024x1
  natLt_1_32 : 1 < 32
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S_, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .i1⟩
  | .hbm, ⟨37, _⟩ => ⟨S8192x8192, .i1⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .i1⟩
  | .hbm, ⟨47, _⟩ => ⟨S8192, .i1⟩
  | .hbm, ⟨48, _⟩ => ⟨S8192, .f32⟩
  | .hbm, ⟨49, _⟩ => ⟨S_, .i1⟩
  | .hbm, ⟨50, _⟩ => ⟨S8192, .i1⟩
  | .hbm, ⟨51, _⟩ => ⟨S_, .i1⟩
  | .hbm, ⟨52, _⟩ => ⟨S8192, .i1⟩
  | .hbm, ⟨53, _⟩ => ⟨S8192, .i1⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call2_v0 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_call3_v0 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_call5_cst : Ref sig .tc := ⟨.hbm, 58, rfl⟩
abbrev main_call5_v0 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_cst_9 : Ref sig .tc := ⟨.hbm, 64, rfl⟩
abbrev main_call6_v0 : Ref sig .tc := ⟨.hbm, 65, rfl⟩
abbrev main_call6_v1 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KPass1Cond.lean ====
/- The first pass computes, for each anchor row, the largest distance to a row of the same label other than itself.
    Its grid is 8 row tiles by 8 column tiles; the running maximum of a row tile lives in a scratch column that is reset at the
    first column tile, raised at every column tile, and copied to the output column at the last one. -/
import proofs.«165275_j48198122996409_2_alg».proof.Proof.Gen.Kernel.Launch
import proofs.«165275_j48198122996409_2_alg».proof.Proof.Gen.Kernel.Skeleton
import proofs.«165275_j48198122996409_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one (the running maximum is reset before it is raised). -/
abbrev atFirst (i : grid0.Coords) : Prop :=
  (Scalar.cmpi .ne (Scalar.extui (Scalar.cmpi .eq (BitVec.ofNat 32 (i 1).val) 0#32)) 0#32) = 1#1
/-- The column tile is the last one (the running maximum is copied out). -/
abbrev atLast (i : grid0.Coords) : Prop := k0_cond2 i = 1#1

/-- Over the 64 grid points, numbered row tile by row tile: the first column tile is where the point number is 0 mod 8, -/
theorem atFirst_iff : ∀ t : Fin cfg0.N, atFirst (grid0.coords t) ↔ t.val % 8 = 0 :=
  (by decide +kernel : ∀ t : Fin grid0.N, atFirst (grid0.coords t) ↔ t.val % 8 = 0)
/-- and the last where it is 7 mod 8. -/
theorem atLast_iff : ∀ t : Fin cfg0.N, atLast (grid0.coords t) ↔ t.val % 8 = 7 :=
  (by decide +kernel : ∀ t : Fin grid0.N, atLast (grid0.coords t) ↔ t.val % 8 = 7)

end Cert.Kernel.Pass1

end
-- ==== Proof.KPass1First.lean ====
/- The first pass's body at the first column tile of a row tile: the scratch column is reset to the fill value and then
    raised to the tile's row maxima; the output column is not touched. -/
import proofs.«165275_j48198122996409_2_alg».proof.Proof.KPass1Cond

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column tile, on whole staging buffers — the two embedding tiles and the two label tiles at their contents, the
    output column at contents that are handed back untouched, the scratch column at anything — the body runs to the end
    leaving the inputs and the output column as they were and the scratch column with the listed pieces written (the list is
    what the run finds). -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i)
    (x2 : Vec F S1024x128 .bf16) (x3 : Vec F S1024x128 .bf16) (x4 : Vec F S1024x1 .i32) (x5 : Vec F S1x1024 .i32) :
    { LS : List (View.Piece (Elt F) S1024x1 .f32) //
      ∀ (xi6 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, fun xi6 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Pass1

end
-- ==== Proof.KPass1Mid.lean ====
/- The first pass's body at a column tile that is neither the first nor the last of its row tile: the scratch column, holding the
    maxima over the column tiles before, is raised to the maxima including this tile's; the output column is not touched. -/
import proofs.«165275_j48198122996409_2_alg».proof.Proof.KPass1First

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column tile, on whole staging buffers — the inputs at their contents, the output column at contents handed back
    untouched, the scratch column at the contents `xs` the tile before left — the body runs to the end leaving the inputs and the
    output column as they were and the scratch column with the listed pieces written. -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i)
    (x2 : Vec F S1024x128 .bf16) (x3 : Vec F S1024x128 .bf16) (x4 : Vec F S1024x1 .i32) (x5 : Vec F S1x1024 .i32) (xs : Vec F S1024x1 .f32) :
    { LS : List (View.Piece (Elt F) S1024x1 .f32) //
      ∀ (xi6 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, fun xi6 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Pass1

end
-- ==== Proof.KPass1Last.lean ====
/- The first pass's body at the last column tile of a row tile: the scratch column is raised to the maxima over all eight column
    tiles, and that column is copied into the output column. -/
import proofs.«165275_j48198122996409_2_alg».proof.Proof.KPass1Mid

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column tile, on whole staging buffers — the inputs at their contents, the output column at anything, the scratch
    column at the contents `xs` the tile before left — the body runs to the end leaving the inputs as they were, the output
    column with its listed pieces written and the scratch column with its listed pieces written. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i)
    (x2 : Vec F S1024x128 .bf16) (x3 : Vec F S1024x128 .bf16) (x4 : Vec F S1024x1 .i32) (x5 : Vec F S1x1024 .i32) (xs : Vec F S1024x1 .f32) :
    Σ' (L6 : List (View.Piece (Elt F) S1024x1 .f32)), { LS : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.Kernel.Pass1

end
-- ==== Proof.KPass1Outs.lean ====
/- The first pass, tile by tile: the tiles of the operands at a grid point, where the output column is stored and where it is
    left alone, and what each of the three cases of the body leaves in the scratch column and in the output column. -/
import proofs.«165275_j48198122996409_2_alg».proof.Proof.KPass1Last

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles at a grid point -/

section Entry
-- the contents of the core's buffers when the first pass is entered
variable (V : (c : Dev nD) → (b : Ref sig .tc) → Buf (Elt F) ((c : Thread nD τ).loc b))

/-- Operand `w`'s tile at grid point `t`, read off its array as the pass finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the embeddings is in its staging buffer at every grid point, moved there at that point or kept from the one before. -/
theorem before0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The column tile of the embeddings likewise, -/
theorem before1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- the row tile of the labels, -/
theorem before2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- and the column tile of the labels. -/
theorem before3_of {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

end Entry

/-! ## Where the output column is stored -/

/-- The four operands are read at every grid point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the output column, and its tile is not written back there; -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
/-- at the last column tile it is stored. -/
theorem live4 : ∀ t : Fin cfg0.N, atLast (grid0.coords t) → cfg0.idle 4 (grid0.coords t) = false := by decide +kernel

/-! ## The buffers the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The scratch column: a buffer of the kernel's own, passed beside the staging buffers. -/
abbrev scM : Memref sig .tc .vmem S1024x1 .f32 := Memref.whole cc0_scratch0
/-- The scratch column and one staging buffer of the output column as views: contents are stated through them. -/
abbrev VS : View sig .tc .vmem S1024x1 .f32 := scM.view
abbrev VO : View sig .tc .vmem S1024x1 .f32 := (Memref.whole cc0_stg4_0 : Memref sig .tc .vmem S1024x1 .f32).view

/-! ## What each case leaves -/

section Cases
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32)

/-- At a first column tile the pieces written into the scratch column cover it, -/
theorem scoverFirst (hc0 : atFirst i) (hc1 : ¬atLast i) (y : S1024x1.Idx) :
    ∃ pc ∈ (runFirst c i arg2 harg2 arg3 harg3 arg4 harg4 arg5 harg5 arg6 harg6 arg7 harg7 hc0 hc1 x2 x3 x4 x5).1, y ∈ pc.1.set :=
  View.cover_of_tiledL (runFirst c i arg2 harg2 arg3 harg3 arg4 harg4 arg5 harg5 arg6 harg6 arg7 harg7 hc0 hc1 x2 x3 x4 x5).1 S1024x1.size (by sl_kernel_rfl) y
/-- and read back they are what the case leaves in it. -/
def soutFirst (hc0 : atFirst i) (hc1 : ¬atLast i) : Vec F S1024x1 .f32 :=
  VS.read (Elt F) (VS.writes (Elt F) VS.junk (runFirst c i arg2 harg2 arg3 harg3 arg4 harg4 arg5 harg5 arg6 harg6 arg7 harg7 hc0 hc1 x2 x3 x4 x5).1)

/-- At a middle column tile likewise, over the contents `xs` the tile before left. -/
theorem scoverMid (hc0 : ¬atFirst i) (hc1 : ¬atLast i) (xs : Vec F S1024x1 .f32) (y : S1024x1.Idx) :
    ∃ pc ∈ (runMid c i arg2 harg2 arg3 harg3 arg4 harg4 arg5 harg5 arg6 harg6 arg7 harg7 hc0 hc1 x2 x3 x4 x5 xs).1, y ∈ pc.1.set :=
  View.cover_of_tiledL (runMid c i arg2 harg2 arg3 harg3 arg4 harg4 arg5 harg5 arg6 harg6 arg7 harg7 hc0 hc1 x2 x3 x4 x5 xs).1 S1024x1.size (by sl_kernel_rfl) y
def soutMid (hc0 : ¬atFirst i) (hc1 : ¬atLast i) (xs : Vec F S1024x1 .f32) : Vec F S1024x1 .f32 :=
  VS.read (Elt F) (VS.writes (Elt F) VS.junk (runMid c i arg2 harg2 arg3 harg3 arg4 harg4 arg5 harg5 arg6 harg6 arg7 harg7 hc0 hc1 x2 x3 x4 x5 xs).1)

/-- At a last column tile the pieces written into the scratch column cover it, and so do those written into the output column. -/
theorem scoverLast (hc0 : ¬atFirst i) (hc1 : atLast i) (xs : Vec F S1024x1 .f32) (y : S1024x1.Idx) :
    ∃ pc ∈ (runLast c i arg2 harg2 arg3 harg3 arg4 harg4 arg5 harg5 arg6 harg6 arg7 harg7 hc0 hc1 x2 x3 x4 x5 xs).2.1, y ∈ pc.1.set :=
  View.cover_of_tiledL (runLast c i arg2 harg2 arg3 harg3 arg4 harg4 arg5 harg5 arg6 harg6 arg7 harg7 hc0 hc1 x2 x3 x4 x5 xs).2.1 S1024x1.size (by sl_kernel_rfl) y
def soutLast (hc0 : ¬atFirst i) (hc1 : atLast i) (xs : Vec F S1024x1 .f32) : Vec F S1024x1 .f32 :=
  VS.read (Elt F) (VS.writes (Elt F) VS.junk (runLast c i arg2 harg2 arg3 harg3 arg4 harg4 arg5 harg5 arg6 harg6 arg7 harg7 hc0 hc1 x2 x3 x4 x5 xs).2.1)
theorem coverLast (hc0 : ¬atFirst i) (hc1 : atLast i) (xs : Vec F S1024x1 .f32) (y : S1024x1.Idx) :
    ∃ pc ∈ (runLast c i arg2 harg2 arg3 harg3 arg4 harg4 arg5 harg5 arg6 harg6 arg7 harg7 hc0 hc1 x2 x3 x4 x5 xs).1, y ∈ pc.1.set :=
  View.cover_of_tiledL (runLast c i arg2 harg2 arg3 harg3 arg4 harg4 arg5 harg5 arg6 harg6 arg7 harg7 hc0 hc1 x2 x3 x4 x5 xs).1 S1024x1.size (by sl_kernel_rfl) y
def outLast (hc0 : ¬atFirst i) (hc1 : atLast i) (xs : Vec F S1024x1 .f32) : Vec F S1024x1 .f32 :=
  VO.read (Elt F) (VO.writes (Elt F) VO.junk (runLast c i arg2 harg2 arg3 harg3 arg4 harg4 arg5 harg5 arg6 harg6 arg7 harg7 hc0 hc1 x2 x3 x4 x5 xs).1)

end Cases

/-- Where nothing is stored into the output column its contents after the body are never consulted: a placeholder. -/
def outIdle : Vec F S1024x1 .f32 := VO.read (Elt F) (VO.writes (Elt F) VO.junk [])

end Cert.Kernel.Pass1

end
-- ==== Proof.KPass1Acc.lean ====
/- The first pass, grid point by grid point: what the output column's staging buffer and the scratch column hold after the body at
    each point — the case the point is in, run on the point's tiles, over what the point before left in the scratch column —, the
    invariant that carries the scratch column from point to point, and the proof data of the pass. -/
import proofs.«165275_j48198122996409_2_alg».proof.Proof.KPass1Outs

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- After the body at position `n`: the output column's staging buffer (a placeholder where nothing is stored into it) and the
    scratch column. Positions 0 mod 8 are first column tiles, 7 mod 8 last ones; no position is both. -/
def accAt (c : Dev nD) : (n : ℕ) → n < cfg0.N → Vec F S1024x1 .f32 × Vec F S1024x1 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (tile V c 0 ⟨0, hn⟩) (tile V c 1 ⟨0, hn⟩) (tile V c 2 ⟨0, hn⟩) (tile V c 3 ⟨0, hn⟩) ((atFirst_iff ⟨0, hn⟩).mpr (Nat.zero_mod _)) (fun h => (fun h => by (try dsimp only at h); omega) ((atLast_iff ⟨0, hn⟩).mp h)))
  | n + 1, hn =>
    if h0 : (n + 1) % 8 = 0 then
      if h1 : (n + 1) % 8 = 7 then
        False.elim (by omega)
      else
        (outIdle, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) ((atFirst_iff ⟨n + 1, hn⟩).mpr h0) (fun h => h1 ((atLast_iff ⟨n + 1, hn⟩).mp h)))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) ((atLast_iff ⟨n + 1, hn⟩).mpr h1) (accAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) ((atLast_iff ⟨n + 1, hn⟩).mpr h1) (accAt c n (Nat.lt_of_succ_lt hn)).2)
      else
        (outIdle, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) (fun h => h1 ((atLast_iff ⟨n + 1, hn⟩).mp h)) (accAt c n (Nat.lt_of_succ_lt hn)).2)

/-- At a first column tile: the reset column raised by the tile. -/
theorem accAt_first (c : Dev nD) (t : Fin cfg0.N) (h0 : t.val % 8 = 0) (h1 : ¬t.val % 8 = 7) :
    accAt V c t.val t.isLt = (outIdle, soutFirst c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) ((atFirst_iff t).mpr h0) (fun h => h1 ((atLast_iff t).mp h))) := by
  obtain ⟨n, hn⟩ := t
  cases n with
  | zero => exact rfl
  | succ n => exact (dif_pos h0).trans ((dif_neg h1).trans rfl)

/-- At a middle column tile: what the tile before left, raised by the tile. -/
theorem accAt_mid (c : Dev nD) (t : Fin cfg0.N) (h0 : ¬t.val % 8 = 0) (h1 : ¬t.val % 8 = 7) :
    accAt V c t.val t.isLt = (outIdle, soutMid c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) (fun h => h1 ((atLast_iff t).mp h)) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile: the same, and the column copied out. -/
theorem accAt_last (c : Dev nD) (t : Fin cfg0.N) (h0 : ¬t.val % 8 = 0) (h1 : t.val % 8 = 7) :
    accAt V c t.val t.isLt = (outLast c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) ((atLast_iff t).mpr h1) (accAt V c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) ((atLast_iff t).mpr h1) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's own buffers other than the scratch column (the second pass's staging and scratch buffers), each at anything. -/
def others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- What the body may use and need not describe, with the scratch column named: the scratch column at anything, the other
    buffers of the kernel's own at anything, the generator register at some state. -/
theorem PhiA_eq (c : Dev nD) :
    (Pipeline.ΦA spec0 c : sProp 𝕄) = iprop(iprop((∃ d, owns (c : Thread nD τ) scM fullShare d) ∗ others c) ∗ (∃ r, prngReg c r)) := by
  unfold Pipeline.ΦA Pipeline.scopedRest others
  rw [bigSep_erase (i := cc0_scratch0) (by decide)]
  simp only [scM, owns_whole]
  rfl

/-- Before position `n`: at the very first point everything at anything; afterwards the scratch column at what the point before left. -/
def PhiS (c : Dev nD) : (n : ℕ) → n ≤ cfg0.N → sProp 𝕄
  | 0, _ => Pipeline.ΦA spec0 c
  | n + 1, hn => iprop(iprop(owns (c : Thread nD τ) scM fullShare ((accAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((accAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((accAt V c (n - 1) (by omega)).2) ∗ others c) ∗ (∃ r, prngReg c r)) := by
  cases n with
  | zero => exact absurd rfl hz
  | succ n => rfl

/-! ## The proof data -/

/-- The first pass's proof data on core `c`: the arrays as the pass finds them; after the body at a point each operand's staging
    buffer at its tile and the output column's at `accAt`; the invariant `PhiS`; nothing owed. The two embedding windows read
    one array, each at half of it; the label windows read theirs whole. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => (accAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = tile V c 0 t := by dsimp only [dat]
theorem after1 (c : Dev nD) (t : Fin cfg0.N) : (dat V c).after 1 t = tile V c 1 t := by dsimp only [dat]
theorem after2 (c : Dev nD) (t : Fin cfg0.N) : (dat V c).after 2 t = tile V c 2 t := by dsimp only [dat]
theorem after3 (c : Dev nD) (t : Fin cfg0.N) : (dat V c).after 3 t = tile V c 3 t := by dsimp only [dat]
theorem after4 (c : Dev nD) (t : Fin cfg0.N) : (dat V c).after 4 t = (accAt V c t.val t.isLt).1 := by dsimp only [dat]
theorem before0 (c : Dev nD) (t : Fin cfg0.N) (d) : (dat V c).before 0 t d = tile V c 0 t :=
  before0_of V (dat V c) (A_eq V c 0) (after0 V c) t d
theorem before1 (c : Dev nD) (t : Fin cfg0.N) (d) : (dat V c).before 1 t d = tile V c 1 t :=
  before1_of V (dat V c) (A_eq V c 1) (after1 V c) t d
theorem before2 (c : Dev nD) (t : Fin cfg0.N) (d) : (dat V c).before 2 t d = tile V c 2 t :=
  before2_of V (dat V c) (A_eq V c 2) (after2 V c) t d
theorem before3 (c : Dev nD) (t : Fin cfg0.N) (d) : (dat V c).before 3 t d = tile V c 3 t :=
  before3_of V (dat V c) (A_eq V c 3) (after3 V c) t d

end Entry

end Cert.Kernel.Pass1

end
-- ==== Proof.KPass1Body.lean ====
/- The first pass's body at any grid point meets what the pipeline asks of it: from the operands' tiles in their staging buffers, the
    output column's staging buffer as the pipeline hands it, and the invariant before the point, it runs to the invariant after the
    point with the operands' buffers unchanged and the output column's as the proof data say. -/
import proofs.«165275_j48198122996409_2_alg».proof.Proof.KPass1Acc

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 8000000 in
/-- The point is a first, a middle or a last column tile; in each case that case's run applies: the invariant hands it the scratch
    column (at anything before the very first point, else at what the point before left) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · by_cases h1 : t.val % 8 = 7
    · exfalso; omega
    · rw [Dat.leavesExact_idle (dat V c) 4 t (idle4 t (fun h => h1 ((atLast_iff t).mp h))) (noFlush4 t (fun h => h1 ((atLast_iff t).mp h)))]
      rw [accAt_first V c t h0 h1]
      unfold soutFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (tile V c 0 t) (tile V c 1 t) (tile V c 2 t) (tile V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverFirst c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (tile V c 0 t) (tile V c 1 t) (tile V c 2 t) (tile V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverFirst c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat V c).leavesExact 4 t = owns (c : Thread nD τ) (ms4 t) fullShare ((dat V c).after 4 t) from by
        unfold Dat.leavesExact; rw [live4 t ((atLast_iff t).mpr h1)], after4]
      rw [accAt_last V c t h0 h1]
      unfold outLast soutLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ (fun h => h0 ((atFirst_iff t).mp h)) ((atLast_iff t).mpr h1) (tile V c 0 t) (tile V c 1 t) (tile V c 2 t) (tile V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scoverLast c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLast c _ _ _ _ _ _ _ _ _ _ _ _ _ _ _ _ _ _ _ _)
    · rw [Dat.leavesExact_idle (dat V c) 4 t (idle4 t (fun h => h1 ((atLast_iff t).mp h))) (noFlush4 t (fun h => h1 ((atLast_iff t).mp h)))]
      rw [accAt_mid V c t h0 h1]
      unfold soutMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runMid c (grid0.coords t) _ _ _ _ _ _ _ _ _ _ _ _ (fun h => h0 ((atFirst_iff t).mp h)) (fun h => h1 ((atLast_iff t).mp h)) (tile V c 0 t) (tile V c 1 t) (tile V c 2 t) (tile V c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverMid c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The pipeline's obligation on the body, at every point. -/
theorem body_obligation (c : Dev nD) : BodyObligation (dat (F := F) V c) (defs₀ (F := F)) Variants.none () Set.univ := fun t => by
  rw [bigSep_W0, bigSep_W0]
  exact sound_body V c t

/-- What the pass is handed is the invariant before the first point, -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch column's contents forgotten. -/
theorem phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hoth⟩, Hg⟩
  isplitl [HS Hoth]
  · isplitl [HS]
    · iexists _; iexact HS
    iexact Hoth
  iexact Hg

end Entry

end Cert.Kernel.Pass1

end
-- ==== Proof.KPass1Arrays.lean ====
/- The first pass's arrays at its entry and at its exit. Its five windows stand on four arrays: the two embedding windows read one
    array, each holding half of it; so the arrays held whole when the pass is entered are split window by window, and put together
    again when it is left, the output column's array at what the pass wrote. -/
import proofs.«165275_j48198122996409_2_alg».proof.Proof.KPass1Body

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The four arrays behind the five windows. -/
theorem arrRefs_eq : Finset.univ.image (Pipeline.arrRef spec0) = {main_v6, main_v7, main_v8, main_v9} := by decide

/-- The four arrays, each held whole at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_v6) ↦{fullShare} W main_v6) ∗ (((c : Thread nD τ).loc main_v7) ↦{fullShare} W main_v7)
          ∗ (((c : Thread nD τ).loc main_v8) ↦{fullShare} W main_v8) ∗ (((c : Thread nD τ).loc main_v9) ↦{fullShare} W main_v9)) := by
  unfold Pipeline.arrBufs
  rw [arrRefs_eq, bigSep_insert (by decide), bigSep_insert (by decide), bigSep_insert (by decide), BI.bigSep_singleton]
  rfl

set_option maxHeartbeats 4000000 in
/-- ENTRY: the four arrays, each held whole at the entry contents, are the five windows' arrays at the proof data's entry contents:
    the embeddings' array is halved between its two windows. -/
theorem arrays_in (c : Dev nD) :
    (Pipeline.arrBufs spec0 c (V c) : sProp 𝕄) ⊢ (dat V c).arrays ((dat V c).arrAt · 0) := by
  rw [arrBufs_eq]
  unfold Dat.arrays
  rw [bigSep_W0]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have a0 : (dat V c).arrAt 0 0 = V c main_v6 := rfl
  have a1 : (dat V c).arrAt 1 0 = V c main_v6 := rfl
  have a2 : (dat V c).arrAt 2 0 = V c main_v7 := rfl
  have a3 : (dat V c).arrAt 3 0 = V c main_v8 := rfl
  have a4 : (dat V c).arrAt 4 0 = V c main_v9 := rfl
  rw [s0, s1, s2, s3, s4]
  beta_reduce
  rw [a0, a1, a2, a3, a4]
  have u0 : (cfg0.win 0).arr.view.set = Finset.univ := (arr_whole0 0).set_eq_univ
  have u1 : (cfg0.win 1).arr.view.set = Finset.univ := (arr_whole0 1).set_eq_univ
  have u2 : (cfg0.win 2).arr.view.set = Finset.univ := (arr_whole0 2).set_eq_univ
  have u3 : (cfg0.win 3).arr.view.set = Finset.univ := (arr_whole0 3).set_eq_univ
  have u4 : (cfg0.win 4).arr.view.set = Finset.univ := (arr_whole0 4).set_eq_univ
  simp only [u0, u1, u2, u3, u4]
  iintro ⟨H6, H7, H8, H9⟩
  ihave H6' := (pointsTo_share (PosShare.mem_left_op_right fullShare)).1 $$ H6
  icases H6' with ⟨H6l, H6r⟩
  isplitl [H6l]; · iexact H6l
  isplitl [H6r]; · iexact H6r
  isplitl [H7]; · iexact H7
  isplitl [H8]; · iexact H8
  iexact H9

set_option maxHeartbeats 4000000 in
/-- EXIT: the five windows' arrays at the proof data's final contents are the four arrays, each held whole, at any contents `W`
    that agree with the entry contents on the three arrays the pass only reads and have the output column's array at what the pass
    wrote: the two halves of the embeddings' array are put together again. -/
theorem arrays_out (c : Dev nD) (W : (b : Ref sig .tc) → Buf (Elt F) ((c : Thread nD τ).loc b))
    (h6 : W main_v6 = V c main_v6) (h7 : W main_v7 = V c main_v7) (h8 : W main_v8 = V c main_v8)
    (h9 : W main_v9 = (dat V c).arrAt 4 cfg0.N) :
    (dat V c).arrays ((dat V c).arrAt · cfg0.N) ⊢ (Pipeline.arrBufs spec0 c W : sProp 𝕄) := by
  rw [arrBufs_eq, h6, h7, h8, h9]
  unfold Dat.arrays
  rw [bigSep_W0]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have a0 : (dat V c).arrAt 0 cfg0.N = V c main_v6 := ((dat V c).arrAt_in 0 rfl _).trans (A_eq V c 0)
  have a1 : (dat V c).arrAt 1 cfg0.N = V c main_v6 := ((dat V c).arrAt_in 1 rfl _).trans (A_eq V c 1)
  have a2 : (dat V c).arrAt 2 cfg0.N = V c main_v7 := ((dat V c).arrAt_in 2 rfl _).trans (A_eq V c 2)
  have a3 : (dat V c).arrAt 3 cfg0.N = V c main_v8 := ((dat V c).arrAt_in 3 rfl _).trans (A_eq V c 3)
  rw [s0, s1, s2, s3, s4]
  beta_reduce
  rw [a0, a1, a2, a3]
  have u0 : (cfg0.win 0).arr.view.set = Finset.univ := (arr_whole0 0).set_eq_univ
  have u1 : (cfg0.win 1).arr.view.set = Finset.univ := (arr_whole0 1).set_eq_univ
  have u2 : (cfg0.win 2).arr.view.set = Finset.univ := (arr_whole0 2).set_eq_univ
  have u3 : (cfg0.win 3).arr.view.set = Finset.univ := (arr_whole0 3).set_eq_univ
  have u4 : (cfg0.win 4).arr.view.set = Finset.univ := (arr_whole0 4).set_eq_univ
  simp only [u0, u1, u2, u3, u4]
  iintro ⟨H0, H1, H2, H3, H4⟩
  isplitl [H0 H1]
  · iapply (pointsTo_share (PosShare.mem_left_op_right fullShare)).2
    isplitl [H0]; · iexact H0
    iexact H1
  isplitl [H2]; · iexact H2
  isplitl [H3]; · iexact H3
  iexact H4

end Entry

end Cert.Kernel.Pass1

end
-- ==== Proof.KPass2Cond.lean ====
/- The second pass computes, for each anchor row, two running minima over the rows of the other tiles: the smallest distance to a
    row of another label, and the smallest such distance that still exceeds the row's largest same-label distance (the first pass's
    result). Its grid is 8 row tiles by 8 column tiles; the two running minima of a row tile live in two scratch columns that are
    reset at the first column tile, lowered at every column tile, and turned into the two output columns at the last one. -/
import proofs.«165275_j48198122996409_2_alg».proof.Proof.Gen.Kernel.Launch
import proofs.«165275_j48198122996409_2_alg».proof.Proof.Gen.Kernel.Skeleton
import proofs.«165275_j48198122996409_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one (the two running minima are reset before they are lowered). -/
abbrev atFirst (i : grid1.Coords) : Prop :=
  (Scalar.cmpi .ne (Scalar.extui (Scalar.cmpi .eq (BitVec.ofNat 32 (i 1).val) 0#32)) 0#32) = 1#1
/-- The column tile is the last one (the two output columns are stored). -/
abbrev atLast (i : grid1.Coords) : Prop := k1_cond2 i = 1#1

/-- Over the 64 grid points, numbered row tile by row tile: the first column tile is where the point number is 0 mod 8, -/
theorem atFirst_iff : ∀ t : Fin cfg1.N, atFirst (grid1.coords t) ↔ t.val % 8 = 0 :=
  (by decide +kernel : ∀ t : Fin grid1.N, atFirst (grid1.coords t) ↔ t.val % 8 = 0)
/-- and the last where it is 7 mod 8. -/
theorem atLast_iff : ∀ t : Fin cfg1.N, atLast (grid1.coords t) ↔ t.val % 8 = 7 :=
  (by decide +kernel : ∀ t : Fin grid1.N, atLast (grid1.coords t) ↔ t.val % 8 = 7)

end Cert.Kernel.Pass2

end
-- ==== Proof.KPass2First.lean ====
/- The second pass's body at the first column tile of a row tile: both scratch columns are reset to the fill value and then lowered
    to the tile's row minima; the two output columns are not touched. -/
import proofs.«165275_j48198122996409_2_alg».proof.Proof.KPass2Cond

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column tile, on whole staging buffers — the two embedding tiles, the two label tiles and the first pass's result
    column at their contents, the two output columns at contents that are handed back untouched, the two scratch columns at
    anything — the body runs to the end leaving the inputs and the output columns as they were and each scratch column with its
    listed pieces written (the lists are what the run finds). -/
noncomputable def runFirst (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : atFirst i) (hc1 : ¬atLast i)
    (x2 : Vec F S1024x128 .bf16) (x3 : Vec F S1024x128 .bf16) (x4 : Vec F S1024x1 .i32) (x5 : Vec F S1x1024 .i32) (x6 : Vec F S1024x1 .f32) :
    Σ' (LS9 : List (View.Piece (Elt F) S1024x1 .f32)), { LS10 : List (View.Piece (Elt F) S1024x1 .f32) //
      ∀ (xi7 xi8 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.Kernel.Pass2

end
-- ==== Proof.KPass2Mid.lean ====
/- The second pass's body at a column tile that is neither the first nor the last of its row tile: each scratch column, holding the
    minima over the column tiles before, is lowered to the minima including this tile's; the two output columns are not touched. -/
import proofs.«165275_j48198122996409_2_alg».proof.Proof.KPass2First

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column tile, on whole staging buffers — the inputs at their contents, the two output columns at contents handed back
    untouched, the two scratch columns at the contents `xs9`, `xs10` the tile before left — the body runs to the end leaving the
    inputs and the output columns as they were and each scratch column with its listed pieces written. -/
noncomputable def runMid (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬atFirst i) (hc1 : ¬atLast i)
    (x2 : Vec F S1024x128 .bf16) (x3 : Vec F S1024x128 .bf16) (x4 : Vec F S1024x1 .i32) (x5 : Vec F S1x1024 .i32) (x6 : Vec F S1024x1 .f32) (xs9 : Vec F S1024x1 .f32) (xs10 : Vec F S1024x1 .f32) :
    Σ' (LS9 : List (View.Piece (Elt F) S1024x1 .f32)), { LS10 : List (View.Piece (Elt F) S1024x1 .f32) //
      ∀ (xi7 xi8 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ owns (c : Thread nD τ) arg9 fullShare xs9 ∗ owns (c : Thread nD τ) arg10 fullShare xs10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.Kernel.Pass2

end
-- ==== Proof.KPass2Last.lean ====
/- The second pass's body at the last column tile of a row tile: each scratch column is lowered to the minima over all eight column
    tiles, and the two output columns are stored from the scratch columns and the first pass's result column. -/
import proofs.«165275_j48198122996409_2_alg».proof.Proof.KPass2Mid

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column tile, on whole staging buffers — the inputs at their contents, the two output columns at anything, the two
    scratch columns at the contents `xs9`, `xs10` the tile before left — the body runs to the end leaving the inputs as they were
    and each of the two output columns and the two scratch columns with its listed pieces written. -/
noncomputable def runLast (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬atFirst i) (hc1 : atLast i)
    (x2 : Vec F S1024x128 .bf16) (x3 : Vec F S1024x128 .bf16) (x4 : Vec F S1024x1 .i32) (x5 : Vec F S1x1024 .i32) (x6 : Vec F S1024x1 .f32) (xs9 : Vec F S1024x1 .f32) (xs10 : Vec F S1024x1 .f32) :
    Σ' (L7 : List (View.Piece (Elt F) S1024x1 .f32)) (L8 : List (View.Piece (Elt F) S1024x1 .f32)) (LS9 : List (View.Piece (Elt F) S1024x1 .f32)), { LS10 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xs9 ∗ owns (c : Thread nD τ) arg10 fullShare xs10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg9.eq_unread hf9
    obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.Kernel.Pass2

end
-- ==== Proof.KPass2Outs.lean ====
/- The second pass, tile by tile: the tiles of the operands at a grid point, where the two output columns are stored and where they
    are left alone, and what each of the three cases of the body leaves in the two scratch columns and in the two output columns. -/
import proofs.«165275_j48198122996409_2_alg».proof.Proof.KPass2Last

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles at a grid point -/

section Entry
-- the contents of the core's buffers when the second pass is entered
variable (V : (c : Dev nD) → (b : Ref sig .tc) → Buf (Elt F) ((c : Thread nD τ).loc b))

/-- Operand `w`'s tile at grid point `t`, read off its array as the pass finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of the embeddings is in its staging buffer at every grid point, moved there at that point or kept from the one before. -/
theorem before0_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The column tile of the embeddings likewise, -/
theorem before1_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- the row tile of the labels, -/
theorem before2_of {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- the column tile of the labels, -/
theorem before3_of {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- and the row tile of the first pass's result column. -/
theorem before4_of {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

end Entry

/-! ## Where the two output columns are stored -/

/-- The five operands are read at every grid point. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- Away from the last column tile nothing is stored into the first output column, and its tile is not written back there; -/
theorem idle5 : ∀ t : Fin cfg1.N, ¬atLast (grid1.coords t) → cfg1.idle 5 (grid1.coords t) = true := by decide +kernel
theorem noFlush5 : ∀ t : Fin cfg1.N, ¬atLast (grid1.coords t) → (cfg1.win 5).flush t = false := by decide +kernel
/-- at the last column tile it is stored. -/
theorem live5 : ∀ t : Fin cfg1.N, atLast (grid1.coords t) → cfg1.idle 5 (grid1.coords t) = false := by decide +kernel
/-- The second output column likewise. -/
theorem idle6 : ∀ t : Fin cfg1.N, ¬atLast (grid1.coords t) → cfg1.idle 6 (grid1.coords t) = true := by decide +kernel
theorem noFlush6 : ∀ t : Fin cfg1.N, ¬atLast (grid1.coords t) → (cfg1.win 6).flush t = false := by decide +kernel
theorem live6 : ∀ t : Fin cfg1.N, atLast (grid1.coords t) → cfg1.idle 6 (grid1.coords t) = false := by decide +kernel

/-! ## The buffers the body is called with -/

abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x1 .f32 := win1_6.stage (cfg1.slots t 6)
abbrev hs6 (t : Fin cfg1.N) : (ms6 t).IsWhole := hstage1_6 ((cfg1.slots t 6).cast nbuf1_6)
/-- The two scratch columns: buffers of the kernel's own, passed beside the staging buffers. -/
abbrev scM9 : Memref sig .tc .vmem S1024x1 .f32 := Memref.whole cc1_scratch0
abbrev scM10 : Memref sig .tc .vmem S1024x1 .f32 := Memref.whole cc1_scratch1
/-- The two scratch columns and one staging buffer of each output column as views: contents are stated through them. -/
abbrev VS9 : View sig .tc .vmem S1024x1 .f32 := scM9.view
abbrev VS10 : View sig .tc .vmem S1024x1 .f32 := scM10.view
abbrev VO5 : View sig .tc .vmem S1024x1 .f32 := (Memref.whole cc1_stg5_0 : Memref sig .tc .vmem S1024x1 .f32).view
abbrev VO6 : View sig .tc .vmem S1024x1 .f32 := (Memref.whole cc1_stg6_0 : Memref sig .tc .vmem S1024x1 .f32).view

/-! ## What each case leaves -/

section Cases
variable (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
  (x2 : Vec F S1024x128 .bf16) (x3 : Vec F S1024x128 .bf16) (x4 : Vec F S1024x1 .i32) (x5 : Vec F S1x1024 .i32) (x6 : Vec F S1024x1 .f32)

/-- At a first column tile the pieces written into the first scratch column cover it, -/
theorem scover9First (hc0 : atFirst i) (hc1 : ¬atLast i) (y : S1024x1.Idx) :
    ∃ pc ∈ (runFirst c i arg2 harg2 arg3 harg3 arg4 harg4 arg5 harg5 arg6 harg6 arg7 harg7 arg8 harg8 arg9 harg9 arg10 harg10 hc0 hc1 x2 x3 x4 x5 x6).1, y ∈ pc.1.set :=
  View.cover_of_tiledL (runFirst c i arg2 harg2 arg3 harg3 arg4 harg4 arg5 harg5 arg6 harg6 arg7 harg7 arg8 harg8 arg9 harg9 arg10 harg10 hc0 hc1 x2 x3 x4 x5 x6).1 S1024x1.size (by sl_kernel_rfl) y
/-- and read back they are what the case leaves in it; -/
def sout9First (hc0 : atFirst i) (hc1 : ¬atLast i) : Vec F S1024x1 .f32 :=
  VS9.read (Elt F) (VS9.writes (Elt F) VS9.junk (runFirst c i arg2 harg2 arg3 harg3 arg4 harg4 arg5 harg5 arg6 harg6 arg7 harg7 arg8 harg8 arg9 harg9 arg10 harg10 hc0 hc1 x2 x3 x4 x5 x6).1)
/-- the second scratch column likewise. -/
theorem scover10First (hc0 : atFirst i) (hc1 : ¬atLast i) (y : S1024x1.Idx) :
    ∃ pc ∈ (runFirst c i arg2 harg2 arg3 harg3 arg4 harg4 arg5 harg5 arg6 harg6 arg7 harg7 arg8 harg8 arg9 harg9 arg10 harg10 hc0 hc1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 hc0 hc1 x2 x3 x4 x5 x6).2.1 S1024x1.size (by sl_kernel_rfl) y
def sout10First (hc0 : atFirst i) (hc1 : ¬atLast i) : Vec F S1024x1 .f32 :=
  VS10.read (Elt F) (VS10.writes (Elt F) VS10.junk (runFirst c i arg2 harg2 arg3 harg3 arg4 harg4 arg5 harg5 arg6 harg6 arg7 harg7 arg8 harg8 arg9 harg9 arg10 harg10 hc0 hc1 x2 x3 x4 x5 x6).2.1)

/-- At a middle column tile likewise, over the contents `xs9`, `xs10` the tile before left. -/
theorem scover9Mid (hc0 : ¬atFirst i) (hc1 : ¬atLast i) (xs9 : Vec F S1024x1 .f32) (xs10 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x2 x3 x4 x5 x6 xs9 xs10).1, y ∈ pc.1.set :=
  View.cover_of_tiledL (runMid c i arg2 harg2 arg3 harg3 arg4 harg4 arg5 harg5 arg6 harg6 arg7 harg7 arg8 harg8 arg9 harg9 arg10 harg10 hc0 hc1 x2 x3 x4 x5 x6 xs9 xs10).1 S1024x1.size (by sl_kernel_rfl) y
def sout9Mid (hc0 : ¬atFirst i) (hc1 : ¬atLast i) (xs9 : Vec F S1024x1 .f32) (xs10 : Vec F S1024x1 .f32) : Vec F S1024x1 .f32 :=
  VS9.read (Elt F) (VS9.writes (Elt F) VS9.junk (runMid c i arg2 harg2 arg3 harg3 arg4 harg4 arg5 harg5 arg6 harg6 arg7 harg7 arg8 harg8 arg9 harg9 arg10 harg10 hc0 hc1 x2 x3 x4 x5 x6 xs9 xs10).1)
theorem scover10Mid (hc0 : ¬atFirst i) (hc1 : ¬atLast i) (xs9 : Vec F S1024x1 .f32) (xs10 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x2 x3 x4 x5 x6 xs9 xs10).2.1, y ∈ pc.1.set :=
  View.cover_of_tiledL (runMid c i arg2 harg2 arg3 harg3 arg4 harg4 arg5 harg5 arg6 harg6 arg7 harg7 arg8 harg8 arg9 harg9 arg10 harg10 hc0 hc1 x2 x3 x4 x5 x6 xs9 xs10).2.1 S1024x1.size (by sl_kernel_rfl) y
def sout10Mid (hc0 : ¬atFirst i) (hc1 : ¬atLast i) (xs9 : Vec F S1024x1 .f32) (xs10 : Vec F S1024x1 .f32) : Vec F S1024x1 .f32 :=
  VS10.read (Elt F) (VS10.writes (Elt F) VS10.junk (runMid c i arg2 harg2 arg3 harg3 arg4 harg4 arg5 harg5 arg6 harg6 arg7 harg7 arg8 harg8 arg9 harg9 arg10 harg10 hc0 hc1 x2 x3 x4 x5 x6 xs9 xs10).2.1)

/-- At a last column tile the pieces written into each scratch column cover it, and so do those written into each output column. -/
theorem scover9Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.2.1 S1024x1.size (by sl_kernel_rfl) y
def sout9Last (hc0 : ¬atFirst i) (hc1 : atLast i) (xs9 : Vec F S1024x1 .f32) (xs10 : Vec F S1024x1 .f32) : Vec F S1024x1 .f32 :=
  VS9.read (Elt F) (VS9.writes (Elt F) VS9.junk (runLast c i arg2 harg2 arg3 harg3 arg4 harg4 arg5 harg5 arg6 harg6 arg7 harg7 arg8 harg8 arg9 harg9 arg10 harg10 hc0 hc1 x2 x3 x4 x5 x6 xs9 xs10).2.2.1)
theorem scover10Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.2.2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.2.2.1 S1024x1.size (by sl_kernel_rfl) y
def sout10Last (hc0 : ¬atFirst i) (hc1 : atLast i) (xs9 : Vec F S1024x1 .f32) (xs10 : Vec F S1024x1 .f32) : Vec F S1024x1 .f32 :=
  VS10.read (Elt F) (VS10.writes (Elt F) VS10.junk (runLast c i arg2 harg2 arg3 harg3 arg4 harg4 arg5 harg5 arg6 harg6 arg7 harg7 arg8 harg8 arg9 harg9 arg10 harg10 hc0 hc1 x2 x3 x4 x5 x6 xs9 xs10).2.2.2.1)
theorem cover5Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).1 S1024x1.size (by sl_kernel_rfl) y
def out5Last (hc0 : ¬atFirst i) (hc1 : atLast i) (xs9 : Vec F S1024x1 .f32) (xs10 : Vec F S1024x1 .f32) : Vec F S1024x1 .f32 :=
  VO5.read (Elt F) (VO5.writes (Elt F) VO5.junk (runLast c i arg2 harg2 arg3 harg3 arg4 harg4 arg5 harg5 arg6 harg6 arg7 harg7 arg8 harg8 arg9 harg9 arg10 harg10 hc0 hc1 x2 x3 x4 x5 x6 xs9 xs10).1)
theorem cover6Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.1 S1024x1.size (by sl_kernel_rfl) y
def out6Last (hc0 : ¬atFirst i) (hc1 : atLast i) (xs9 : Vec F S1024x1 .f32) (xs10 : Vec F S1024x1 .f32) : Vec F S1024x1 .f32 :=
  VO6.read (Elt F) (VO6.writes (Elt F) VO6.junk (runLast c i arg2 harg2 arg3 harg3 arg4 harg4 arg5 harg5 arg6 harg6 arg7 harg7 arg8 harg8 arg9 harg9 arg10 harg10 hc0 hc1 x2 x3 x4 x5 x6 xs9 xs10).2.1)

end Cases

/-- Where nothing is stored into an output column its contents after the body are never consulted: placeholders. -/
def outIdle5 : Vec F S1024x1 .f32 := VO5.read (Elt F) (VO5.writes (Elt F) VO5.junk [])
def outIdle6 : Vec F S1024x1 .f32 := VO6.read (Elt F) (VO6.writes (Elt F) VO6.junk [])

end Cert.Kernel.Pass2

end
-- ==== Proof.KPass2Acc.lean ====
/- The second pass, grid point by grid point: what the two output columns' staging buffers and the two scratch columns hold after the
    body at each point — the case the point is in, run on the point's tiles, over what the point before left in the scratch columns —,
    the invariant that carries the scratch columns from point to point, and the proof data of the pass. -/
import proofs.«165275_j48198122996409_2_alg».proof.Proof.KPass2Outs

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- After the body at position `n`: the two output columns' staging buffers (placeholders where nothing is stored into them) and
    the two scratch columns. Positions 0 mod 8 are first column tiles, 7 mod 8 last ones; no position is both. -/
def accAt (c : Dev nD) : (n : ℕ) → n < cfg1.N → Vec F S1024x1 .f32 × Vec F S1024x1 .f32 × Vec F S1024x1 .f32 × Vec F S1024x1 .f32
  | 0, hn => (outIdle5, outIdle6,
           sout9First c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM9 (Memref.isWhole_whole _) scM10 (Memref.isWhole_whole _) (tile V c 0 ⟨0, hn⟩) (tile V c 1 ⟨0, hn⟩) (tile V c 2 ⟨0, hn⟩) (tile V c 3 ⟨0, hn⟩) (tile V c 4 ⟨0, hn⟩) ((atFirst_iff ⟨0, hn⟩).mpr (Nat.zero_mod _)) (fun h => (fun h => by (try dsimp only at h); omega) ((atLast_iff ⟨0, hn⟩).mp h)),
           sout10First c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM9 (Memref.isWhole_whole _) scM10 (Memref.isWhole_whole _) (tile V c 0 ⟨0, hn⟩) (tile V c 1 ⟨0, hn⟩) (tile V c 2 ⟨0, hn⟩) (tile V c 3 ⟨0, hn⟩) (tile V c 4 ⟨0, hn⟩) ((atFirst_iff ⟨0, hn⟩).mpr (Nat.zero_mod _)) (fun h => (fun h => by (try dsimp only at h); omega) ((atLast_iff ⟨0, hn⟩).mp h)))
  | n + 1, hn =>
    if h0 : (n + 1) % 8 = 0 then
      if h1 : (n + 1) % 8 = 7 then
        False.elim (by omega)
      else
        (outIdle5, outIdle6,
           sout9First c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) ((atFirst_iff ⟨n + 1, hn⟩).mpr h0) (fun h => h1 ((atLast_iff ⟨n + 1, hn⟩).mp h)),
           sout10First c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) ((atFirst_iff ⟨n + 1, hn⟩).mpr h0) (fun h => h1 ((atLast_iff ⟨n + 1, hn⟩).mp h)))
    else
      if h1 : (n + 1) % 8 = 7 then
        (out5Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           out6Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           sout9Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           sout10Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2)
      else
        (outIdle5, outIdle6,
           sout9Mid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) (fun h => h1 ((atLast_iff ⟨n + 1, hn⟩).mp h)) (accAt c n (Nat.lt_of_succ_lt hn)).2.2.1 (accAt c n (Nat.lt_of_succ_lt hn)).2.2.2,
           sout10Mid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) (fun h => h1 ((atLast_iff ⟨n + 1, hn⟩).mp h)) (accAt c n (Nat.lt_of_succ_lt hn)).2.2.1 (accAt c n (Nat.lt_of_succ_lt hn)).2.2.2)

/-- At a first column tile: the reset columns lowered by the tile. -/
theorem accAt_first (c : Dev nD) (t : Fin cfg1.N) (h0 : t.val % 8 = 0) (h1 : ¬t.val % 8 = 7) :
    accAt V c t.val t.isLt = (outIdle5, outIdle6,
           sout9First c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h)),
           sout10First c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h))) := by
  obtain ⟨n, hn⟩ := t
  cases n with
  | zero => exact rfl
  | succ n => exact (dif_pos h0).trans ((dif_neg h1).trans rfl)

/-- At a middle column tile: what the tile before left, lowered by the tile. -/
theorem accAt_mid (c : Dev nD) (t : Fin cfg1.N) (h0 : ¬t.val % 8 = 0) (h1 : ¬t.val % 8 = 7) :
    accAt V c t.val t.isLt = (outIdle5, outIdle6,
           sout9Mid c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2,
           sout10Mid c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the same, and the two output columns stored. -/
theorem accAt_last (c : Dev nD) (t : Fin cfg1.N) (h0 : ¬t.val % 8 = 0) (h1 : t.val % 8 = 7) :
    accAt V c t.val t.isLt = (out5Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           out6Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           sout9Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           sout10Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's own buffers other than the two scratch columns (the first pass's staging and scratch buffers), each at anything. -/
def others (c : Dev nD) : sProp 𝕄 :=
  bigSep ((((Finset.univ.filter fun b : Ref sig .tc => b.isScoped) \ Finset.univ.image (Pipeline.stageRef spec1)).erase cc1_scratch0).erase cc1_scratch1)
    fun b => iprop(∃ f : Buf (Elt F) ((c : Thread nD τ).loc b), ((c : Thread nD τ).loc b) ↦{fullShare} f)

/-- What the body may use and need not describe, with the two scratch columns named: each scratch column at anything, the other
    buffers of the kernel's own at anything, the generator register at some state. -/
theorem PhiA_eq (c : Dev nD) :
    (Pipeline.ΦA spec1 c : sProp 𝕄) = iprop(iprop((∃ d, owns (c : Thread nD τ) scM9 fullShare d) ∗ (∃ d, owns (c : Thread nD τ) scM10 fullShare d) ∗ others c) ∗ (∃ r, prngReg c r)) := by
  unfold Pipeline.ΦA Pipeline.scopedRest others
  rw [bigSep_erase (i := cc1_scratch0) (by decide)]
  rw [bigSep_erase (i := cc1_scratch1) (by decide)]
  simp only [scM9, scM10, owns_whole]
  rfl

/-- Before position `n`: at the very first point everything at anything; afterwards each scratch column at what the point before left. -/
def PhiS (c : Dev nD) : (n : ℕ) → n ≤ cfg1.N → sProp 𝕄
  | 0, _ => Pipeline.ΦA spec1 c
  | n + 1, hn => iprop(iprop(owns (c : Thread nD τ) scM9 fullShare ((accAt V c n hn).2.2.1) ∗ owns (c : Thread nD τ) scM10 fullShare ((accAt V c n hn).2.2.2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM9 fullShare ((accAt V c n hn).2.2.1) ∗ owns (c : Thread nD τ) scM10 fullShare ((accAt V c n hn).2.2.2) ∗ others c) ∗ (∃ r, prngReg c r)) := rfl
theorem PhiS_pos (c : Dev nD) (n : ℕ) (h : n ≤ cfg1.N) (hz : n ≠ 0) :
    PhiS V c n h = iprop(iprop(owns (c : Thread nD τ) scM9 fullShare ((accAt V c (n - 1) (by omega)).2.2.1) ∗ owns (c : Thread nD τ) scM10 fullShare ((accAt V c (n - 1) (by omega)).2.2.2) ∗ others c) ∗ (∃ r, prngReg c r)) := by
  cases n with
  | zero => exact absurd rfl hz
  | succ n => rfl

/-! ## The proof data -/

/-- The second pass's proof data on core `c`: the arrays as the pass finds them; after the body at a point each operand's staging
    buffer at its tile and each output column's at `accAt`; the invariant `PhiS`; nothing owed. The two embedding windows read
    one array, each at half of it; the other windows read theirs whole. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => (accAt V c t.val t.isLt).1
    | ⟨6, _⟩ => (accAt V c t.val t.isLt).2.1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = tile V c 0 t := by dsimp only [dat]
theorem after1 (c : Dev nD) (t : Fin cfg1.N) : (dat V c).after 1 t = tile V c 1 t := by dsimp only [dat]
theorem after2 (c : Dev nD) (t : Fin cfg1.N) : (dat V c).after 2 t = tile V c 2 t := by dsimp only [dat]
theorem after3 (c : Dev nD) (t : Fin cfg1.N) : (dat V c).after 3 t = tile V c 3 t := by dsimp only [dat]
theorem after4 (c : Dev nD) (t : Fin cfg1.N) : (dat V c).after 4 t = tile V c 4 t := by dsimp only [dat]
theorem after5 (c : Dev nD) (t : Fin cfg1.N) : (dat V c).after 5 t = (accAt V c t.val t.isLt).1 := by dsimp only [dat]
theorem after6 (c : Dev nD) (t : Fin cfg1.N) : (dat V c).after 6 t = (accAt V c t.val t.isLt).2.1 := by dsimp only [dat]
theorem before0 (c : Dev nD) (t : Fin cfg1.N) (d) : (dat V c).before 0 t d = tile V c 0 t :=
  before0_of V (dat V c) (A_eq V c 0) (after0 V c) t d
theorem before1 (c : Dev nD) (t : Fin cfg1.N) (d) : (dat V c).before 1 t d = tile V c 1 t :=
  before1_of V (dat V c) (A_eq V c 1) (after1 V c) t d
theorem before2 (c : Dev nD) (t : Fin cfg1.N) (d) : (dat V c).before 2 t d = tile V c 2 t :=
  before2_of V (dat V c) (A_eq V c 2) (after2 V c) t d
theorem before3 (c : Dev nD) (t : Fin cfg1.N) (d) : (dat V c).before 3 t d = tile V c 3 t :=
  before3_of V (dat V c) (A_eq V c 3) (after3 V c) t d
theorem before4 (c : Dev nD) (t : Fin cfg1.N) (d) : (dat V c).before 4 t d = tile V c 4 t :=
  before4_of V (dat V c) (A_eq V c 4) (after4 V c) t d

end Entry

end Cert.Kernel.Pass2

end
-- ==== Proof.KPass2Body.lean ====
/- The second pass's body at any grid point meets what the pipeline asks of it: from the operands' tiles in their staging buffers, the
    two output columns' staging buffers as the pipeline hands them, and the invariant before the point, it runs to the invariant after
    the point with the operands' buffers unchanged and the output columns' as the proof data say. -/
import proofs.«165275_j48198122996409_2_alg».proof.Proof.KPass2Acc

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t)

set_option maxHeartbeats 8000000 in
/-- The point is a first, a middle or a last column tile; in each case that case's run applies: the invariant hands it the two scratch
    columns (at anything before the very first point, else at what the point before left) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  by_cases h0 : t.val % 8 = 0
  · by_cases h1 : t.val % 8 = 7
    · exfalso; omega
    · rw [Dat.leavesExact_idle (dat V c) 5 t (idle5 t (fun h => h1 ((atLast_iff t).mp h))) (noFlush5 t (fun h => h1 ((atLast_iff t).mp h)))]
      rw [Dat.leavesExact_idle (dat V c) 6 t (idle6 t (fun h => h1 ((atLast_iff t).mp h))) (noFlush6 t (fun h => h1 ((atLast_iff t).mp h)))]
      rw [accAt_first V c t h0 h1]
      unfold sout9First sout10First; (try dsimp only)
      by_cases hz : t.val = 0
      · rw [PhiS_castSucc V c t, PhiS_zero V c _ _ hz, PhiA_eq]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid1.coords t) _ _ _ _ _ _ _ _ _ _ _ _ _ _ _ _ _ _ ((atFirst_iff t).mpr h0) (fun h => h1 ((atLast_iff t).mp h)) (tile V c 0 t) (tile V c 1 t) (tile V c 2 t) (tile V c 3 t) (tile V c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9First c _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10First c _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid1.coords t) _ _ _ _ _ _ _ _ _ _ _ _ _ _ _ _ _ _ ((atFirst_iff t).mpr h0) (fun h => h1 ((atLast_iff t).mp h)) (tile V c 0 t) (tile V c 1 t) (tile V c 2 t) (tile V c 3 t) (tile V c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexists _; iexact HS9
        isplitl [HS10]; · iexists _; iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9First c _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10First c _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 8 = 7
    · rw [show (dat V c).leavesExact 5 t = owns (c : Thread nD τ) (ms5 t) fullShare ((dat V c).after 5 t) from by
        unfold Dat.leavesExact; rw [live5 t ((atLast_iff t).mpr h1)], after5]
      rw [show (dat V c).leavesExact 6 t = owns (c : Thread nD τ) (ms6 t) fullShare ((dat V c).after 6 t) from by
        unfold Dat.leavesExact; rw [live6 t ((atLast_iff t).mpr h1)], after6]
      rw [accAt_last V c t h0 h1]
      unfold out5Last out6Last sout9Last sout10Last; (try dsimp only)
      by_cases hz : t.val = 0
      · exfalso; omega
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid1.coords t) _ _ _ _ _ _ _ _ _ _ _ _ _ _ _ _ _ _ (fun h => h0 ((atFirst_iff t).mp h)) ((atLast_iff t).mpr h1) (tile V c 0 t) (tile V c 1 t) (tile V c 2 t) (tile V c 3 t) (tile V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS9]; · iexact HS9
        isplitl [HS10]; · iexact HS10
        iintro ⟨H0, H1, H2, H3, H4, ⟨%e5, H5⟩, ⟨%e6, H6⟩, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9Last c _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10Last c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover5Last c _ _ _ _ _ _ _ _ _ _ _ _ _ _ _ _ _ _ _ _ _ _ _ _ _ _ _ _)
        unfold owns; iexists _; isplitr
        swap; · iexact H6
        ipureintro; exact View.read_writes_of_cover _ _ _ _ _ (cover6Last c _ _ _ _ _ _ _ _ _ _ _ _ _ _ _ _ _ _ _ _ _ _ _ _ _ _ _ _)
    · rw [Dat.leavesExact_idle (dat V c) 5 t (idle5 t (fun h => h1 ((atLast_iff t).mp h))) (noFlush5 t (fun h => h1 ((atLast_iff t).mp h)))]
      rw [Dat.leavesExact_idle (dat V c) 6 t (idle6 t (fun h => h1 ((atLast_iff t).mp h))) (noFlush6 t (fun h => h1 ((atLast_iff t).mp h)))]
      rw [accAt_mid V c t h0 h1]
      unfold sout9Mid sout10Mid; (try dsimp only)
      by_cases hz : t.val = 0
      · exfalso; omega
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid1.coords t) _ _ _ _ _ _ _ _ _ _ _ _ _ _ _ _ _ _ (fun h => h0 ((atFirst_iff t).mp h)) (fun h => h1 ((atLast_iff t).mp h)) (tile V c 0 t) (tile V c 1 t) (tile V c 2 t) (tile V c 3 t) (tile V c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9Mid c _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10Mid c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The pipeline's obligation on the body, at every point. -/
theorem body_obligation (c : Dev nD) : BodyObligation (dat (F := F) V c) (defs₀ (F := F)) Variants.none () Set.univ := fun t => by
  rw [bigSep_W1, bigSep_W1]
  exact sound_body V c t

/-- What the pass is handed is the invariant before the first point, -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch columns' contents forgotten. -/
theorem phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HS9, HS10, Hoth⟩, Hg⟩
  isplitl [HS9 HS10 Hoth]
  · isplitl [HS9]
    · iexists _; iexact HS9
    isplitl [HS10]
    · iexists _; iexact HS10
    iexact Hoth
  iexact Hg

end Entry

end Cert.Kernel.Pass2

end
-- ==== Proof.KRunDefs.lean ====
/- The whole program between its two passes: what each pass is entered with, what it leaves, and the proof data of both.
    The first pass is entered after the host lines that normalise the embeddings and reshape the labels; the second pass is entered
    with, in addition, the column the first pass wrote. -/
import proofs.«165275_j48198122996409_2_alg».proof.Proof.KPass1Arrays
import proofs.«165275_j48198122996409_2_alg».proof.Proof.KPass2Body
import proofs.«165275_j48198122996409_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The core's buffers when the first pass is entered. -/
abbrev Vin0 : (c : Dev nD) → (b : Ref sig .tc) → Buf (Elt F) ((c : Thread nD τ).loc b) := fun c b => V1 m c b
/-- The column the first pass writes. -/
def res9 (c : Dev nD) : Buf (Elt F) ((c : Thread nD τ).loc main_v9) := (Pass1.dat (Vin0 m) c).arrAt 4 cfg0.N
/-- The core's buffers when the second pass is entered: as before, with that column. -/
abbrev Vin1 : (c : Dev nD) → (b : Ref sig .tc) → Buf (Elt F) ((c : Thread nD τ).loc b) :=
  fun c b => (Function.update (V1 m c) main_v9 (res9 m c) : Valuation τ sig (Elt F)) b
/-- The two columns the second pass writes. -/
def res10a (c : Dev nD) : Buf (Elt F) ((c : Thread nD τ).loc main_v10_0) := (Pass2.dat (Vin1 m) c).arrAt 5 cfg1.N
def res10b (c : Dev nD) : Buf (Elt F) ((c : Thread nD τ).loc main_v10_1) := (Pass2.dat (Vin1 m) c).arrAt 6 cfg1.N

/-- What the passes leave, as the one table the run's valuations are written over. -/
def outs : Outs (F := F) := fun _ r c =>
  if h : r = main_v9 then h ▸ res9 m c
  else if h : r = main_v10_0 then h ▸ res10a m c
  else if h : r = main_v10_1 then h ▸ res10b m c
  else V1 m c r

theorem outs_v9 (J : ℕ) (c : Dev nD) : outs m J main_v9 c = res9 m c := by
  unfold outs; rw [dif_pos rfl]
theorem outs_v10a (J : ℕ) (c : Dev nD) : outs m J main_v10_0 c = res10a m c := by
  unfold outs; rw [dif_neg (by decide), dif_pos rfl]
theorem outs_v10b (J : ℕ) (c : Dev nD) : outs m J main_v10_1 c = res10b m c := by
  unfold outs; rw [dif_neg (by decide), dif_neg (by decide), dif_pos rfl]

/-- After the first pass the buffers are the second pass's entry contents. -/
theorem V2_eq (c : Dev nD) (b : Ref sig .tc) : V2 m (outs m) c b = Vin1 m c b := by
  simp only [V2, outs_v9]

/-- Both passes' proof data, each at its pass's entry contents. -/
def pdats : (p : Fin 2) → (c : Dev nD) → Dat τ (Elt F) Unit ℕ (UR sig nD τ) ℕ (Pipeline.pin (pcfgs (F := F)) adm p) c
  | ⟨0, _⟩ => fun c => Pass1.dat (Vin0 m) c
  | ⟨1, _⟩ => fun c => Pass2.dat (Vin1 m) c

abbrev 𝒱₀ : Variants := Variants.none
/-- No core owes another anything. -/
abbrev L : GSem nD τ sig → Finset Unit := fun _ => ∅
abbrev lv : GSem nD τ sig → Unit → ℕ := fun _ _ => 0
/-- What rides beside the buffers through the whole run: the generator register at some state, and nothing owed. -/
abbrev R (c : Dev nD) : sProp 𝕄 := iprop((∃ r, prngReg c r) ∗ ∃ W, owes (c : Thread nD τ) (0 : CellTallies nD τ sig Unit) W)

end Cert.Kernel.Run

end
-- ==== Proof.KRun0.lean ====
/- The first pass as one item of the program's run: entered from every unscoped buffer at the contents the host lines before it leave,
    left with the output column's array at what the pass wrote and every other buffer as it was. -/
import proofs.«165275_j48198122996409_2_alg».proof.Proof.KRunDefs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration takes unfolding plain definitions in a metavariable's type
set_option backward.isDefEq.respectTransparency.types false in
set_option maxHeartbeats 4000000 in
/-- The first pass over the thread state "every unscoped buffer at named contents, the generator register at some state, nothing
    owed". Its arrays are split out of the unscoped buffers at the entry (the embeddings' array halved between its two windows) and
    put back at the exit; the generator register passes through the invariant; the kernel has no semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Pass1.body_obligation (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs c (Vin0 m c) : sProp 𝕄)
        ⊢ iprop((pdats m 0 c).arrays ((pdats m 0 c).arrAt · 0) ∗ Pipeline.unscopedRest spec0 c (Vin0 m c)) := by
      rw [Pipeline.unscopedBufs_split₀ (Pipeline.pin (pcfgs (F := F)) adm) 0 winFacts₀0.arr_unscoped c (Vin0 m c)]
      exact sep_mono (Pass1.arrays_in (Vin0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pass1.phi_in (Vin0 m) c)
    unfold Pipeline.ΦA
    iintro ⟨Hp, -, Hr⟩
    isplitl [Hr]; · iexact Hr
    iexact Hp
  hout c := by
    rw [Pipeline.ownSems0_none]
    refine (Pass1.phi_out (Vin0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (unscopedBufs c (fun b => V2 m (outs m) c b) : sProp 𝕄) := by
      rw [Pipeline.unscopedBufs_split₀ (Pipeline.pin (pcfgs (F := F)) adm) 0 winFacts₀0.arr_unscoped c (fun b => V2 m (outs m) c b)]
      refine sep_mono (Pass1.arrays_out (Vin0 m) c (fun b => V2 m (outs m) c b)
        (V2_of m (outs m) c main_v6 (by decide)) (V2_of m (outs m) c main_v7 (by decide)) (V2_of m (outs m) c main_v8 (by decide))
        (by simp only [V2, Function.update_self, outs_v9]; rfl)) (Entails.of_eq ?_)
      unfold Pipeline.unscopedRest
      exact bigSep_congr fun b hb => by
        have hb' : b ∉ ([main_v9] : List (Ref sig .tc)) := fun h => (Finset.mem_sdiff.mp hb).2 (by
          rw [Pass1.arrRefs_eq]; simp only [List.mem_singleton] at h; subst h; decide)
        beta_reduce
        rw [V2_of m (outs m) c b hb']
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KPass2Arrays.lean ====
/- The second pass's arrays at its entry and at its exit. Its seven windows stand on six arrays: the two embedding windows read one
    array, each holding half of it; so the arrays held whole when the pass is entered are split window by window, and put together
    again when it is left, the two output columns' arrays at what the pass wrote. -/
import proofs.«165275_j48198122996409_2_alg».proof.Proof.KPass2Body

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The six arrays behind the seven windows. -/
theorem arrRefs_eq : Finset.univ.image (Pipeline.arrRef spec1) = {main_v6, main_v7, main_v8, main_v9, main_v10_0, main_v10_1} := by decide

/-- The six arrays, each held whole at contents `W`, one by one. -/
theorem arrBufs_eq (c : Dev nD) (W : (b : Ref sig .tc) → Buf (Elt F) ((c : Thread nD τ).loc b)) :
    (Pipeline.arrBufs spec1 c W : sProp 𝕄)
      = iprop((((c : Thread nD τ).loc main_v6) ↦{fullShare} W main_v6) ∗ (((c : Thread nD τ).loc main_v7) ↦{fullShare} W main_v7)
          ∗ (((c : Thread nD τ).loc main_v8) ↦{fullShare} W main_v8) ∗ (((c : Thread nD τ).loc main_v9) ↦{fullShare} W main_v9)
          ∗ (((c : Thread nD τ).loc main_v10_0) ↦{fullShare} W main_v10_0) ∗ (((c : Thread nD τ).loc main_v10_1) ↦{fullShare} W main_v10_1)) := by
  unfold Pipeline.arrBufs
  rw [arrRefs_eq, bigSep_insert (by decide), bigSep_insert (by decide), bigSep_insert (by decide), bigSep_insert (by decide),
    bigSep_insert (by decide), BI.bigSep_singleton]
  rfl

set_option maxHeartbeats 4000000 in
/-- ENTRY: the six arrays, each held whole at the entry contents, are the seven windows' arrays at the proof data's entry contents:
    the embeddings' array is halved between its two windows. -/
theorem arrays_in (c : Dev nD) :
    (Pipeline.arrBufs spec1 c (V c) : sProp 𝕄) ⊢ (dat V c).arrays ((dat V c).arrAt · 0) := by
  rw [arrBufs_eq]
  unfold Dat.arrays
  rw [bigSep_W1]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have s5 : (dat V c).share 5 = fullShare := rfl
  have s6 : (dat V c).share 6 = fullShare := rfl
  have a0 : (dat V c).arrAt 0 0 = V c main_v6 := rfl
  have a1 : (dat V c).arrAt 1 0 = V c main_v6 := rfl
  have a2 : (dat V c).arrAt 2 0 = V c main_v7 := rfl
  have a3 : (dat V c).arrAt 3 0 = V c main_v8 := rfl
  have a4 : (dat V c).arrAt 4 0 = V c main_v9 := rfl
  have a5 : (dat V c).arrAt 5 0 = V c main_v10_0 := rfl
  have a6 : (dat V c).arrAt 6 0 = V c main_v10_1 := rfl
  rw [s0, s1, s2, s3, s4, s5, s6]
  beta_reduce
  rw [a0, a1, a2, a3, a4, a5, a6]
  have u0 : (cfg1.win 0).arr.view.set = Finset.univ := (arr_whole1 0).set_eq_univ
  have u1 : (cfg1.win 1).arr.view.set = Finset.univ := (arr_whole1 1).set_eq_univ
  have u2 : (cfg1.win 2).arr.view.set = Finset.univ := (arr_whole1 2).set_eq_univ
  have u3 : (cfg1.win 3).arr.view.set = Finset.univ := (arr_whole1 3).set_eq_univ
  have u4 : (cfg1.win 4).arr.view.set = Finset.univ := (arr_whole1 4).set_eq_univ
  have u5 : (cfg1.win 5).arr.view.set = Finset.univ := (arr_whole1 5).set_eq_univ
  have u6 : (cfg1.win 6).arr.view.set = Finset.univ := (arr_whole1 6).set_eq_univ
  simp only [u0, u1, u2, u3, u4, u5, u6]
  iintro ⟨H6, H7, H8, H9, H10, H11⟩
  ihave H6' := (pointsTo_share (PosShare.mem_left_op_right fullShare)).1 $$ H6
  icases H6' with ⟨H6l, H6r⟩
  isplitl [H6l]; · iexact H6l
  isplitl [H6r]; · iexact H6r
  isplitl [H7]; · iexact H7
  isplitl [H8]; · iexact H8
  isplitl [H9]; · iexact H9
  isplitl [H10]; · iexact H10
  iexact H11

set_option maxHeartbeats 4000000 in
/-- EXIT: the seven windows' arrays at the proof data's final contents are the six arrays, each held whole, at any contents `W`
    that agree with the entry contents on the four arrays the pass only reads and have the two output columns' arrays at what the
    pass wrote: the two halves of the embeddings' array are put together again. -/
theorem arrays_out (c : Dev nD) (W : (b : Ref sig .tc) → Buf (Elt F) ((c : Thread nD τ).loc b))
    (h6 : W main_v6 = V c main_v6) (h7 : W main_v7 = V c main_v7) (h8 : W main_v8 = V c main_v8) (h9 : W main_v9 = V c main_v9)
    (h10 : W main_v10_0 = (dat V c).arrAt 5 cfg1.N) (h11 : W main_v10_1 = (dat V c).arrAt 6 cfg1.N) :
    (dat V c).arrays ((dat V c).arrAt · cfg1.N) ⊢ (Pipeline.arrBufs spec1 c W : sProp 𝕄) := by
  rw [arrBufs_eq, h6, h7, h8, h9, h10, h11]
  unfold Dat.arrays
  rw [bigSep_W1]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have s5 : (dat V c).share 5 = fullShare := rfl
  have s6 : (dat V c).share 6 = fullShare := rfl
  have a0 : (dat V c).arrAt 0 cfg1.N = V c main_v6 := ((dat V c).arrAt_in 0 rfl _).trans (A_eq V c 0)
  have a1 : (dat V c).arrAt 1 cfg1.N = V c main_v6 := ((dat V c).arrAt_in 1 rfl _).trans (A_eq V c 1)
  have a2 : (dat V c).arrAt 2 cfg1.N = V c main_v7 := ((dat V c).arrAt_in 2 rfl _).trans (A_eq V c 2)
  have a3 : (dat V c).arrAt 3 cfg1.N = V c main_v8 := ((dat V c).arrAt_in 3 rfl _).trans (A_eq V c 3)
  have a4 : (dat V c).arrAt 4 cfg1.N = V c main_v9 := ((dat V c).arrAt_in 4 rfl _).trans (A_eq V c 4)
  rw [s0, s1, s2, s3, s4, s5, s6]
  beta_reduce
  rw [a0, a1, a2, a3, a4]
  have u0 : (cfg1.win 0).arr.view.set = Finset.univ := (arr_whole1 0).set_eq_univ
  have u1 : (cfg1.win 1).arr.view.set = Finset.univ := (arr_whole1 1).set_eq_univ
  have u2 : (cfg1.win 2).arr.view.set = Finset.univ := (arr_whole1 2).set_eq_univ
  have u3 : (cfg1.win 3).arr.view.set = Finset.univ := (arr_whole1 3).set_eq_univ
  have u4 : (cfg1.win 4).arr.view.set = Finset.univ := (arr_whole1 4).set_eq_univ
  have u5 : (cfg1.win 5).arr.view.set = Finset.univ := (arr_whole1 5).set_eq_univ
  have u6 : (cfg1.win 6).arr.view.set = Finset.univ := (arr_whole1 6).set_eq_univ
  simp only [u0, u1, u2, u3, u4, u5, u6]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

end Entry

end Cert.Kernel.Pass2

end
-- ==== Proof.KRun1.lean ====
/- The second pass as one item of the program's run: entered from every unscoped buffer at the first pass's exit contents, left with
    its two output columns' arrays at what it wrote and every other buffer as it was. -/
import proofs.«165275_j48198122996409_2_alg».proof.Proof.KRun0
import proofs.«165275_j48198122996409_2_alg».proof.Proof.KPass2Arrays

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers after the first pass, as one valuation: the entry contents with the first pass's column. -/
theorem V2_val (c : Dev nD) : V2 m (outs m) c = Function.update (V1 m c) main_v9 (res9 m c) := by
  simp only [V2, outs_v9]

-- applying a library lemma stated over the pinned configuration takes unfolding plain definitions in a metavariable's type
set_option backward.isDefEq.respectTransparency.types false in
set_option maxHeartbeats 4000000 in
/-- The second pass over the same kind of thread state as the first. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pass2.body_obligation (Vin1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V2_val]
    have hsplit : (unscopedBufs c (Vin1 m c) : sProp 𝕄)
        ⊢ iprop((pdats m 1 c).arrays ((pdats m 1 c).arrAt · 0) ∗ Pipeline.unscopedRest spec1 c (Vin1 m c)) := by
      rw [Pipeline.unscopedBufs_split₀ (Pipeline.pin (pcfgs (F := F)) adm) 1 winFacts₀1.arr_unscoped c (Vin1 m c)]
      exact sep_mono (Pass2.arrays_in (Vin1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pass2.phi_in (Vin1 m) c)
    unfold Pipeline.ΦA
    iintro ⟨Hp, -, Hr⟩
    isplitl [Hr]; · iexact Hr
    iexact Hp
  hout c := by
    rw [Pipeline.ownSems0_none]
    refine (Pass2.phi_out (Vin1 m) c).trans ?_
    unfold Pipeline.ΦA
    iintro ⟨Hr, Hp⟩
    isplitl [Hp]; · iexact Hp
    isplitr; · iempintro
    iexact Hr
  hexit c := by
    have hkeep : ∀ b : Ref sig .tc, b ∉ ([main_v10_0, main_v10_1] : List (Ref sig .tc)) → V3 m (outs m) c b = Vin1 m c b :=
      fun b hb => (V3_of m (outs m) c b hb).trans (V2_eq m c b)
    have hjoin : iprop((pdats m 1 c).arrays ((pdats m 1 c).arrAt · cfg1.N) ∗ Pipeline.unscopedRest spec1 c (Vin1 m c))
        ⊢ (unscopedBufs c (fun b => V3 m (outs m) c b) : sProp 𝕄) := by
      rw [Pipeline.unscopedBufs_split₀ (Pipeline.pin (pcfgs (F := F)) adm) 1 winFacts₀1.arr_unscoped c (fun b => V3 m (outs m) c b)]
      refine sep_mono (Pass2.arrays_out (Vin1 m) c (fun b => V3 m (outs m) c b)
        (hkeep main_v6 (by decide)) (hkeep main_v7 (by decide)) (hkeep main_v8 (by decide)) (hkeep main_v9 (by decide))
        (by simp only [V3, Function.update_self, Function.update_of_ne (StableHlo.devRef_ne_of_ne (by decide : main_v10_0 ≠ main_v10_1) : (Proc.devRef .tc main_v10_0 : DevRef τ sig) ≠ Proc.devRef .tc main_v10_1), outs_v10a]; rfl)
        (by simp only [V3, Function.update_self, outs_v10b]; rfl)) (Entails.of_eq ?_)
      unfold Pipeline.unscopedRest
      exact bigSep_congr fun b hb => by
        have hb' : b ∉ ([main_v10_0, main_v10_1] : List (Ref sig .tc)) := fun h => (Finset.mem_sdiff.mp hb).2 (by
          rw [Pass2.arrRefs_eq]; simp only [List.mem_cons, List.mem_nil_iff, or_false] at h; rcases h with rfl | rfl <;> decide)
        beta_reduce
        rw [hkeep b hb']
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KFrame.lean ====
/- The program runs to its end, faults nowhere, and leaves its two arguments as launched: the host lines and the two passes in order,
    each entered from what the one before left. -/
import proofs.«165275_j48198122996409_2_alg».proof.Proof.KRun1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- the library theorem's implicit arguments are found by unifying its conclusion with this one
set_option backward.isDefEq.respectTransparency.types false in
set_option maxHeartbeats 4000000 in
/-- At the compiled mesh, for any float values, from any memory with zero counters: every weakly fair execution of the program on the
    TensorCores terminates, nothing faulting, and every final state has the embeddings and the labels as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.Kernel.Run

end
-- ==== Proof.KIPass1Cond.lean ====
/- The first pass computes, for each anchor row, the largest distance to a row of the same label other than itself.
    Its grid is 8 row tiles by 8 column tiles; the running maximum of a row tile lives in a scratch column that is reset at the
    first column tile, raised at every column tile, and copied to the output column at the last one. -/
import proofs.«165275_j48198122996409_2_alg».proof.Proof.Gen.KernelIdeal.Launch
import proofs.«165275_j48198122996409_2_alg».proof.Proof.Gen.KernelIdeal.Skeleton
import proofs.«165275_j48198122996409_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one (the running maximum is reset before it is raised). -/
abbrev atFirst (i : grid0.Coords) : Prop :=
  (Scalar.cmpi .ne (Scalar.extui (Scalar.cmpi .eq (BitVec.ofNat 32 (i 1).val) 0#32)) 0#32) = 1#1
/-- The column tile is the last one (the running maximum is copied out). -/
abbrev atLast (i : grid0.Coords) : Prop := k0_cond2 i = 1#1

/-- Over the 64 grid points, numbered row tile by row tile: the first column tile is where the point number is 0 mod 8, -/
theorem atFirst_iff : ∀ t : Fin cfg0.N, atFirst (grid0.coords t) ↔ t.val % 8 = 0 :=
  (by decide +kernel : ∀ t : Fin grid0.N, atFirst (grid0.coords t) ↔ t.val % 8 = 0)
/-- and the last where it is 7 mod 8. -/
theorem atLast_iff : ∀ t : Fin cfg0.N, atLast (grid0.coords t) ↔ t.val % 8 = 7 :=
  (by decide +kernel : ∀ t : Fin grid0.N, atLast (grid0.coords t) ↔ t.val % 8 = 7)

end Cert.KernelIdeal.Pass1

end
-- ==== Proof.KIPass1First.lean ====
/- The first pass's body at the first column tile of a row tile: the scratch column is reset to the fill value and then
    raised to the tile's row maxima; the output column is not touched. -/
import proofs.«165275_j48198122996409_2_alg».proof.Proof.KIPass1Cond

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column tile, on whole staging buffers — the two embedding tiles and the two label tiles at their contents, the
    output column at contents that are handed back untouched, the scratch column at anything — the body runs to the end
    leaving the inputs and the output column as they were and the scratch column with the listed pieces written (the list is
    what the run finds). -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i)
    (x2 : Vec F S1024x128 .bf16) (x3 : Vec F S1024x128 .bf16) (x4 : Vec F S1024x1 .i32) (x5 : Vec F S1x1024 .i32) :
    { LS : List (View.Piece (Elt F) S1024x1 .f32) //
      ∀ (xi6 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, fun xi6 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Pass1

end
-- ==== Proof.KIPass1Mid.lean ====
/- The first pass's body at a column tile that is neither the first nor the last of its row tile: the scratch column, holding the
    maxima over the column tiles before, is raised to the maxima including this tile's; the output column is not touched. -/
import proofs.«165275_j48198122996409_2_alg».proof.Proof.KIPass1First

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column tile, on whole staging buffers — the inputs at their contents, the output column at contents handed back
    untouched, the scratch column at the contents `xs` the tile before left — the body runs to the end leaving the inputs and the
    output column as they were and the scratch column with the listed pieces written. -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i)
    (x2 : Vec F S1024x128 .bf16) (x3 : Vec F S1024x128 .bf16) (x4 : Vec F S1024x1 .i32) (x5 : Vec F S1x1024 .i32) (xs : Vec F S1024x1 .f32) :
    { LS : List (View.Piece (Elt F) S1024x1 .f32) //
      ∀ (xi6 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, fun xi6 E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Pass1

end
-- ==== Proof.KIPass1Last.lean ====
/- The first pass's body at the last column tile of a row tile: the scratch column is raised to the maxima over all eight column
    tiles, and that column is copied into the output column. -/
import proofs.«165275_j48198122996409_2_alg».proof.Proof.KIPass1Mid

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column tile, on whole staging buffers — the inputs at their contents, the output column at anything, the scratch
    column at the contents `xs` the tile before left — the body runs to the end leaving the inputs as they were, the output
    column with its listed pieces written and the scratch column with its listed pieces written. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i)
    (x2 : Vec F S1024x128 .bf16) (x3 : Vec F S1024x128 .bf16) (x4 : Vec F S1024x1 .i32) (x5 : Vec F S1x1024 .i32) (xs : Vec F S1024x1 .f32) :
    Σ' (L6 : List (View.Piece (Elt F) S1024x1 .f32)), { LS : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.KernelIdeal.Pass1

end
-- ==== Proof.KIPass1Outs.lean ====
/- The first pass, tile by tile: the tiles of the operands at a grid point, where the output column is stored and where it is
    left alone, and what each of the three cases of the body leaves in the scratch column and in the output column. -/
import proofs.«165275_j48198122996409_2_alg».proof.Proof.KIPass1Last

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles at a grid point -/

section Entry
-- the contents of the core's buffers when the first pass is entered
variable (V : (c : Dev nD) → (b : Ref sig .tc) → Buf (Elt F) ((c : Thread nD τ).loc b))

/-- Operand `w`'s tile at grid point `t`, read off its array as the pass finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the embeddings is in its staging buffer at every grid point, moved there at that point or kept from the one before. -/
theorem before0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The column tile of the embeddings likewise, -/
theorem before1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- the row tile of the labels, -/
theorem before2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- and the column tile of the labels. -/
theorem before3_of {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

end Entry

/-! ## Where the output column is stored -/

/-- The four operands are read at every grid point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the output column, and its tile is not written back there; -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
/-- at the last column tile it is stored. -/
theorem live4 : ∀ t : Fin cfg0.N, atLast (grid0.coords t) → cfg0.idle 4 (grid0.coords t) = false := by decide +kernel

/-! ## The buffers the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The scratch column: a buffer of the kernel's own, passed beside the staging buffers. -/
abbrev scM : Memref sig .tc .vmem S1024x1 .f32 := Memref.whole cc0_scratch0
/-- The scratch column and one staging buffer of the output column as views: contents are stated through them. -/
abbrev VS : View sig .tc .vmem S1024x1 .f32 := scM.view
abbrev VO : View sig .tc .vmem S1024x1 .f32 := (Memref.whole cc0_stg4_0 : Memref sig .tc .vmem S1024x1 .f32).view

/-! ## What each case leaves -/

section Cases
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32)

/-- At a first column tile the pieces written into the scratch column cover it, -/
theorem scoverFirst (hc0 : atFirst i) (hc1 : ¬atLast i) (y : S1024x1.Idx) :
    ∃ pc ∈ (runFirst c i arg2 harg2 arg3 harg3 arg4 harg4 arg5 harg5 arg6 harg6 arg7 harg7 hc0 hc1 x2 x3 x4 x5).1, y ∈ pc.1.set :=
  View.cover_of_tiledL (runFirst c i arg2 harg2 arg3 harg3 arg4 harg4 arg5 harg5 arg6 harg6 arg7 harg7 hc0 hc1 x2 x3 x4 x5).1 S1024x1.size (by sl_kernel_rfl) y
/-- and read back they are what the case leaves in it. -/
def soutFirst (hc0 : atFirst i) (hc1 : ¬atLast i) : Vec F S1024x1 .f32 :=
  VS.read (Elt F) (VS.writes (Elt F) VS.junk (runFirst c i arg2 harg2 arg3 harg3 arg4 harg4 arg5 harg5 arg6 harg6 arg7 harg7 hc0 hc1 x2 x3 x4 x5).1)

/-- At a middle column tile likewise, over the contents `xs` the tile before left. -/
theorem scoverMid (hc0 : ¬atFirst i) (hc1 : ¬atLast i) (xs : Vec F S1024x1 .f32) (y : S1024x1.Idx) :
    ∃ pc ∈ (runMid c i arg2 harg2 arg3 harg3 arg4 harg4 arg5 harg5 arg6 harg6 arg7 harg7 hc0 hc1 x2 x3 x4 x5 xs).1, y ∈ pc.1.set :=
  View.cover_of_tiledL (runMid c i arg2 harg2 arg3 harg3 arg4 harg4 arg5 harg5 arg6 harg6 arg7 harg7 hc0 hc1 x2 x3 x4 x5 xs).1 S1024x1.size (by sl_kernel_rfl) y
def soutMid (hc0 : ¬atFirst i) (hc1 : ¬atLast i) (xs : Vec F S1024x1 .f32) : Vec F S1024x1 .f32 :=
  VS.read (Elt F) (VS.writes (Elt F) VS.junk (runMid c i arg2 harg2 arg3 harg3 arg4 harg4 arg5 harg5 arg6 harg6 arg7 harg7 hc0 hc1 x2 x3 x4 x5 xs).1)

/-- At a last column tile the pieces written into the scratch column cover it, and so do those written into the output column. -/
theorem scoverLast (hc0 : ¬atFirst i) (hc1 : atLast i) (xs : Vec F S1024x1 .f32) (y : S1024x1.Idx) :
    ∃ pc ∈ (runLast c i arg2 harg2 arg3 harg3 arg4 harg4 arg5 harg5 arg6 harg6 arg7 harg7 hc0 hc1 x2 x3 x4 x5 xs).2.1, y ∈ pc.1.set :=
  View.cover_of_tiledL (runLast c i arg2 harg2 arg3 harg3 arg4 harg4 arg5 harg5 arg6 harg6 arg7 harg7 hc0 hc1 x2 x3 x4 x5 xs).2.1 S1024x1.size (by sl_kernel_rfl) y
def soutLast (hc0 : ¬atFirst i) (hc1 : atLast i) (xs : Vec F S1024x1 .f32) : Vec F S1024x1 .f32 :=
  VS.read (Elt F) (VS.writes (Elt F) VS.junk (runLast c i arg2 harg2 arg3 harg3 arg4 harg4 arg5 harg5 arg6 harg6 arg7 harg7 hc0 hc1 x2 x3 x4 x5 xs).2.1)
theorem coverLast (hc0 : ¬atFirst i) (hc1 : atLast i) (xs : Vec F S1024x1 .f32) (y : S1024x1.Idx) :
    ∃ pc ∈ (runLast c i arg2 harg2 arg3 harg3 arg4 harg4 arg5 harg5 arg6 harg6 arg7 harg7 hc0 hc1 x2 x3 x4 x5 xs).1, y ∈ pc.1.set :=
  View.cover_of_tiledL (runLast c i arg2 harg2 arg3 harg3 arg4 harg4 arg5 harg5 arg6 harg6 arg7 harg7 hc0 hc1 x2 x3 x4 x5 xs).1 S1024x1.size (by sl_kernel_rfl) y
def outLast (hc0 : ¬atFirst i) (hc1 : atLast i) (xs : Vec F S1024x1 .f32) : Vec F S1024x1 .f32 :=
  VO.read (Elt F) (VO.writes (Elt F) VO.junk (runLast c i arg2 harg2 arg3 harg3 arg4 harg4 arg5 harg5 arg6 harg6 arg7 harg7 hc0 hc1 x2 x3 x4 x5 xs).1)

end Cases

/-- Where nothing is stored into the output column its contents after the body are never consulted: a placeholder. -/
def outIdle : Vec F S1024x1 .f32 := VO.read (Elt F) (VO.writes (Elt F) VO.junk [])

end Cert.KernelIdeal.Pass1

end
-- ==== Proof.KIPass1Acc.lean ====
/- The first pass, grid point by grid point: what the output column's staging buffer and the scratch column hold after the body at
    each point — the case the point is in, run on the point's tiles, over what the point before left in the scratch column —, the
    invariant that carries the scratch column from point to point, and the proof data of the pass. -/
import proofs.«165275_j48198122996409_2_alg».proof.Proof.KIPass1Outs

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- After the body at position `n`: the output column's staging buffer (a placeholder where nothing is stored into it) and the
    scratch column. Positions 0 mod 8 are first column tiles, 7 mod 8 last ones; no position is both. -/
def accAt (c : Dev nD) : (n : ℕ) → n < cfg0.N → Vec F S1024x1 .f32 × Vec F S1024x1 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (tile V c 0 ⟨0, hn⟩) (tile V c 1 ⟨0, hn⟩) (tile V c 2 ⟨0, hn⟩) (tile V c 3 ⟨0, hn⟩) ((atFirst_iff ⟨0, hn⟩).mpr (Nat.zero_mod _)) (fun h => (fun h => by (try dsimp only at h); omega) ((atLast_iff ⟨0, hn⟩).mp h)))
  | n + 1, hn =>
    if h0 : (n + 1) % 8 = 0 then
      if h1 : (n + 1) % 8 = 7 then
        False.elim (by omega)
      else
        (outIdle, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) ((atFirst_iff ⟨n + 1, hn⟩).mpr h0) (fun h => h1 ((atLast_iff ⟨n + 1, hn⟩).mp h)))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) ((atLast_iff ⟨n + 1, hn⟩).mpr h1) (accAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) ((atLast_iff ⟨n + 1, hn⟩).mpr h1) (accAt c n (Nat.lt_of_succ_lt hn)).2)
      else
        (outIdle, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (tile V c 0 ⟨n + 1, hn⟩) (tile V c 1 ⟨n + 1, hn⟩) (tile V c 2 ⟨n + 1, hn⟩) (tile V c 3 ⟨n + 1, hn⟩) (fun h => h0 ((atFirst_iff ⟨n + 1, hn⟩).mp h)) (fun h => h1 ((atLast_iff ⟨n + 1, hn⟩).mp h)) (accAt c n (Nat.lt_of_succ_lt hn)).2)

/-- At a first column tile: the reset column raised by the tile. -/
theorem accAt_first (c : Dev nD) (t : Fin cfg0.N) (h0 : t.val % 8 = 0) (h1 : ¬t.val % 8 = 7) :
    accAt V c t.val t.isLt = (outIdle, soutFirst c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) ((atFirst_iff t).mpr h0) (fun h => h1 ((atLast_iff t).mp h))) := by
  obtain ⟨n, hn⟩ := t
  cases n with
  | zero => exact rfl
  | succ n => exact (dif_pos h0).trans ((dif_neg h1).trans rfl)

/-- At a middle column tile: what the tile before left, raised by the tile. -/
theorem accAt_mid (c : Dev nD) (t : Fin cfg0.N) (h0 : ¬t.val % 8 = 0) (h1 : ¬t.val % 8 = 7) :
    accAt V c t.val t.isLt = (outIdle, soutMid c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) (fun h => h1 ((atLast_iff t).mp h)) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile: the same, and the column copied out. -/
theorem accAt_last (c : Dev nD) (t : Fin cfg0.N) (h0 : ¬t.val % 8 = 0) (h1 : t.val % 8 = 7) :
    accAt V c t.val t.isLt = (outLast c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) ((atLast_iff t).mpr h1) (accAt V c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) scM (Memref.isWhole_whole _) (tile V c 0 t) (tile V c 1 t) (tile V c 2 t) (tile V c 3 t) (fun h => h0 ((atFirst_iff t).mp h)) ((atLast_iff t).mpr h1) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's own buffers other than the scratch column (the second pass's staging and scratch buffers), each at anything. -/
def others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- What the body may use and need not describe, with the scratch column named: the scratch column at anything, the other
    buffers of the kernel's own at anything, the generator register at some state. -/
theorem PhiA_eq (c : Dev nD) :
    (Pipeline.ΦA spec0 c : sProp 𝕄) = iprop(iprop((∃ d, owns (c : Thread nD τ) scM fullShare d) ∗ others c) ∗ (∃ r, prngReg c r)) := by
  unfold Pipeline.ΦA Pipeline.scopedRest others
  rw [bigSep_erase (i := cc0_scratch0) (by decide)]
  simp only [scM, owns_whole]
  rfl

/-- Before position `n`: at the very first point everything at anything; afterwards the scratch column at what the point before left. -/
def PhiS (c : Dev nD) : (n : ℕ) → n ≤ cfg0.N → sProp 𝕄
  | 0, _ => Pipeline.ΦA spec0 c
  | n + 1, hn => iprop(iprop(owns (c : Thread nD τ) scM fullShare ((accAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((accAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((accAt V c (n - 1) (by omega)).2) ∗ others c) ∗ (∃ r, prngReg c r)) := by
  cases n with
  | zero => exact absurd rfl hz
  | succ n => rfl

/-! ## The proof data -/

/-- The first pass's proof data on core `c`: the arrays as the pass finds them; after the body at a point each operand's staging
    buffer at its tile and the output column's at `accAt`; the invariant `PhiS`; nothing owed. The two embedding windows read
    one array, each at half of it; the label windows read theirs whole. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => (accAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = tile V c 0 t := by dsimp only [dat]
theorem after1 (c : Dev nD) (t : Fin cfg0.N) : (dat V c).after 1 t = tile V c 1 t := by dsimp only [dat]
theorem after2 (c : Dev nD) (t : Fin cfg0.N) : (dat V c).after 2 t = tile V c 2 t := by dsimp only [dat]
theorem after3 (c : Dev nD) (t : Fin cfg0.N) : (dat V c).after 3 t = tile V c 3 t := by dsimp only [dat]
theorem after4 (c : Dev nD) (t : Fin cfg0.N) : (dat V c).after 4 t = (accAt V c t.val t.isLt).1 := by dsimp only [dat]
theorem before0 (c : Dev nD) (t : Fin cfg0.N) (d) : (dat V c).before 0 t d = tile V c 0 t :=
  before0_of V (dat V c) (A_eq V c 0) (after0 V c) t d
theorem before1 (c : Dev nD) (t : Fin cfg0.N) (d) : (dat V c).before 1 t d = tile V c 1 t :=
  before1_of V (dat V c) (A_eq V c 1) (after1 V c) t d
theorem before2 (c : Dev nD) (t : Fin cfg0.N) (d) : (dat V c).before 2 t d = tile V c 2 t :=
  before2_of V (dat V c) (A_eq V c 2) (after2 V c) t d
theorem before3 (c : Dev nD) (t : Fin cfg0.N) (d) : (dat V c).before 3 t d = tile V c 3 t :=
  before3_of V (dat V c) (A_eq V c 3) (after3 V c) t d

end Entry

end Cert.KernelIdeal.Pass1

end
-- ==== Proof.KIPass1Body.lean ====
/- The first pass's body at any grid point meets what the pipeline asks of it: from the operands' tiles in their staging buffers, the
    output column's staging buffer as the pipeline hands it, and the invariant before the point, it runs to the invariant after the
    point with the operands' buffers unchanged and the output column's as the proof data say. -/
import proofs.«165275_j48198122996409_2_alg».proof.Proof.KIPass1Acc

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 8000000 in
/-- The point is a first, a middle or a last column tile; in each case that case's run applies: the invariant hands it the scratch
    column (at anything before the very first point, else at what the point before left) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · by_cases h1 : t.val % 8 = 7
    · exfalso; omega
    · rw [Dat.leavesExact_idle (dat V c) 4 t (idle4 t (fun h => h1 ((atLast_iff t).mp h))) (noFlush4 t (fun h => h1 ((atLast_iff t).mp h)))]
      rw [accAt_first V c t h0 h1]
      unfold soutFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (tile V c 0 t) (tile V c 1 t) (tile V c 2 t) (tile V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverFirst c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (tile V c 0 t) (tile V c 1 t) (tile V c 2 t) (tile V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverFirst c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat V c).leavesExact 4 t = owns (c : Thread nD τ) (ms4 t) fullShare ((dat V c).after 4 t) from by
        unfold Dat.leavesExact; rw [live4 t ((atLast_iff t).mpr h1)], after4]
      rw [accAt_last V c t h0 h1]
      unfold outLast soutLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ (fun h => h0 ((atFirst_iff t).mp h)) ((atLast_iff t).mpr h1) (tile V c 0 t) (tile V c 1 t) (tile V c 2 t) (tile V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scoverLast c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLast c _ _ _ _ _ _ _ _ _ _ _ _ _ _ _ _ _ _ _ _)
    · rw [Dat.leavesExact_idle (dat V c) 4 t (idle4 t (fun h => h1 ((atLast_iff t).mp h))) (noFlush4 t (fun h => h1 ((atLast_iff t).mp h)))]
      rw [accAt_mid V c t h0 h1]
      unfold soutMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((runMid c (grid0.coords t) _ _ _ _ _ _ _ _ _ _ _ _ (fun h => h0 ((atFirst_iff t).mp h)) (fun h => h1 ((atLast_iff t).mp h)) (tile V c 0 t) (tile V c 1 t) (tile V c 2 t) (tile V c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hoth Hg]
        · isplitl [HS Hoth]
          · isplitl [HS]
            · unfold owns; iexists _; isplitr
              swap; · iexact HS
              ipureintro; exact View.read_writes_of_cover _ _ _ _ _ (scoverMid c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The pipeline's obligation on the body, at every point. -/
theorem body_obligation (c : Dev nD) : BodyObligation (dat (F := F) V c) (defs₀ (F := F)) Variants.none () Set.univ := fun t => by
  rw [bigSep_W0, bigSep_W0]
  exact sound_body V c t

/-- What the pass is handed is the invariant before the first point, -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch column's contents forgotten. -/
theorem phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hoth⟩, Hg⟩
  isplitl [HS Hoth]
  · isplitl [HS]
    · iexists _; iexact HS
    iexact Hoth
  iexact Hg

end Entry

end Cert.KernelIdeal.Pass1

end
-- ==== Proof.KIPass1Arrays.lean ====
/- The first pass's arrays at its entry and at its exit. Its five windows stand on four arrays: the two embedding windows read one
    array, each holding half of it; so the arrays held whole when the pass is entered are split window by window, and put together
    again when it is left, the output column's array at what the pass wrote. -/
import proofs.«165275_j48198122996409_2_alg».proof.Proof.KIPass1Body

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The four arrays behind the five windows. -/
theorem arrRefs_eq : Finset.univ.image (Pipeline.arrRef spec0) = {main_v6, main_v7, main_v8, main_v9} := by decide

/-- The four arrays, each held whole at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_v6) ↦{fullShare} W main_v6) ∗ (((c : Thread nD τ).loc main_v7) ↦{fullShare} W main_v7)
          ∗ (((c : Thread nD τ).loc main_v8) ↦{fullShare} W main_v8) ∗ (((c : Thread nD τ).loc main_v9) ↦{fullShare} W main_v9)) := by
  unfold Pipeline.arrBufs
  rw [arrRefs_eq, bigSep_insert (by decide), bigSep_insert (by decide), bigSep_insert (by decide), BI.bigSep_singleton]
  rfl

set_option maxHeartbeats 4000000 in
/-- ENTRY: the four arrays, each held whole at the entry contents, are the five windows' arrays at the proof data's entry contents:
    the embeddings' array is halved between its two windows. -/
theorem arrays_in (c : Dev nD) :
    (Pipeline.arrBufs spec0 c (V c) : sProp 𝕄) ⊢ (dat V c).arrays ((dat V c).arrAt · 0) := by
  rw [arrBufs_eq]
  unfold Dat.arrays
  rw [bigSep_W0]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have a0 : (dat V c).arrAt 0 0 = V c main_v6 := rfl
  have a1 : (dat V c).arrAt 1 0 = V c main_v6 := rfl
  have a2 : (dat V c).arrAt 2 0 = V c main_v7 := rfl
  have a3 : (dat V c).arrAt 3 0 = V c main_v8 := rfl
  have a4 : (dat V c).arrAt 4 0 = V c main_v9 := rfl
  rw [s0, s1, s2, s3, s4]
  beta_reduce
  rw [a0, a1, a2, a3, a4]
  have u0 : (cfg0.win 0).arr.view.set = Finset.univ := (arr_whole0 0).set_eq_univ
  have u1 : (cfg0.win 1).arr.view.set = Finset.univ := (arr_whole0 1).set_eq_univ
  have u2 : (cfg0.win 2).arr.view.set = Finset.univ := (arr_whole0 2).set_eq_univ
  have u3 : (cfg0.win 3).arr.view.set = Finset.univ := (arr_whole0 3).set_eq_univ
  have u4 : (cfg0.win 4).arr.view.set = Finset.univ := (arr_whole0 4).set_eq_univ
  simp only [u0, u1, u2, u3, u4]
  iintro ⟨H6, H7, H8, H9⟩
  ihave H6' := (pointsTo_share (PosShare.mem_left_op_right fullShare)).1 $$ H6
  icases H6' with ⟨H6l, H6r⟩
  isplitl [H6l]; · iexact H6l
  isplitl [H6r]; · iexact H6r
  isplitl [H7]; · iexact H7
  isplitl [H8]; · iexact H8
  iexact H9

set_option maxHeartbeats 4000000 in
/-- EXIT: the five windows' arrays at the proof data's final contents are the four arrays, each held whole, at any contents `W`
    that agree with the entry contents on the three arrays the pass only reads and have the output column's array at what the pass
    wrote: the two halves of the embeddings' array are put together again. -/
theorem arrays_out (c : Dev nD) (W : (b : Ref sig .tc) → Buf (Elt F) ((c : Thread nD τ).loc b))
    (h6 : W main_v6 = V c main_v6) (h7 : W main_v7 = V c main_v7) (h8 : W main_v8 = V c main_v8)
    (h9 : W main_v9 = (dat V c).arrAt 4 cfg0.N) :
    (dat V c).arrays ((dat V c).arrAt · cfg0.N) ⊢ (Pipeline.arrBufs spec0 c W : sProp 𝕄) := by
  rw [arrBufs_eq, h6, h7, h8, h9]
  unfold Dat.arrays
  rw [bigSep_W0]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have a0 : (dat V c).arrAt 0 cfg0.N = V c main_v6 := ((dat V c).arrAt_in 0 rfl _).trans (A_eq V c 0)
  have a1 : (dat V c).arrAt 1 cfg0.N = V c main_v6 := ((dat V c).arrAt_in 1 rfl _).trans (A_eq V c 1)
  have a2 : (dat V c).arrAt 2 cfg0.N = V c main_v7 := ((dat V c).arrAt_in 2 rfl _).trans (A_eq V c 2)
  have a3 : (dat V c).arrAt 3 cfg0.N = V c main_v8 := ((dat V c).arrAt_in 3 rfl _).trans (A_eq V c 3)
  rw [s0, s1, s2, s3, s4]
  beta_reduce
  rw [a0, a1, a2, a3]
  have u0 : (cfg0.win 0).arr.view.set = Finset.univ := (arr_whole0 0).set_eq_univ
  have u1 : (cfg0.win 1).arr.view.set = Finset.univ := (arr_whole0 1).set_eq_univ
  have u2 : (cfg0.win 2).arr.view.set = Finset.univ := (arr_whole0 2).set_eq_univ
  have u3 : (cfg0.win 3).arr.view.set = Finset.univ := (arr_whole0 3).set_eq_univ
  have u4 : (cfg0.win 4).arr.view.set = Finset.univ := (arr_whole0 4).set_eq_univ
  simp only [u0, u1, u2, u3, u4]
  iintro ⟨H0, H1, H2, H3, H4⟩
  isplitl [H0 H1]
  · iapply (pointsTo_share (PosShare.mem_left_op_right fullShare)).2
    isplitl [H0]; · iexact H0
    iexact H1
  isplitl [H2]; · iexact H2
  isplitl [H3]; · iexact H3
  iexact H4

end Entry

end Cert.KernelIdeal.Pass1

end
-- ==== Proof.KIPass2Cond.lean ====
/- The second pass computes, for each anchor row, two running minima over the rows of the other tiles: the smallest distance to a
    row of another label, and the smallest such distance that still exceeds the row's largest same-label distance (the first pass's
    result). Its grid is 8 row tiles by 8 column tiles; the two running minima of a row tile live in two scratch columns that are
    reset at the first column tile, lowered at every column tile, and turned into the two output columns at the last one. -/
import proofs.«165275_j48198122996409_2_alg».proof.Proof.Gen.KernelIdeal.Launch
import proofs.«165275_j48198122996409_2_alg».proof.Proof.Gen.KernelIdeal.Skeleton
import proofs.«165275_j48198122996409_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one (the two running minima are reset before they are lowered). -/
abbrev atFirst (i : grid1.Coords) : Prop :=
  (Scalar.cmpi .ne (Scalar.extui (Scalar.cmpi .eq (BitVec.ofNat 32 (i 1).val) 0#32)) 0#32) = 1#1
/-- The column tile is the last one (the two output columns are stored). -/
abbrev atLast (i : grid1.Coords) : Prop := k1_cond2 i = 1#1

/-- Over the 64 grid points, numbered row tile by row tile: the first column tile is where the point number is 0 mod 8, -/
theorem atFirst_iff : ∀ t : Fin cfg1.N, atFirst (grid1.coords t) ↔ t.val % 8 = 0 :=
  (by decide +kernel : ∀ t : Fin grid1.N, atFirst (grid1.coords t) ↔ t.val % 8 = 0)
/-- and the last where it is 7 mod 8. -/
theorem atLast_iff : ∀ t : Fin cfg1.N, atLast (grid1.coords t) ↔ t.val % 8 = 7 :=
  (by decide +kernel : ∀ t : Fin grid1.N, atLast (grid1.coords t) ↔ t.val % 8 = 7)

end Cert.KernelIdeal.Pass2

end
-- ==== Proof.KIPass2First.lean ====
/- The second pass's body at the first column tile of a row tile: both scratch columns are reset to the fill value and then lowered
    to the tile's row minima; the two output columns are not touched. -/
import proofs.«165275_j48198122996409_2_alg».proof.Proof.KIPass2Cond

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first column tile, on whole staging buffers — the two embedding tiles, the two label tiles and the first pass's result
    column at their contents, the two output columns at contents that are handed back untouched, the two scratch columns at
    anything — the body runs to the end leaving the inputs and the output columns as they were and each scratch column with its
    listed pieces written (the lists are what the run finds). -/
noncomputable def runFirst (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : atFirst i) (hc1 : ¬atLast i)
    (x2 : Vec F S1024x128 .bf16) (x3 : Vec F S1024x128 .bf16) (x4 : Vec F S1024x1 .i32) (x5 : Vec F S1x1024 .i32) (x6 : Vec F S1024x1 .f32) :
    Σ' (LS9 : List (View.Piece (Elt F) S1024x1 .f32)), { LS10 : List (View.Piece (Elt F) S1024x1 .f32) //
      ∀ (xi7 xi8 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.KernelIdeal.Pass2

end
-- ==== Proof.KIPass2Mid.lean ====
/- The second pass's body at a column tile that is neither the first nor the last of its row tile: each scratch column, holding the
    minima over the column tiles before, is lowered to the minima including this tile's; the two output columns are not touched. -/
import proofs.«165275_j48198122996409_2_alg».proof.Proof.KIPass2First

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle column tile, on whole staging buffers — the inputs at their contents, the two output columns at contents handed back
    untouched, the two scratch columns at the contents `xs9`, `xs10` the tile before left — the body runs to the end leaving the
    inputs and the output columns as they were and each scratch column with its listed pieces written. -/
noncomputable def runMid (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬atFirst i) (hc1 : ¬atLast i)
    (x2 : Vec F S1024x128 .bf16) (x3 : Vec F S1024x128 .bf16) (x4 : Vec F S1024x1 .i32) (x5 : Vec F S1x1024 .i32) (x6 : Vec F S1024x1 .f32) (xs9 : Vec F S1024x1 .f32) (xs10 : Vec F S1024x1 .f32) :
    Σ' (LS9 : List (View.Piece (Elt F) S1024x1 .f32)), { LS10 : List (View.Piece (Elt F) S1024x1 .f32) //
      ∀ (xi7 xi8 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ owns (c : Thread nD τ) arg9 fullShare xs9 ∗ owns (c : Thread nD τ) arg10 fullShare xs10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xi7 ∗ owns (c : Thread nD τ) arg8 fullShare xi8 ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.KernelIdeal.Pass2

end
-- ==== Proof.KIPass2Last.lean ====
/- The second pass's body at the last column tile of a row tile: each scratch column is lowered to the minima over all eight column
    tiles, and the two output columns are stored from the scratch columns and the first pass's result column. -/
import proofs.«165275_j48198122996409_2_alg».proof.Proof.KIPass2Mid

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last column tile, on whole staging buffers — the inputs at their contents, the two output columns at anything, the two
    scratch columns at the contents `xs9`, `xs10` the tile before left — the body runs to the end leaving the inputs as they were
    and each of the two output columns and the two scratch columns with its listed pieces written. -/
noncomputable def runLast (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬atFirst i) (hc1 : atLast i)
    (x2 : Vec F S1024x128 .bf16) (x3 : Vec F S1024x128 .bf16) (x4 : Vec F S1024x1 .i32) (x5 : Vec F S1x1024 .i32) (x6 : Vec F S1024x1 .f32) (xs9 : Vec F S1024x1 .f32) (xs10 : Vec F S1024x1 .f32) :
    Σ' (L7 : List (View.Piece (Elt F) S1024x1 .f32)) (L8 : List (View.Piece (Elt F) S1024x1 .f32)) (LS9 : List (View.Piece (Elt F) S1024x1 .f32)), { LS10 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xs9 ∗ owns (c : Thread nD τ) arg10 fullShare xs10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__pass2_kernel_eq_skeleton]; unfold cc1__pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg9.eq_unread hf9
    obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Pass2

end
-- ==== Proof.KIPass2Outs.lean ====
/- The second pass, tile by tile: the tiles of the operands at a grid point, where the two output columns are stored and where they
    are left alone, and what each of the three cases of the body leaves in the two scratch columns and in the two output columns. -/
import proofs.«165275_j48198122996409_2_alg».proof.Proof.KIPass2Last

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles at a grid point -/

section Entry
-- the contents of the core's buffers when the second pass is entered
variable (V : (c : Dev nD) → (b : Ref sig .tc) → Buf (Elt F) ((c : Thread nD τ).loc b))

/-- Operand `w`'s tile at grid point `t`, read off its array as the pass finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of the embeddings is in its staging buffer at every grid point, moved there at that point or kept from the one before. -/
theorem before0_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The column tile of the embeddings likewise, -/
theorem before1_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- the row tile of the labels, -/
theorem before2_of {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- the column tile of the labels, -/
theorem before3_of {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- and the row tile of the first pass's result column. -/
theorem before4_of {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

end Entry

/-! ## Where the two output columns are stored -/

/-- The five operands are read at every grid point. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- Away from the last column tile nothing is stored into the first output column, and its tile is not written back there; -/
theorem idle5 : ∀ t : Fin cfg1.N, ¬atLast (grid1.coords t) → cfg1.idle 5 (grid1.coords t) = true := by decide +kernel
theorem noFlush5 : ∀ t : Fin cfg1.N, ¬atLast (grid1.coords t) → (cfg1.win 5).flush t = false := by decide +kernel
/-- at the last column tile it is stored. -/
theorem live5 : ∀ t : Fin cfg1.N, atLast (grid1.coords t) → cfg1.idle 5 (grid1.coords t) = false := by decide +kernel
/-- The second output column likewise. -/
theorem idle6 : ∀ t : Fin cfg1.N, ¬atLast (grid1.coords t) → cfg1.idle 6 (grid1.coords t) = true := by decide +kernel
theorem noFlush6 : ∀ t : Fin cfg1.N, ¬atLast (grid1.coords t) → (cfg1.win 6).flush t = false := by decide +kernel
theorem live6 : ∀ t : Fin cfg1.N, atLast (grid1.coords t) → cfg1.idle 6 (grid1.coords t) = false := by decide +kernel

/-! ## The buffers the body is called with -/

abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x1 .f32 := win1_6.stage (cfg1.slots t 6)
abbrev hs6 (t : Fin cfg1.N) : (ms6 t).IsWhole := hstage1_6 ((cfg1.slots t 6).cast nbuf1_6)
/-- The two scratch columns: buffers of the kernel's own, passed beside the staging buffers. -/
abbrev scM9 : Memref sig .tc .vmem S1024x1 .f32 := Memref.whole cc1_scratch0
abbrev scM10 : Memref sig .tc .vmem S1024x1 .f32 := Memref.whole cc1_scratch1
/-- The two scratch columns and one staging buffer of each output column as views: contents are stated through them. -/
abbrev VS9 : View sig .tc .vmem S1024x1 .f32 := scM9.view
abbrev VS10 : View sig .tc .vmem S1024x1 .f32 := scM10.view
abbrev VO5 : View sig .tc .vmem S1024x1 .f32 := (Memref.whole cc1_stg5_0 : Memref sig .tc .vmem S1024x1 .f32).view
abbrev VO6 : View sig .tc .vmem S1024x1 .f32 := (Memref.whole cc1_stg6_0 : Memref sig .tc .vmem S1024x1 .f32).view

/-! ## What each case leaves -/

section Cases
variable (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
  (x2 : Vec F S1024x128 .bf16) (x3 : Vec F S1024x128 .bf16) (x4 : Vec F S1024x1 .i32) (x5 : Vec F S1x1024 .i32) (x6 : Vec F S1024x1 .f32)

/-- At a first column tile the pieces written into the first scratch column cover it, -/
theorem scover9First (hc0 : atFirst i) (hc1 : ¬atLast i) (y : S1024x1.Idx) :
    ∃ pc ∈ (runFirst c i arg2 harg2 arg3 harg3 arg4 harg4 arg5 harg5 arg6 harg6 arg7 harg7 arg8 harg8 arg9 harg9 arg10 harg10 hc0 hc1 x2 x3 x4 x5 x6).1, y ∈ pc.1.set :=
  View.cover_of_tiledL (runFirst c i arg2 harg2 arg3 harg3 arg4 harg4 arg5 harg5 arg6 harg6 arg7 harg7 arg8 harg8 arg9 harg9 arg10 harg10 hc0 hc1 x2 x3 x4 x5 x6).1 S1024x1.size (by sl_kernel_rfl) y
/-- and read back they are what the case leaves in it; -/
def sout9First (hc0 : atFirst i) (hc1 : ¬atLast i) : Vec F S1024x1 .f32 :=
  VS9.read (Elt F) (VS9.writes (Elt F) VS9.junk (runFirst c i arg2 harg2 arg3 harg3 arg4 harg4 arg5 harg5 arg6 harg6 arg7 harg7 arg8 harg8 arg9 harg9 arg10 harg10 hc0 hc1 x2 x3 x4 x5 x6).1)
/-- the second scratch column likewise. -/
theorem scover10First (hc0 : atFirst i) (hc1 : ¬atLast i) (y : S1024x1.Idx) :
    ∃ pc ∈ (runFirst c i arg2 harg2 arg3 harg3 arg4 harg4 arg5 harg5 arg6 harg6 arg7 harg7 arg8 harg8 arg9 harg9 arg10 harg10 hc0 hc1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 hc0 hc1 x2 x3 x4 x5 x6).2.1 S1024x1.size (by sl_kernel_rfl) y
def sout10First (hc0 : atFirst i) (hc1 : ¬atLast i) : Vec F S1024x1 .f32 :=
  VS10.read (Elt F) (VS10.writes (Elt F) VS10.junk (runFirst c i arg2 harg2 arg3 harg3 arg4 harg4 arg5 harg5 arg6 harg6 arg7 harg7 arg8 harg8 arg9 harg9 arg10 harg10 hc0 hc1 x2 x3 x4 x5 x6).2.1)

/-- At a middle column tile likewise, over the contents `xs9`, `xs10` the tile before left. -/
theorem scover9Mid (hc0 : ¬atFirst i) (hc1 : ¬atLast i) (xs9 : Vec F S1024x1 .f32) (xs10 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x2 x3 x4 x5 x6 xs9 xs10).1, y ∈ pc.1.set :=
  View.cover_of_tiledL (runMid c i arg2 harg2 arg3 harg3 arg4 harg4 arg5 harg5 arg6 harg6 arg7 harg7 arg8 harg8 arg9 harg9 arg10 harg10 hc0 hc1 x2 x3 x4 x5 x6 xs9 xs10).1 S1024x1.size (by sl_kernel_rfl) y
def sout9Mid (hc0 : ¬atFirst i) (hc1 : ¬atLast i) (xs9 : Vec F S1024x1 .f32) (xs10 : Vec F S1024x1 .f32) : Vec F S1024x1 .f32 :=
  VS9.read (Elt F) (VS9.writes (Elt F) VS9.junk (runMid c i arg2 harg2 arg3 harg3 arg4 harg4 arg5 harg5 arg6 harg6 arg7 harg7 arg8 harg8 arg9 harg9 arg10 harg10 hc0 hc1 x2 x3 x4 x5 x6 xs9 xs10).1)
theorem scover10Mid (hc0 : ¬atFirst i) (hc1 : ¬atLast i) (xs9 : Vec F S1024x1 .f32) (xs10 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x2 x3 x4 x5 x6 xs9 xs10).2.1, y ∈ pc.1.set :=
  View.cover_of_tiledL (runMid c i arg2 harg2 arg3 harg3 arg4 harg4 arg5 harg5 arg6 harg6 arg7 harg7 arg8 harg8 arg9 harg9 arg10 harg10 hc0 hc1 x2 x3 x4 x5 x6 xs9 xs10).2.1 S1024x1.size (by sl_kernel_rfl) y
def sout10Mid (hc0 : ¬atFirst i) (hc1 : ¬atLast i) (xs9 : Vec F S1024x1 .f32) (xs10 : Vec F S1024x1 .f32) : Vec F S1024x1 .f32 :=
  VS10.read (Elt F) (VS10.writes (Elt F) VS10.junk (runMid c i arg2 harg2 arg3 harg3 arg4 harg4 arg5 harg5 arg6 harg6 arg7 harg7 arg8 harg8 arg9 harg9 arg10 harg10 hc0 hc1 x2 x3 x4 x5 x6 xs9 xs10).2.1)

/-- At a last column tile the pieces written into each scratch column cover it, and so do those written into each output column. -/
theorem scover9Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.2.1 S1024x1.size (by sl_kernel_rfl) y
def sout9Last (hc0 : ¬atFirst i) (hc1 : atLast i) (xs9 : Vec F S1024x1 .f32) (xs10 : Vec F S1024x1 .f32) : Vec F S1024x1 .f32 :=
  VS9.read (Elt F) (VS9.writes (Elt F) VS9.junk (runLast c i arg2 harg2 arg3 harg3 arg4 harg4 arg5 harg5 arg6 harg6 arg7 harg7 arg8 harg8 arg9 harg9 arg10 harg10 hc0 hc1 x2 x3 x4 x5 x6 xs9 xs10).2.2.1)
theorem scover10Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.2.2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.2.2.1 S1024x1.size (by sl_kernel_rfl) y
def sout10Last (hc0 : ¬atFirst i) (hc1 : atLast i) (xs9 : Vec F S1024x1 .f32) (xs10 : Vec F S1024x1 .f32) : Vec F S1024x1 .f32 :=
  VS10.read (Elt F) (VS10.writes (Elt F) VS10.junk (runLast c i arg2 harg2 arg3 harg3 arg4 harg4 arg5 harg5 arg6 harg6 arg7 harg7 arg8 harg8 arg9 harg9 arg10 harg10 hc0 hc1 x2 x3 x4 x5 x6 xs9 xs10).2.2.2.1)
theorem cover5Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).1 S1024x1.size (by sl_kernel_rfl) y
def out5Last (hc0 : ¬atFirst i) (hc1 : atLast i) (xs9 : Vec F S1024x1 .f32) (xs10 : Vec F S1024x1 .f32) : Vec F S1024x1 .f32 :=
  VO5.read (Elt F) (VO5.writes (Elt F) VO5.junk (runLast c i arg2 harg2 arg3 harg3 arg4 harg4 arg5 harg5 arg6 harg6 arg7 harg7 arg8 harg8 arg9 harg9 arg10 harg10 hc0 hc1 x2 x3 x4 x5 x6 xs9 xs10).1)
theorem cover6Last (hc0 : ¬atFirst i) (hc1 : atLast i) (xs9 : Vec F S1024x1 .f32) (xs10 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x2 x3 x4 x5 x6 xs9 xs10).2.1, y ∈ pc.1.set :=
  View.cover_of_tiledL (runLast c i arg2 harg2 arg3 harg3 arg4 harg4 arg5 harg5 arg6 harg6 arg7 harg7 arg8 harg8 arg9 harg9 arg10 harg10 hc0 hc1 x2 x3 x4 x5 x6 xs9 xs10).2.1 S1024x1.size (by sl_kernel_rfl) y
def out6Last (hc0 : ¬atFirst i) (hc1 : atLast i) (xs9 : Vec F S1024x1 .f32) (xs10 : Vec F S1024x1 .f32) : Vec F S1024x1 .f32 :=
  VO6.read (Elt F) (VO6.writes (Elt F) VO6.junk (runLast c i arg2 harg2 arg3 harg3 arg4 harg4 arg5 harg5 arg6 harg6 arg7 harg7 arg8 harg8 arg9 harg9 arg10 harg10 hc0 hc1 x2 x3 x4 x5 x6 xs9 xs10).2.1)

end Cases

/-- Where nothing is stored into an output column its contents after the body are never consulted: placeholders. -/
def outIdle5 : Vec F S1024x1 .f32 := VO5.read (Elt F) (VO5.writes (Elt F) VO5.junk [])
def outIdle6 : Vec F S1024x1 .f32 := VO6.read (Elt F) (VO6.writes (Elt F) VO6.junk [])

end Cert.KernelIdeal.Pass2

end
-- ==== Proof.KIPass2Acc.lean ====
/- The second pass, grid point by grid point: what the two output columns' staging buffers and the two scratch columns hold after the
    body at each point — the case the point is in, run on the point's tiles, over what the point before left in the scratch columns —,
    the invariant that carries the scratch columns from point to point, and the proof data of the pass. -/
import proofs.«165275_j48198122996409_2_alg».proof.Proof.KIPass2Outs

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- After the body at position `n`: the two output columns' staging buffers (placeholders where nothing is stored into them) and
    the two scratch columns. Positions 0 mod 8 are first column tiles, 7 mod 8 last ones; no position is both. -/
def accAt (c : Dev nD) : (n : ℕ) → n < cfg1.N → Vec F S1024x1 .f32 × Vec F S1024x1 .f32 × Vec F S1024x1 .f32 × Vec F S1024x1 .f32
  | 0, hn => (outIdle5, outIdle6,
           sout9First c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM9 (Memref.isWhole_whole _) scM10 (Memref.isWhole_whole _) (tile V c 0 ⟨0, hn⟩) (tile V c 1 ⟨0, hn⟩) (tile V c 2 ⟨0, hn⟩) (tile V c 3 ⟨0, hn⟩) (tile V c 4 ⟨0, hn⟩) ((atFirst_iff ⟨0, hn⟩).mpr (Nat.zero_mod _)) (fun h => (fun h => by (try dsimp only at h); omega) ((atLast_iff ⟨0, hn⟩).mp h)),
           sout10First c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM9 (Memref.isWhole_whole _) scM10 (Memref.isWhole_whole _) (tile V c 0 ⟨0, hn⟩) (tile V c 1 ⟨0, hn⟩) (tile V c 2 ⟨0, hn⟩) (tile V c 3 ⟨0, hn⟩) (tile V c 4 ⟨0, hn⟩) ((atFirst_iff ⟨0, hn⟩).mpr (Nat.zero_mod _)) (fun h => (fun h => by (try dsimp only at h); omega) ((atLast_iff ⟨0, hn⟩).mp h)))
  | n + 1, hn =>
    if h0 : (n + 1) % 8 = 0 then
      if h1 : (n + 1) % 8 = 7 then
        False.elim (by omega)
      else
        (outIdle5, outIdle6,
           sout9First c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) ((atFirst_iff ⟨n + 1, hn⟩).mpr h0) (fun h => h1 ((atLast_iff ⟨n + 1, hn⟩).mp h)),
           sout10First c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) ((atFirst_iff ⟨n + 1, hn⟩).mpr h0) (fun h => h1 ((atLast_iff ⟨n + 1, hn⟩).mp h)))
    else
      if h1 : (n + 1) % 8 = 7 then
        (out5Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           out6Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           sout9Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2,
           sout10Last c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) ((atLast_iff ⟨n + 1, hn⟩).mpr h1) (accAt c n (Nat.lt_of_succ_lt hn)).2.2.1 (accAt c n (Nat.lt_of_succ_lt hn)).2.2.2)
      else
        (outIdle5, outIdle6,
           sout9Mid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) (fun h => h1 ((atLast_iff ⟨n + 1, hn⟩).mp h)) (accAt c n (Nat.lt_of_succ_lt hn)).2.2.1 (accAt c n (Nat.lt_of_succ_lt hn)).2.2.2,
           sout10Mid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM9 (Memref.isWhole_whole _) scM10 (Memref.isWhole_whole _) (tile V c 0 ⟨n + 1, hn⟩) (tile V c 1 ⟨n + 1, hn⟩) (tile V c 2 ⟨n + 1, hn⟩) (tile V c 3 ⟨n + 1, hn⟩) (tile V c 4 ⟨n + 1, hn⟩) (fun h => h0 ((atFirst_iff ⟨n + 1, hn⟩).mp h)) (fun h => h1 ((atLast_iff ⟨n + 1, hn⟩).mp h)) (accAt c n (Nat.lt_of_succ_lt hn)).2.2.1 (accAt c n (Nat.lt_of_succ_lt hn)).2.2.2)

/-- At a first column tile: the reset columns lowered by the tile. -/
theorem accAt_first (c : Dev nD) (t : Fin cfg1.N) (h0 : t.val % 8 = 0) (h1 : ¬t.val % 8 = 7) :
    accAt V c t.val t.isLt = (outIdle5, outIdle6,
           sout9First c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h)),
           sout10First c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h))) := by
  obtain ⟨n, hn⟩ := t
  cases n with
  | zero => exact rfl
  | succ n => exact (dif_pos h0).trans ((dif_neg h1).trans rfl)

/-- At a middle column tile: what the tile before left, lowered by the tile. -/
theorem accAt_mid (c : Dev nD) (t : Fin cfg1.N) (h0 : ¬t.val % 8 = 0) (h1 : ¬t.val % 8 = 7) :
    accAt V c t.val t.isLt = (outIdle5, outIdle6,
           sout9Mid c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2,
           sout10Mid c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the same, and the two output columns stored. -/
theorem accAt_last (c : Dev nD) (t : Fin cfg1.N) (h0 : ¬t.val % 8 = 0) (h1 : t.val % 8 = 7) :
    accAt V c t.val t.isLt = (out5Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           out6Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           sout9Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2,
           sout10Last c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's own buffers other than the two scratch columns (the first pass's staging and scratch buffers), each at anything. -/
def others (c : Dev nD) : sProp 𝕄 :=
  bigSep ((((Finset.univ.filter fun b : Ref sig .tc => b.isScoped) \ Finset.univ.image (Pipeline.stageRef spec1)).erase cc1_scratch0).erase cc1_scratch1)
    fun b => iprop(∃ f : Buf (Elt F) ((c : Thread nD τ).loc b), ((c : Thread nD τ).loc b) ↦{fullShare} f)

/-- What the body may use and need not describe, with the two scratch columns named: each scratch column at anything, the other
    buffers of the kernel's own at anything, the generator register at some state. -/
theorem PhiA_eq (c : Dev nD) :
    (Pipeline.ΦA spec1 c : sProp 𝕄) = iprop(iprop((∃ d, owns (c : Thread nD τ) scM9 fullShare d) ∗ (∃ d, owns (c : Thread nD τ) scM10 fullShare d) ∗ others c) ∗ (∃ r, prngReg c r)) := by
  unfold Pipeline.ΦA Pipeline.scopedRest others
  rw [bigSep_erase (i := cc1_scratch0) (by decide)]
  rw [bigSep_erase (i := cc1_scratch1) (by decide)]
  simp only [scM9, scM10, owns_whole]
  rfl

/-- Before position `n`: at the very first point everything at anything; afterwards each scratch column at what the point before left. -/
def PhiS (c : Dev nD) : (n : ℕ) → n ≤ cfg1.N → sProp 𝕄
  | 0, _ => Pipeline.ΦA spec1 c
  | n + 1, hn => iprop(iprop(owns (c : Thread nD τ) scM9 fullShare ((accAt V c n hn).2.2.1) ∗ owns (c : Thread nD τ) scM10 fullShare ((accAt V c n hn).2.2.2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM9 fullShare ((accAt V c n hn).2.2.1) ∗ owns (c : Thread nD τ) scM10 fullShare ((accAt V c n hn).2.2.2) ∗ others c) ∗ (∃ r, prngReg c r)) := rfl
theorem PhiS_pos (c : Dev nD) (n : ℕ) (h : n ≤ cfg1.N) (hz : n ≠ 0) :
    PhiS V c n h = iprop(iprop(owns (c : Thread nD τ) scM9 fullShare ((accAt V c (n - 1) (by omega)).2.2.1) ∗ owns (c : Thread nD τ) scM10 fullShare ((accAt V c (n - 1) (by omega)).2.2.2) ∗ others c) ∗ (∃ r, prngReg c r)) := by
  cases n with
  | zero => exact absurd rfl hz
  | succ n => rfl

/-! ## The proof data -/

/-- The second pass's proof data on core `c`: the arrays as the pass finds them; after the body at a point each operand's staging
    buffer at its tile and each output column's at `accAt`; the invariant `PhiS`; nothing owed. The two embedding windows read
    one array, each at half of it; the other windows read theirs whole. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => (accAt V c t.val t.isLt).1
    | ⟨6, _⟩ => (accAt V c t.val t.isLt).2.1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = tile V c 0 t := by dsimp only [dat]
theorem after1 (c : Dev nD) (t : Fin cfg1.N) : (dat V c).after 1 t = tile V c 1 t := by dsimp only [dat]
theorem after2 (c : Dev nD) (t : Fin cfg1.N) : (dat V c).after 2 t = tile V c 2 t := by dsimp only [dat]
theorem after3 (c : Dev nD) (t : Fin cfg1.N) : (dat V c).after 3 t = tile V c 3 t := by dsimp only [dat]
theorem after4 (c : Dev nD) (t : Fin cfg1.N) : (dat V c).after 4 t = tile V c 4 t := by dsimp only [dat]
theorem after5 (c : Dev nD) (t : Fin cfg1.N) : (dat V c).after 5 t = (accAt V c t.val t.isLt).1 := by dsimp only [dat]
theorem after6 (c : Dev nD) (t : Fin cfg1.N) : (dat V c).after 6 t = (accAt V c t.val t.isLt).2.1 := by dsimp only [dat]
theorem before0 (c : Dev nD) (t : Fin cfg1.N) (d) : (dat V c).before 0 t d = tile V c 0 t :=
  before0_of V (dat V c) (A_eq V c 0) (after0 V c) t d
theorem before1 (c : Dev nD) (t : Fin cfg1.N) (d) : (dat V c).before 1 t d = tile V c 1 t :=
  before1_of V (dat V c) (A_eq V c 1) (after1 V c) t d
theorem before2 (c : Dev nD) (t : Fin cfg1.N) (d) : (dat V c).before 2 t d = tile V c 2 t :=
  before2_of V (dat V c) (A_eq V c 2) (after2 V c) t d
theorem before3 (c : Dev nD) (t : Fin cfg1.N) (d) : (dat V c).before 3 t d = tile V c 3 t :=
  before3_of V (dat V c) (A_eq V c 3) (after3 V c) t d
theorem before4 (c : Dev nD) (t : Fin cfg1.N) (d) : (dat V c).before 4 t d = tile V c 4 t :=
  before4_of V (dat V c) (A_eq V c 4) (after4 V c) t d

end Entry

end Cert.KernelIdeal.Pass2

end
-- ==== Proof.KIPass2Body.lean ====
/- The second pass's body at any grid point meets what the pipeline asks of it: from the operands' tiles in their staging buffers, the
    two output columns' staging buffers as the pipeline hands them, and the invariant before the point, it runs to the invariant after
    the point with the operands' buffers unchanged and the output columns' as the proof data say. -/
import proofs.«165275_j48198122996409_2_alg».proof.Proof.KIPass2Acc

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t)

set_option maxHeartbeats 8000000 in
/-- The point is a first, a middle or a last column tile; in each case that case's run applies: the invariant hands it the two scratch
    columns (at anything before the very first point, else at what the point before left) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  by_cases h0 : t.val % 8 = 0
  · by_cases h1 : t.val % 8 = 7
    · exfalso; omega
    · rw [Dat.leavesExact_idle (dat V c) 5 t (idle5 t (fun h => h1 ((atLast_iff t).mp h))) (noFlush5 t (fun h => h1 ((atLast_iff t).mp h)))]
      rw [Dat.leavesExact_idle (dat V c) 6 t (idle6 t (fun h => h1 ((atLast_iff t).mp h))) (noFlush6 t (fun h => h1 ((atLast_iff t).mp h)))]
      rw [accAt_first V c t h0 h1]
      unfold sout9First sout10First; (try dsimp only)
      by_cases hz : t.val = 0
      · rw [PhiS_castSucc V c t, PhiS_zero V c _ _ hz, PhiA_eq]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid1.coords t) _ _ _ _ _ _ _ _ _ _ _ _ _ _ _ _ _ _ ((atFirst_iff t).mpr h0) (fun h => h1 ((atLast_iff t).mp h)) (tile V c 0 t) (tile V c 1 t) (tile V c 2 t) (tile V c 3 t) (tile V c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9First c _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10First c _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid1.coords t) _ _ _ _ _ _ _ _ _ _ _ _ _ _ _ _ _ _ ((atFirst_iff t).mpr h0) (fun h => h1 ((atLast_iff t).mp h)) (tile V c 0 t) (tile V c 1 t) (tile V c 2 t) (tile V c 3 t) (tile V c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexists _; iexact HS9
        isplitl [HS10]; · iexists _; iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9First c _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10First c _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 8 = 7
    · rw [show (dat V c).leavesExact 5 t = owns (c : Thread nD τ) (ms5 t) fullShare ((dat V c).after 5 t) from by
        unfold Dat.leavesExact; rw [live5 t ((atLast_iff t).mpr h1)], after5]
      rw [show (dat V c).leavesExact 6 t = owns (c : Thread nD τ) (ms6 t) fullShare ((dat V c).after 6 t) from by
        unfold Dat.leavesExact; rw [live6 t ((atLast_iff t).mpr h1)], after6]
      rw [accAt_last V c t h0 h1]
      unfold out5Last out6Last sout9Last sout10Last; (try dsimp only)
      by_cases hz : t.val = 0
      · exfalso; omega
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid1.coords t) _ _ _ _ _ _ _ _ _ _ _ _ _ _ _ _ _ _ (fun h => h0 ((atFirst_iff t).mp h)) ((atLast_iff t).mpr h1) (tile V c 0 t) (tile V c 1 t) (tile V c 2 t) (tile V c 3 t) (tile V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS9]; · iexact HS9
        isplitl [HS10]; · iexact HS10
        iintro ⟨H0, H1, H2, H3, H4, ⟨%e5, H5⟩, ⟨%e6, H6⟩, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9Last c _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10Last c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover5Last c _ _ _ _ _ _ _ _ _ _ _ _ _ _ _ _ _ _ _ _ _ _ _ _ _ _ _ _)
        unfold owns; iexists _; isplitr
        swap; · iexact H6
        ipureintro; exact View.read_writes_of_cover _ _ _ _ _ (cover6Last c _ _ _ _ _ _ _ _ _ _ _ _ _ _ _ _ _ _ _ _ _ _ _ _ _ _ _ _)
    · rw [Dat.leavesExact_idle (dat V c) 5 t (idle5 t (fun h => h1 ((atLast_iff t).mp h))) (noFlush5 t (fun h => h1 ((atLast_iff t).mp h)))]
      rw [Dat.leavesExact_idle (dat V c) 6 t (idle6 t (fun h => h1 ((atLast_iff t).mp h))) (noFlush6 t (fun h => h1 ((atLast_iff t).mp h)))]
      rw [accAt_mid V c t h0 h1]
      unfold sout9Mid sout10Mid; (try dsimp only)
      by_cases hz : t.val = 0
      · exfalso; omega
      · rw [PhiS_castSucc V c t, PhiS_pos V c _ _ hz]
        iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid1.coords t) _ _ _ _ _ _ _ _ _ _ _ _ _ _ _ _ _ _ (fun h => h0 ((atFirst_iff t).mp h)) (fun h => h1 ((atLast_iff t).mp h)) (tile V c 0 t) (tile V c 1 t) (tile V c 2 t) (tile V c 3 t) (tile V c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS9]; · iexact HS9
        isplitl [HS10]; · iexact HS10
        iintro ⟨H0, H1, H2, H3, H4, H5, H6, ⟨%es9, HS9⟩, ⟨%es10, HS10⟩⟩
        isplitl [HS9 HS10 Hoth Hg]
        · isplitl [HS9 HS10 Hoth]
          · isplitl [HS9]
            · unfold owns; iexists _; isplitr
              swap; · iexact HS9
              ipureintro; exact View.read_writes_of_cover _ _ _ _ _ (scover9Mid c _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (scover10Mid c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The pipeline's obligation on the body, at every point. -/
theorem body_obligation (c : Dev nD) : BodyObligation (dat (F := F) V c) (defs₀ (F := F)) Variants.none () Set.univ := fun t => by
  rw [bigSep_W1, bigSep_W1]
  exact sound_body V c t

/-- What the pass is handed is the invariant before the first point, -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch columns' contents forgotten. -/
theorem phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HS9, HS10, Hoth⟩, Hg⟩
  isplitl [HS9 HS10 Hoth]
  · isplitl [HS9]
    · iexists _; iexact HS9
    isplitl [HS10]
    · iexists _; iexact HS10
    iexact Hoth
  iexact Hg

end Entry

end Cert.KernelIdeal.Pass2

end
-- ==== Proof.KIRunDefs.lean ====
/- The whole program between its two passes: what each pass is entered with, what it leaves, and the proof data of both.
    The first pass is entered after the host lines that normalise the embeddings and reshape the labels; the second pass is entered
    with, in addition, the column the first pass wrote. -/
import proofs.«165275_j48198122996409_2_alg».proof.Proof.KIPass1Arrays
import proofs.«165275_j48198122996409_2_alg».proof.Proof.KIPass2Body
import proofs.«165275_j48198122996409_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The core's buffers when the first pass is entered. -/
abbrev Vin0 : (c : Dev nD) → (b : Ref sig .tc) → Buf (Elt F) ((c : Thread nD τ).loc b) := fun c b => V1 m c b
/-- The column the first pass writes. -/
def res9 (c : Dev nD) : Buf (Elt F) ((c : Thread nD τ).loc main_v9) := (Pass1.dat (Vin0 m) c).arrAt 4 cfg0.N
/-- The core's buffers when the second pass is entered: as before, with that column. -/
abbrev Vin1 : (c : Dev nD) → (b : Ref sig .tc) → Buf (Elt F) ((c : Thread nD τ).loc b) :=
  fun c b => (Function.update (V1 m c) main_v9 (res9 m c) : Valuation τ sig (Elt F)) b
/-- The two columns the second pass writes. -/
def res10a (c : Dev nD) : Buf (Elt F) ((c : Thread nD τ).loc main_v10_0) := (Pass2.dat (Vin1 m) c).arrAt 5 cfg1.N
def res10b (c : Dev nD) : Buf (Elt F) ((c : Thread nD τ).loc main_v10_1) := (Pass2.dat (Vin1 m) c).arrAt 6 cfg1.N

/-- What the passes leave, as the one table the run's valuations are written over. -/
def outs : Outs (F := F) := fun _ r c =>
  if h : r = main_v9 then h ▸ res9 m c
  else if h : r = main_v10_0 then h ▸ res10a m c
  else if h : r = main_v10_1 then h ▸ res10b m c
  else V1 m c r

theorem outs_v9 (J : ℕ) (c : Dev nD) : outs m J main_v9 c = res9 m c := by
  unfold outs; rw [dif_pos rfl]
theorem outs_v10a (J : ℕ) (c : Dev nD) : outs m J main_v10_0 c = res10a m c := by
  unfold outs; rw [dif_neg (by decide), dif_pos rfl]
theorem outs_v10b (J : ℕ) (c : Dev nD) : outs m J main_v10_1 c = res10b m c := by
  unfold outs; rw [dif_neg (by decide), dif_neg (by decide), dif_pos rfl]

/-- After the first pass the buffers are the second pass's entry contents. -/
theorem V2_eq (c : Dev nD) (b : Ref sig .tc) : V2 m (outs m) c b = Vin1 m c b := by
  simp only [V2, outs_v9]

/-- Both passes' proof data, each at its pass's entry contents. -/
def pdats : (p : Fin 2) → (c : Dev nD) → Dat τ (Elt F) Unit ℕ (UR sig nD τ) ℕ (Pipeline.pin (pcfgs (F := F)) adm p) c
  | ⟨0, _⟩ => fun c => Pass1.dat (Vin0 m) c
  | ⟨1, _⟩ => fun c => Pass2.dat (Vin1 m) c

abbrev 𝒱₀ : Variants := Variants.none
/-- No core owes another anything. -/
abbrev L : GSem nD τ sig → Finset Unit := fun _ => ∅
abbrev lv : GSem nD τ sig → Unit → ℕ := fun _ _ => 0
/-- What rides beside the buffers through the whole run: the generator register at some state, and nothing owed. -/
abbrev R (c : Dev nD) : sProp 𝕄 := iprop((∃ r, prngReg c r) ∗ ∃ W, owes (c : Thread nD τ) (0 : CellTallies nD τ sig Unit) W)

end Cert.KernelIdeal.Run

end
-- ==== Proof.KIRun0.lean ====
/- The first pass as one item of the program's run: entered from every unscoped buffer at the contents the host lines before it leave,
    left with the output column's array at what the pass wrote and every other buffer as it was. -/
import proofs.«165275_j48198122996409_2_alg».proof.Proof.KIRunDefs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration takes unfolding plain definitions in a metavariable's type
set_option backward.isDefEq.respectTransparency.types false in
set_option maxHeartbeats 4000000 in
/-- The first pass over the thread state "every unscoped buffer at named contents, the generator register at some state, nothing
    owed". Its arrays are split out of the unscoped buffers at the entry (the embeddings' array halved between its two windows) and
    put back at the exit; the generator register passes through the invariant; the kernel has no semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Pass1.body_obligation (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs c (Vin0 m c) : sProp 𝕄)
        ⊢ iprop((pdats m 0 c).arrays ((pdats m 0 c).arrAt · 0) ∗ Pipeline.unscopedRest spec0 c (Vin0 m c)) := by
      rw [Pipeline.unscopedBufs_split₀ (Pipeline.pin (pcfgs (F := F)) adm) 0 winFacts₀0.arr_unscoped c (Vin0 m c)]
      exact sep_mono (Pass1.arrays_in (Vin0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pass1.phi_in (Vin0 m) c)
    unfold Pipeline.ΦA
    iintro ⟨Hp, -, Hr⟩
    isplitl [Hr]; · iexact Hr
    iexact Hp
  hout c := by
    rw [Pipeline.ownSems0_none]
    refine (Pass1.phi_out (Vin0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (unscopedBufs c (fun b => V2 m (outs m) c b) : sProp 𝕄) := by
      rw [Pipeline.unscopedBufs_split₀ (Pipeline.pin (pcfgs (F := F)) adm) 0 winFacts₀0.arr_unscoped c (fun b => V2 m (outs m) c b)]
      refine sep_mono (Pass1.arrays_out (Vin0 m) c (fun b => V2 m (outs m) c b)
        (V2_of m (outs m) c main_v6 (by decide)) (V2_of m (outs m) c main_v7 (by decide)) (V2_of m (outs m) c main_v8 (by decide))
        (by simp only [V2, Function.update_self, outs_v9]; rfl)) (Entails.of_eq ?_)
      unfold Pipeline.unscopedRest
      exact bigSep_congr fun b hb => by
        have hb' : b ∉ ([main_v9] : List (Ref sig .tc)) := fun h => (Finset.mem_sdiff.mp hb).2 (by
          rw [Pass1.arrRefs_eq]; simp only [List.mem_singleton] at h; subst h; decide)
        beta_reduce
        rw [V2_of m (outs m) c b hb']
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KIPass2Arrays.lean ====
/- The second pass's arrays at its entry and at its exit. Its seven windows stand on six arrays: the two embedding windows read one
    array, each holding half of it; so the arrays held whole when the pass is entered are split window by window, and put together
    again when it is left, the two output columns' arrays at what the pass wrote. -/
import proofs.«165275_j48198122996409_2_alg».proof.Proof.KIPass2Body

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The six arrays behind the seven windows. -/
theorem arrRefs_eq : Finset.univ.image (Pipeline.arrRef spec1) = {main_v6, main_v7, main_v8, main_v9, main_v10_0, main_v10_1} := by decide

/-- The six arrays, each held whole at contents `W`, one by one. -/
theorem arrBufs_eq (c : Dev nD) (W : (b : Ref sig .tc) → Buf (Elt F) ((c : Thread nD τ).loc b)) :
    (Pipeline.arrBufs spec1 c W : sProp 𝕄)
      = iprop((((c : Thread nD τ).loc main_v6) ↦{fullShare} W main_v6) ∗ (((c : Thread nD τ).loc main_v7) ↦{fullShare} W main_v7)
          ∗ (((c : Thread nD τ).loc main_v8) ↦{fullShare} W main_v8) ∗ (((c : Thread nD τ).loc main_v9) ↦{fullShare} W main_v9)
          ∗ (((c : Thread nD τ).loc main_v10_0) ↦{fullShare} W main_v10_0) ∗ (((c : Thread nD τ).loc main_v10_1) ↦{fullShare} W main_v10_1)) := by
  unfold Pipeline.arrBufs
  rw [arrRefs_eq, bigSep_insert (by decide), bigSep_insert (by decide), bigSep_insert (by decide), bigSep_insert (by decide),
    bigSep_insert (by decide), BI.bigSep_singleton]
  rfl

set_option maxHeartbeats 4000000 in
/-- ENTRY: the six arrays, each held whole at the entry contents, are the seven windows' arrays at the proof data's entry contents:
    the embeddings' array is halved between its two windows. -/
theorem arrays_in (c : Dev nD) :
    (Pipeline.arrBufs spec1 c (V c) : sProp 𝕄) ⊢ (dat V c).arrays ((dat V c).arrAt · 0) := by
  rw [arrBufs_eq]
  unfold Dat.arrays
  rw [bigSep_W1]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have s5 : (dat V c).share 5 = fullShare := rfl
  have s6 : (dat V c).share 6 = fullShare := rfl
  have a0 : (dat V c).arrAt 0 0 = V c main_v6 := rfl
  have a1 : (dat V c).arrAt 1 0 = V c main_v6 := rfl
  have a2 : (dat V c).arrAt 2 0 = V c main_v7 := rfl
  have a3 : (dat V c).arrAt 3 0 = V c main_v8 := rfl
  have a4 : (dat V c).arrAt 4 0 = V c main_v9 := rfl
  have a5 : (dat V c).arrAt 5 0 = V c main_v10_0 := rfl
  have a6 : (dat V c).arrAt 6 0 = V c main_v10_1 := rfl
  rw [s0, s1, s2, s3, s4, s5, s6]
  beta_reduce
  rw [a0, a1, a2, a3, a4, a5, a6]
  have u0 : (cfg1.win 0).arr.view.set = Finset.univ := (arr_whole1 0).set_eq_univ
  have u1 : (cfg1.win 1).arr.view.set = Finset.univ := (arr_whole1 1).set_eq_univ
  have u2 : (cfg1.win 2).arr.view.set = Finset.univ := (arr_whole1 2).set_eq_univ
  have u3 : (cfg1.win 3).arr.view.set = Finset.univ := (arr_whole1 3).set_eq_univ
  have u4 : (cfg1.win 4).arr.view.set = Finset.univ := (arr_whole1 4).set_eq_univ
  have u5 : (cfg1.win 5).arr.view.set = Finset.univ := (arr_whole1 5).set_eq_univ
  have u6 : (cfg1.win 6).arr.view.set = Finset.univ := (arr_whole1 6).set_eq_univ
  simp only [u0, u1, u2, u3, u4, u5, u6]
  iintro ⟨H6, H7, H8, H9, H10, H11⟩
  ihave H6' := (pointsTo_share (PosShare.mem_left_op_right fullShare)).1 $$ H6
  icases H6' with ⟨H6l, H6r⟩
  isplitl [H6l]; · iexact H6l
  isplitl [H6r]; · iexact H6r
  isplitl [H7]; · iexact H7
  isplitl [H8]; · iexact H8
  isplitl [H9]; · iexact H9
  isplitl [H10]; · iexact H10
  iexact H11

set_option maxHeartbeats 4000000 in
/-- EXIT: the seven windows' arrays at the proof data's final contents are the six arrays, each held whole, at any contents `W`
    that agree with the entry contents on the four arrays the pass only reads and have the two output columns' arrays at what the
    pass wrote: the two halves of the embeddings' array are put together again. -/
theorem arrays_out (c : Dev nD) (W : (b : Ref sig .tc) → Buf (Elt F) ((c : Thread nD τ).loc b))
    (h6 : W main_v6 = V c main_v6) (h7 : W main_v7 = V c main_v7) (h8 : W main_v8 = V c main_v8) (h9 : W main_v9 = V c main_v9)
    (h10 : W main_v10_0 = (dat V c).arrAt 5 cfg1.N) (h11 : W main_v10_1 = (dat V c).arrAt 6 cfg1.N) :
    (dat V c).arrays ((dat V c).arrAt · cfg1.N) ⊢ (Pipeline.arrBufs spec1 c W : sProp 𝕄) := by
  rw [arrBufs_eq, h6, h7, h8, h9, h10, h11]
  unfold Dat.arrays
  rw [bigSep_W1]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  have s5 : (dat V c).share 5 = fullShare := rfl
  have s6 : (dat V c).share 6 = fullShare := rfl
  have a0 : (dat V c).arrAt 0 cfg1.N = V c main_v6 := ((dat V c).arrAt_in 0 rfl _).trans (A_eq V c 0)
  have a1 : (dat V c).arrAt 1 cfg1.N = V c main_v6 := ((dat V c).arrAt_in 1 rfl _).trans (A_eq V c 1)
  have a2 : (dat V c).arrAt 2 cfg1.N = V c main_v7 := ((dat V c).arrAt_in 2 rfl _).trans (A_eq V c 2)
  have a3 : (dat V c).arrAt 3 cfg1.N = V c main_v8 := ((dat V c).arrAt_in 3 rfl _).trans (A_eq V c 3)
  have a4 : (dat V c).arrAt 4 cfg1.N = V c main_v9 := ((dat V c).arrAt_in 4 rfl _).trans (A_eq V c 4)
  rw [s0, s1, s2, s3, s4, s5, s6]
  beta_reduce
  rw [a0, a1, a2, a3, a4]
  have u0 : (cfg1.win 0).arr.view.set = Finset.univ := (arr_whole1 0).set_eq_univ
  have u1 : (cfg1.win 1).arr.view.set = Finset.univ := (arr_whole1 1).set_eq_univ
  have u2 : (cfg1.win 2).arr.view.set = Finset.univ := (arr_whole1 2).set_eq_univ
  have u3 : (cfg1.win 3).arr.view.set = Finset.univ := (arr_whole1 3).set_eq_univ
  have u4 : (cfg1.win 4).arr.view.set = Finset.univ := (arr_whole1 4).set_eq_univ
  have u5 : (cfg1.win 5).arr.view.set = Finset.univ := (arr_whole1 5).set_eq_univ
  have u6 : (cfg1.win 6).arr.view.set = Finset.univ := (arr_whole1 6).set_eq_univ
  simp only [u0, u1, u2, u3, u4, u5, u6]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

end Entry

end Cert.KernelIdeal.Pass2

end
-- ==== Proof.KIRun1.lean ====
/- The second pass as one item of the program's run: entered from every unscoped buffer at the first pass's exit contents, left with
    its two output columns' arrays at what it wrote and every other buffer as it was. -/
import proofs.«165275_j48198122996409_2_alg».proof.Proof.KIRun0
import proofs.«165275_j48198122996409_2_alg».proof.Proof.KIPass2Arrays

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers after the first pass, as one valuation: the entry contents with the first pass's column. -/
theorem V2_val (c : Dev nD) : V2 m (outs m) c = Function.update (V1 m c) main_v9 (res9 m c) := by
  simp only [V2, outs_v9]

-- applying a library lemma stated over the pinned configuration takes unfolding plain definitions in a metavariable's type
set_option backward.isDefEq.respectTransparency.types false in
set_option maxHeartbeats 4000000 in
/-- The second pass over the same kind of thread state as the first. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pass2.body_obligation (Vin1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V2_val]
    have hsplit : (unscopedBufs c (Vin1 m c) : sProp 𝕄)
        ⊢ iprop((pdats m 1 c).arrays ((pdats m 1 c).arrAt · 0) ∗ Pipeline.unscopedRest spec1 c (Vin1 m c)) := by
      rw [Pipeline.unscopedBufs_split₀ (Pipeline.pin (pcfgs (F := F)) adm) 1 winFacts₀1.arr_unscoped c (Vin1 m c)]
      exact sep_mono (Pass2.arrays_in (Vin1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pass2.phi_in (Vin1 m) c)
    unfold Pipeline.ΦA
    iintro ⟨Hp, -, Hr⟩
    isplitl [Hr]; · iexact Hr
    iexact Hp
  hout c := by
    rw [Pipeline.ownSems0_none]
    refine (Pass2.phi_out (Vin1 m) c).trans ?_
    unfold Pipeline.ΦA
    iintro ⟨Hr, Hp⟩
    isplitl [Hp]; · iexact Hp
    isplitr; · iempintro
    iexact Hr
  hexit c := by
    have hkeep : ∀ b : Ref sig .tc, b ∉ ([main_v10_0, main_v10_1] : List (Ref sig .tc)) → V3 m (outs m) c b = Vin1 m c b :=
      fun b hb => (V3_of m (outs m) c b hb).trans (V2_eq m c b)
    have hjoin : iprop((pdats m 1 c).arrays ((pdats m 1 c).arrAt · cfg1.N) ∗ Pipeline.unscopedRest spec1 c (Vin1 m c))
        ⊢ (unscopedBufs c (fun b => V3 m (outs m) c b) : sProp 𝕄) := by
      rw [Pipeline.unscopedBufs_split₀ (Pipeline.pin (pcfgs (F := F)) adm) 1 winFacts₀1.arr_unscoped c (fun b => V3 m (outs m) c b)]
      refine sep_mono (Pass2.arrays_out (Vin1 m) c (fun b => V3 m (outs m) c b)
        (hkeep main_v6 (by decide)) (hkeep main_v7 (by decide)) (hkeep main_v8 (by decide)) (hkeep main_v9 (by decide))
        (by simp only [V3, Function.update_self, Function.update_of_ne (StableHlo.devRef_ne_of_ne (by decide : main_v10_0 ≠ main_v10_1) : (Proc.devRef .tc main_v10_0 : DevRef τ sig) ≠ Proc.devRef .tc main_v10_1), outs_v10a]; rfl)
        (by simp only [V3, Function.update_self, outs_v10b]; rfl)) (Entails.of_eq ?_)
      unfold Pipeline.unscopedRest
      exact bigSep_congr fun b hb => by
        have hb' : b ∉ ([main_v10_0, main_v10_1] : List (Ref sig .tc)) := fun h => (Finset.mem_sdiff.mp hb).2 (by
          rw [Pass2.arrRefs_eq]; simp only [List.mem_cons, List.mem_nil_iff, or_false] at h; rcases h with rfl | rfl <;> decide)
        beta_reduce
        rw [hkeep b hb']
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KIFrame.lean ====
/- The program runs to its end, faults nowhere, and leaves its two arguments as launched: the host lines and the two passes in order,
    each entered from what the one before left. -/
import proofs.«165275_j48198122996409_2_alg».proof.Proof.KIRun1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- the library theorem's implicit arguments are found by unifying its conclusion with this one
set_option backward.isDefEq.respectTransparency.types false in
set_option maxHeartbeats 4000000 in
/-- At the compiled mesh, for any float values, from any memory with zero counters: every weakly fair execution of the program on the
    TensorCores terminates, nothing faulting, and every final state has the embeddings and the labels as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.KernelIdeal.Run

end
-- ==== Proof.KIValueRun.lean ====
/- The program's run with its result: besides leaving its arguments as launched, every execution ends with the result buffer at what
    the last host lines compute from the three columns the two passes wrote. -/
import proofs.«165275_j48198122996409_2_alg».proof.Proof.KIRun1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- the library theorem's implicit arguments are found by unifying its conclusion with this one
set_option backward.isDefEq.respectTransparency.types false in
set_option maxHeartbeats 4000000 in
/-- At the compiled mesh, from any memory with zero counters: every weakly fair execution of the program terminates, nothing faulting,
    with the result buffer at the last valuation's contents — the entry contents, the host lines before the passes, the passes'
    three columns, the host lines after them — and the two arguments as launched. -/
theorem value_run (ρ : Dev nD → PrngReg) : θ_run defs (onTc (τ := τ) (main (F := F))) ⟨m, fun _ => 0, ρ⟩ (fun r => ∀ c : Dev nD,
      r.2.mem ((c.tc : Thread nD τ).loc main_v26) = V8 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by iintro ⟨-, HO⟩; iexact HO)⟩)
    (hinit := ?_)
    (QY := fun c s => s.mem ((c.tc : Thread nD τ).loc main_v26) = V8 m (outs m) c main_v26
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at the launch contents; the rest makes the generator register and nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        (h (Proc.devRef .tc main_arg0) (Finset.mem_filter.mpr ⟨StableHlo.devRef_mem_tcRefs main_arg0, by decide⟩)).trans (V8_main_arg0 m (outs m) c),
        (h (Proc.devRef .tc main_arg1) (Finset.mem_filter.mpr ⟨StableHlo.devRef_mem_tcRefs main_arg1, by decide⟩)).trans (V8_main_arg1 m (outs m) c)⟩
    · iexact HSI

end Cert.KernelIdeal.Run

end
-- ==== Proof.Tail.lean ====
/- The last step of the loss, shared by both programs: from the hardest-positive distance and the chosen negative distance of every anchor
   and the flags saying which anchors count, the mean over the counted anchors of max(d_ap − d_an + 0.2, 0), the divisor never below one.
   One definition, so that the two programs' results are compared through it and it is never opened. -/
import Idealize.ShloMosaic.PureOps
import Idealize.ShloMosaic.PureOps.Ideal

noncomputable section

namespace Cert.Tail

open Idealize.ShloMosaic

abbrev S8192 : Shape := ⟨1, ![8192]⟩
abbrev S_ : Shape := ⟨0, ![]⟩

/-- The mean, over the anchors whose flag is set, of the hinge `max (dap − dan + 0.2) 0`: the hinges of the unflagged anchors replaced by
    zero and summed, divided by the number of flagged anchors or by one if there is none. The margin is the single-precision word nearest 0.2. -/
def tail {F : FTy → Type} [FloatOps F] (hb : S_.BroadcastsInDim S8192 (![] : Fin 0 → Fin S8192.rank)) (hr : S8192.ReducesTo [0] S_)
    (hS : 0 < S_.numel) (h32 : 1 < 32) (dap dan : FVec F S8192 .f32) (valid : IVec S8192 1) : FVec F S_ .f32 :=
  Host.divf
    (Host.reduceAdd
      (select valid
        (maximumf (addf (subf dap dan) (broadcastInDim S8192 ![] hb (constant S_ .f32 0x3E4CCCCD#32)))
          (broadcastInDim S8192 ![] hb (constant S_ .f32 0x00000000#32)))
        (broadcastInDim S8192 ![] hb (id (constant S_ .f32 0x00000000#32))))
      (constant S_ .f32 0x00000000#32) hr hS)
    (sitofp .f32 (maxsi (Host.reduce IntOp.addi (extui 32 valid h32) (constantI S_ 32 0#32) hr hS) (constantI S_ 32 1#32)))

end Cert.Tail

end
-- ==== Proof.KITail.lean ====
/- The program's result is the shared last step applied to the three columns the passes wrote: the first pass's column and the second
    pass's first column flattened, and the flags read off the second pass's second column by comparing it with one half. -/
import proofs.«165275_j48198122996409_2_alg».proof.Proof.KIValueRun
import proofs.«165275_j48198122996409_2_alg».proof.Proof.Tail

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers after the second pass hold the passes' three columns. -/
theorem V3_v9 (c : Dev nD) : V3 m (outs m) c main_v9 = res9 m c := by
  rw [V3_of m (outs m) c main_v9 (by decide)]; simp only [V2, Function.update_self, outs_v9]
theorem V3_v10a (c : Dev nD) : V3 m (outs m) c main_v10_0 = res10a m c := by
  simp only [V3, Function.update_self, Function.update_of_ne (StableHlo.devRef_ne_of_ne (by decide : main_v10_0 ≠ main_v10_1) : (Proc.devRef .tc main_v10_0 : DevRef τ sig) ≠ Proc.devRef .tc main_v10_1), outs_v10a]
theorem V3_v10b (c : Dev nD) : V3 m (outs m) c main_v10_1 = res10b m c := by
  simp only [V3, Function.update_self, outs_v10b]

set_option maxHeartbeats 4000000 in
/-- The result buffer at the end of the run. -/
theorem result_eq (c : Dev nD) :
    V8 m (outs m) c main_v26 = Cert.Tail.tail (F := F) bcast_S_S8192 reducesTo_S8192_S_d0 h_S_ natLt_1_32
      (shapeCast S8192 (res9 m c) shapeCasts_S8192x1_S8192) (shapeCast S8192 (res10a m c) shapeCasts_S8192x1_S8192)
      (cmpf .ogt (shapeCast S8192 (res10b m c) shapeCasts_S8192x1_S8192) (broadcastInDim S8192 ![] bcast_S_S8192 (constant S_ .f32 0x3F000000#32))) := by
  rw [← V3_v9, ← V3_v10a, ← V3_v10b]
  dsimp only [V8, V7, V6, V5, V4]
  simp only [hostOps2, hostOps2_1, hostOps2_2, hostOps2_3, hostOps2_4]
  after_results
  rfl

end Cert.KernelIdeal.Run

end
-- ==== Proof.KIEntry.lean ====
/- What the first pass is entered with: the embeddings divided row by row by their Euclidean norm, and the labels as a column and as a row. -/
import proofs.«165275_j48198122996409_2_alg».proof.Proof.KITail

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The normalised embeddings: each entry divided by the square root of its row's sum of squares (the change of float format written last). -/
theorem V1_v6 (c : Dev nD) :
    V1 m c main_v6 = truncf .bf16 (Host.divf (m ((c : Thread nD τ).loc main_arg0))
      (broadcastInDim S8192x128 ![0, 1] bcast_S8192x1_S8192x128_0_1 (Host.sqrt (broadcastInDim S8192x1 ![0] bcast_S8192_S8192x1_0
        (Host.reduceAdd (mulf (m ((c : Thread nD τ).loc main_arg0)) (m ((c : Thread nD τ).loc main_arg0))) (constant S_ .f32 0x00000000#32)
          reducesTo_S8192x128_S8192_d1 h_S_))))) bitsLt_bf16_f32 := by
  dsimp only [V1]
  simp only [hostOps0]
  after_results

set_option maxHeartbeats 4000000 in
/-- The labels as a column, -/
theorem V1_v7 (c : Dev nD) : V1 m c main_v7 = shapeCast S8192x1 (m ((c : Thread nD τ).loc main_arg1)) shapeCasts_S8192_S8192x1 := by
  dsimp only [V1]
  simp only [hostOps0]
  after_results
  rfl

set_option maxHeartbeats 4000000 in
/-- and as a row. -/
theorem V1_v8 (c : Dev nD) : V1 m c main_v8 = shapeCast S1x8192 (m ((c : Thread nD τ).loc main_arg1)) shapeCasts_S8192_S1x8192 := by
  dsimp only [V1]
  simp only [hostOps0]
  after_results
  rfl

end Cert.KernelIdeal.Run

end
-- ==== Proof.KIEntryRef.lean ====
/- The normalised embeddings the first pass is entered with are the reference's own normalised embeddings (the same host operations on the
    same argument), up to the change of float format. -/
import proofs.«165275_j48198122996409_2_alg».proof.Proof.KIEntry
import proofs.«165275_j48198122996409_2_alg».proof.Proof.RefReadP

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable [Cert.ReferenceIdeal.Facts]

/-- Row by row, both programs divide the embeddings by the square root of the row's sum of squares. -/
theorem V1_v6_ref (c : Dev nD) :
    V1 m c main_v6 = truncf .bf16 (Cert.ReferenceIdeal.ReadP.val_main_v2 (F := F) (m ((c : Thread nD τ).loc main_arg0))) bitsLt_bf16_f32 :=
  (V1_v6 m c).trans rfl

end Cert.KernelIdeal.Run

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.KIEntryIdx.lean ====
/- What the two passes are entered with, read at an index over the extended reals: a normalised embedding entry is the reference's;
   the labels' column and row are the labels; the second pass sees in addition the first pass's column. -/
import proofs.«165275_j48198122996409_2_alg».proof.Proof.KIEntryRef
import proofs.«165275_j48198122996409_2_alg».proof.Proof.LibColumn

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) [Cert.ReferenceIdeal.Facts]

/-- Entry `(r, k)` of the normalised embeddings the first pass reads is the reference's normalised entry. -/
theorem in0_v6 (c : Dev nD) (r : Fin 8192) (k : Fin 128) :
    (Vin0 m c main_v6 : S8192x128.Idx → EReal) (ix2 r k)
      = Cert.ReferenceIdeal.ReadP.val_main_v2 (F := Ideal) (m ((c : Thread nD τ).loc main_arg0)) (ix2 r k) := by
  show (V1 m c main_v6 : S8192x128.Idx → EReal) (ix2 r k) = _
  rw [V1_v6_ref]
  rfl
/-- The labels' column at row `r` is label `r`, -/
theorem in0_v7 (c : Dev nD) (r : Fin 8192) (u : Fin 1) :
    (Vin0 m c main_v7 : S8192x1.Idx → BitVec 32) (ix2 r u) = (m ((c : Thread nD τ).loc main_arg1) : S8192.Idx → BitVec 32) (ix1 r) := by
  show (V1 m c main_v7 : S8192x1.Idx → BitVec 32) (ix2 r u) = _
  rw [V1_v7]
  exact Cert.Lib.Column.shapeCast_a_a1_apply _ _ r u
/-- and the labels' row at column `q` is label `q`. -/
theorem in0_v8 (c : Dev nD) (u : Fin 1) (q : Fin 8192) :
    (Vin0 m c main_v8 : S1x8192.Idx → BitVec 32) (ix2 u q) = (m ((c : Thread nD τ).loc main_arg1) : S8192.Idx → BitVec 32) (ix1 q) := by
  show (V1 m c main_v8 : S1x8192.Idx → BitVec 32) (ix2 u q) = _
  rw [V1_v8]
  exact shapeCast_a_1a_apply _ _ u q

/-- The second pass reads the same three arrays, -/
theorem in1_v6 (c : Dev nD) : Vin1 m c main_v6 = Vin0 m c main_v6 :=
  Function.update_of_ne (StableHlo.devRef_ne_of_ne (by decide : main_v6 ≠ main_v9)) _ _
theorem in1_v7 (c : Dev nD) : Vin1 m c main_v7 = Vin0 m c main_v7 :=
  Function.update_of_ne (StableHlo.devRef_ne_of_ne (by decide : main_v7 ≠ main_v9)) _ _
theorem in1_v8 (c : Dev nD) : Vin1 m c main_v8 = Vin0 m c main_v8 :=
  Function.update_of_ne (StableHlo.devRef_ne_of_ne (by decide : main_v8 ≠ main_v9)) _ _
/-- and the first pass's column. -/
theorem in1_v9 (c : Dev nD) : Vin1 m c main_v9 = res9 m c :=
  Function.update_self _ _ _

end Cert.KernelIdeal.Run

end
-- ==== Proof.KIPass1ValueA.lean ====
/- The first pass, case by case, as values: what each of the three cases of the body leaves in the scratch column, and at a last
    column tile in the output column, is one closed term of the tiles and of the column the tile before left — the row maxima of
    the tile's masked distances, raised from that column. -/
import proofs.«165275_j48198122996409_2_alg».proof.Proof.KIPass1Outs
import Idealize.ShloMosaic.Lib.Pipeline.Value

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, as the constant function. -/
theorem hz : (![0, 0] : Fin 2 → Nat) = fun _ => 0 := funext fun a => by fin_cases a <;> rfl

/-- At a first column tile the scratch column is left at the tile's row maxima raised from the fill column. -/
theorem soutFirst_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32) (hc0 : atFirst i) (hc1 : ¬atLast i) :
    soutFirst c i arg2 harg2 arg3 harg3 arg4 harg4 arg5 harg5 arg6 harg6 arg7 harg7 x2 x3 x4 x5 hc0 hc1 = k0_pay1 (k0_pay3 i x2 x3 x4 x5 k0_pay2) := by
  unfold soutFirst
  rw [View.read_writes_eq_canon _ _ _ (scoverFirst c i arg2 harg2 arg3 harg3 arg4 harg4 arg5 harg5 arg6 harg6 arg7 harg7 x2 x3 x4 x5 hc0 hc1)]
  unfold runFirst
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg7.read_unread, View.ld_unit_zero (S := S1024x128) hz, View.ld_unit_zero (S := S1024x1) hz, View.ld_unit_zero (S := S1x1024) hz]

/-- At a middle column tile it is left at what the tile before left, raised by this tile's row maxima. -/
theorem soutMid_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32) (hc0 : ¬atFirst i) (hc1 : ¬atLast i) (xs : Vec F S1024x1 .f32) :
    soutMid c i arg2 harg2 arg3 harg3 arg4 harg4 arg5 harg5 arg6 harg6 arg7 harg7 x2 x3 x4 x5 hc0 hc1 xs = k0_pay1 (k0_pay3 i x2 x3 x4 x5 xs) := by
  unfold soutMid
  rw [View.read_writes_eq_canon _ _ _ (scoverMid c i arg2 harg2 arg3 harg3 arg4 harg4 arg5 harg5 arg6 harg6 arg7 harg7 x2 x3 x4 x5 hc0 hc1 xs)]
  unfold runMid
  dsimp only
  sl_unfold_words
  rw [View.canon_unit_zero (S := S1024x1) hz]
  simp only [View.readAt_eq_ld, harg2.read_unread, harg3.read_unread, harg4.read_unread, harg5.read_unread, harg7.read_unread, View.ld_unit_zero (S := S1024x128) hz, View.ld_unit_zero (S := S1024x1) hz, View.ld_unit_zero (S := S1x1024) hz]

/-- At a last column tile likewise, -/
theorem soutLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32) (hc0 : ¬atFirst i) (hc1 : atLast i) (xs : Vec F S1024x1 .f32) :
    soutLast c i arg2 harg2 arg3 harg3 arg4 harg4 arg5 harg5 arg6 harg6 arg7 harg7 x2 x3 x4 x5 hc0 hc1 xs = k0_pay1 (k0_pay3 i x2 x3 x4 x5 xs) := by
  unfold soutLast
  rw [View.read_writes_eq_canon _ _ _ (scoverLast c i arg2 harg2 arg3 harg3 arg4 harg4 arg5 harg5 arg6 harg6 arg7 harg7 x2 x3 x4 x5 hc0 hc1 xs)]
  unfold runLast
  dsimp only
  sl_unfold_words
  rw [View.canon_unit_zero (S := S1024x1) hz]
  simp only [View.readAt_eq_ld, harg2.read_unread, harg3.read_unread, harg4.read_unread, harg5.read_unread, harg7.read_unread, View.ld_unit_zero (S := S1024x128) hz, View.ld_unit_zero (S := S1024x1) hz, View.ld_unit_zero (S := S1x1024) hz]

/-- and the output column is left at that same column, read back from the scratch column. -/
theorem outLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole)
  (x2 : Vec F S1024x128 .bf16) (x3 : Vec F S1024x128 .bf16) (x4 : Vec F S1024x1 .i32) (x5 : Vec F S1x1024 .i32) (hc0 : ¬atFirst i) (hc1 : atLast i) (xs : Vec F S1024x1 .f32) :
    outLast c i arg2 harg2 arg3 harg3 arg4 harg4 arg5 harg5 arg6 harg6 arg7 harg7 x2 x3 x4 x5 hc0 hc1 xs = k0_pay1 (k0_pay3 i x2 x3 x4 x5 xs) := by
  unfold outLast
  rw [View.read_writes_eq_canon _ _ _ (coverLast c i arg2 harg2 arg3 harg3 arg4 harg4 arg5 harg5 arg6 harg6 arg7 harg7 x2 x3 x4 x5 hc0 hc1 xs)]
  unfold runLast
  dsimp only
  sl_unfold_words
  rw [View.canon_unit_zero (S := S1024x1) hz, View.readCov_unit_zero (S := S1024x1) _ hz]
  simp only [View.readAt_eq_ld, harg2.read_unread, harg3.read_unread, harg4.read_unread, harg5.read_unread, harg7.read_unread, View.ld_unit_zero (S := S1024x128) hz, View.ld_unit_zero (S := S1024x1) hz, View.ld_unit_zero (S := S1x1024) hz]

end Cert.KernelIdeal.Pass1

end
-- ==== Proof.KIPass1ValueB.lean ====
/- The first pass's arithmetic at one element, over the extended reals: what a case of the body leaves in the scratch column at a row
    of the tile is the column before at that row, raised to the largest masked distance from the row to a row of the column tile. The
    block product at an index is an inner product of two rows; the lane maximum from minus infinity is a supremum over the lanes;
    the mask is "labels agree and the global indices differ". -/
import proofs.«165275_j48198122996409_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.Pass1

open Cert.KernelIdeal Cert.KernelIdeal.Gen
open Idealize.ShloMosaic Idealize.ShloMosaic.ValueIdx
open scoped BigOperators

abbrev D0 := dot_S1024x128_S128x1024_S1024x1024_1_0_0_1_n_n

/-- The left operand of the block product at output (y, z) and contraction position k is read at (y, k), -/
theorem lhsIdx_eq (y z : Fin 1024) (k : Fin 128) :
    D0.lhsIdx (ix2 y z) ((contrEquiv1 D0 128 rfl rfl).symm k) = ix2 y k := by
  funext a
  match a with
  | ⟨0, _⟩ => rfl
  | ⟨1, _⟩ => exact Fin.ext ((D0.lhsIdx_val_of_single rfl _ _).trans (contrEquiv1_symm_val D0 128 rfl rfl k))

/-- and the right operand at (k, z). -/
theorem rhsIdx_eq (y z : Fin 1024) (k : Fin 128) :
    D0.rhsIdx (ix2 y z) ((contrEquiv1 D0 128 rfl rfl).symm k) = ix2 k z := by
  funext a
  match a with
  | ⟨0, _⟩ => exact Fin.ext ((D0.rhsIdx_val_of_single rfl _ _).trans (contrEquiv1_symm_val D0 128 rfl rfl k))
  | ⟨1, _⟩ => rfl

/-- The block product at (y, z): the inner product of row y of the one tile with row z of the other. -/
theorem prod_apply (x2 x3 : FVec Ideal S1024x128 .bf16) (y z : Fin 1024) :
    (matmul D0 none (shapeCast S1024x128 x2 shapeCasts_S1024x128_S1024x128)
      (transpose S128x1024 [1, 0] (shapeCast S1024x128 x3 shapeCasts_S1024x128_S1024x128) transposes_S1024x128_p1_0_S128x1024)
      (constant S1024x1024 .f32 0x00000000#32) : FVec Ideal S1024x1024 .f32) (ix2 y z)
      = ∑ k : Fin 128, x2 (ix2 y k) * x3 (ix2 z k) := by
  rw [shapeCast_self, shapeCast_self]
  refine (Ideal.matmul_constant_zero_apply D0 none _ _ (ix2 y z)).trans ?_
  rw [← Equiv.sum_comp (contrEquiv1 D0 128 rfl rfl).symm]
  refine Finset.sum_congr rfl fun k _ => ?_
  rw [lhsIdx_eq, rhsIdx_eq, transpose_ix2_apply]

/-- A column broadcast over many columns reads, at (p, c), the column at p. -/
theorem broadcastTo_col_apply {α : Type} (v : S1024x1.Idx → α) (p c : Fin 1024) :
    broadcastTo S1024x1024 v broadcasts_S1024x1_S1024x1024 (ix2 p c) = v (ix2 p (0 : Fin 1)) := by
  refine broadcastTo_apply v broadcasts_S1024x1_S1024x1024 (ix2 p c) (ix2 p (0 : Fin 1)) fun ax => ?_
  match ax with
  | ⟨0, _⟩ => rfl
  | ⟨1, _⟩ => rfl

/-- A row broadcast over many rows reads, at (p, c), the row at c. -/
theorem broadcastTo_row_apply {α : Type} (v : S1x1024.Idx → α) (p c : Fin 1024) :
    broadcastTo S1024x1024 v broadcasts_S1x1024_S1024x1024 (ix2 p c) = v (ix2 (0 : Fin 1) c) :=
  broadcastTo_1b_ab_apply v broadcasts_S1x1024_S1024x1024 p c

/-- A vector viewed as a column reads, at (y, 0), the vector at y. -/
theorem colCast_apply {α : Type} (v : S1024.Idx → α) (y : Fin 1024) :
    shapeCast S1024x1 v shapeCasts_S1024_S1024x1 (ix2 y (0 : Fin 1)) = v (ix1 y) :=
  shapeCast_apply v shapeCasts_S1024_S1024x1 (ix2 y (0 : Fin 1)) (ix1 y) (by
    rw [Shape.rowMajor_val_one, Shape.rowMajor_val_two]; show y.val = y.val * 1 + 0; omega)

/-- The lane reduction's source index over row y with column z inserted is (y, z). -/
theorem lift_eq (y z : Fin 1024) : reduces_S1024x1024_S1024.lift (ix1 y) z = ix2 y z := by
  funext a
  match a with
  | ⟨0, _⟩ => rfl
  | ⟨1, _⟩ => rfl

/-- The word of minus infinity denotes the bottom of the extended reals. -/
theorem ofBits_neg_inf : Ideal.ofBits .f32 0xFF800000#32 = ⊥ := by simp [Ideal.ofBits, Ideal.ieee]

/-- The fill value and the unit, as the words the program prints. -/
abbrev NEG : Ideal .f32 := Ideal.ofBits .f32 0xF149F2CA#32
abbrev ONE : Ideal .f32 := Ideal.ofBits .f32 0x3F800000#32

/-- A select on "a and not b" is the conditional on that. -/
theorem select_mask {α : Type} (a b : BitVec 1) (X Y : α) :
    Scalar.select (IntOp.andi a (IntOp.xori b 1#1)) X Y = if a = 1#1 ∧ ¬b = 1#1 then X else Y := by
  rcases BitVec.eq_zero_or_eq_one a with rfl | rfl <;> rcases BitVec.eq_zero_or_eq_one b with rfl | rfl <;>
    simp [Scalar.select, IntOp.andi, IntOp.xori]

/-- What a case of the body leaves in the scratch column, read at row y of the tile: the column before at y, raised to the largest
    masked distance from row y of the row tile to a row of the column tile — the distance where the labels agree and the two global
    indices (as 32-bit words) differ, the fill value elsewhere. -/
theorem pay_apply (i : grid0.Coords) (x2 x3 : Vec Ideal S1024x128 .bf16) (x4 : Vec Ideal S1024x1 .i32)
    (x5 : Vec Ideal S1x1024 .i32) (xs : Vec Ideal S1024x1 .f32) (y : Fin 1024) :
    k0_pay1 (k0_pay3 i x2 x3 x4 x5 xs) (ix2 y (0 : Fin 1)) =
      max (xs (ix2 y (0 : Fin 1))) (Finset.univ.sup fun z : Fin 1024 =>
        if x4 (ix2 y (0 : Fin 1)) = x5 (ix2 (0 : Fin 1) z)
            ∧ ¬(BitVec.ofNat 32 y.val + BitVec.ofNat 32 (i 0).val * 1024#32 = BitVec.ofNat 32 z.val + BitVec.ofNat 32 (i 1).val * 1024#32)
          then ONE - ∑ k : Fin 128, x2 (ix2 y k) * x3 (ix2 z k) else NEG) := by
  unfold k0_pay1 k0_pay3
  dsimp only
  rw [shapeCast_self, maximumf_apply, colCast_apply]
  refine congrArg (max (xs (ix2 y (0 : Fin 1)))) ?_
  refine (Ideal.multiReduction_maximumf_single _ _ reduces_S1024x1024_S1024 _ _ (ix1 y)).trans ?_
  show (Finset.univ : Finset (Fin 1024)).fold max (Ideal.ofBits .f32 0xFF800000#32) _ = _
  rw [ofBits_neg_inf]
  show (Finset.univ : Finset (Fin 1024)).sup _ = _
  refine congrArg (Finset.sup Finset.univ) (funext fun (z : Fin 1024) => ?_)
  show (select _ _ _ : S1024x1024.Idx → Ideal .f32) (reduces_S1024x1024_S1024.lift (ix1 y) z) = _
  rw [lift_eq y z]
  simp only [select, andi, xori, cmpi, subf, broadcast, constantI, addi]
  rw [select_mask, shapeCast_self, shapeCast_self, broadcastTo_col_apply, broadcastTo_row_apply, broadcastTo_col_apply,
    broadcastTo_row_apply, prod_apply]
  simp only [addi, broadcast, iota_single_apply, IntOp.addi, Scalar.muli, IntOp.muli, IntOp.cmpi_eq]
  rw [iota_single_apply .tc S1024x1 32 0 iota_S1024x1_d0_w32 (ix2 y (0 : Fin 1)),
    iota_single_apply .tc S1x1024 32 1 iota_S1x1024_d1_w32 (ix2 (0 : Fin 1) z)]
  rfl

/-- Two global indices, each a tile number below 8 times 1024 plus an offset below 1024, are equal as 32-bit words exactly when they
    are equal as numbers. -/
theorem word_eq_iff (y z a b : ℕ) (hy : y < 1024) (hz : z < 1024) (ha : a < 8) (hb : b < 8) :
    (BitVec.ofNat 32 y + BitVec.ofNat 32 a * 1024#32 = BitVec.ofNat 32 z + BitVec.ofNat 32 b * 1024#32)
      ↔ 1024 * a + y = 1024 * b + z := by
  rw [← BitVec.toNat_inj]
  simp only [BitVec.toNat_add, BitVec.toNat_mul, BitVec.toNat_ofNat, Nat.reducePow, Nat.reduceMod]
  omega

/-- The fill column reads the fill value everywhere. -/
theorem pay2_apply (j : S1024x1.Idx) : (k0_pay2 : FVec Ideal S1024x1 .f32) j = NEG := by
  unfold k0_pay2
  rw [shapeCast_self]
  rfl

end Cert.KernelIdeal.Pass1

end
-- ==== Proof.KIPass1ValueC.lean ====
/- The first pass, grid point by grid point, as values over the extended reals: a tile read at an index is the array at the global
    index; so what a case of the body leaves at a row is the column before raised to the largest masked distance to a row of the
    column tile; and by induction along a row tile the scratch column holds the running maximum over the column tiles so far. -/
import proofs.«165275_j48198122996409_2_alg».proof.Proof.KIPass1Acc
import proofs.«165275_j48198122996409_2_alg».proof.Proof.KIPass1ValueA
import proofs.«165275_j48198122996409_2_alg».proof.Proof.KIPass1ValueB

set_option maxRecDepth 16384

noncomputable section

namespace Cert.KernelIdeal.Pass1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- Row y of row tile a as a row of the whole array (a below 8; reduced mod 8192 so that it is a row for every a). -/
def row (a : ℕ) (y : Fin 1024) : Fin 8192 := ⟨(1024 * a + y.val) % 8192, Nat.mod_lt _ (by decide)⟩

theorem row_val (a : ℕ) (ha : a < 8) (y : Fin 1024) : (row a y).val = 1024 * a + y.val := by
  have := y.isLt; show (1024 * a + y.val) % 8192 = _; omega

/-- Grid point t is row tile t / 8, column tile t % 8. -/
theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
/-- The block indices of the five windows at a grid point. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)

theorem lt64 (t : Fin cfg0.N) : t.val < 64 := lt_of_lt_of_eq t.isLt N_0

section Tiles
variable {F : FTy → Type} [FloatOps F]
variable (V : (c : Dev nD) → (b : Ref sig .tc) → Buf (Elt F) ((c : Thread nD τ).loc b))

/-- The row tile of the embeddings at a grid point, read at (y, k), is the array at (row y of tile t / 8, k). -/
theorem tile0_apply (c : Dev nD) (t : Fin cfg0.N) (y : Fin 1024) (k : Fin 128) :
    (tile V c 0 t : Vec F S1024x128 .bf16) (ix2 y k) = (V c main_v6 : S8192x128.Idx → Elt F .bf16) (ix2 (row (t.val / 8) y) k) := by
  have hi := idx0 t
  have hN := lt64 t
  have hy := y.isLt
  unfold tile
  rw [View.read_apply]
  show V c main_v6 _ = V c main_v6 _
  congr 1
  funext a; apply Fin.ext
  match a with
  | ⟨0, _⟩ => show win0_0.index t 0 * 1024 + 1 * y.val = (1024 * (t.val / 8) + y.val) % 8192; rw [hi.1]; omega
  | ⟨1, _⟩ => show win0_0.index t 1 * 128 + 1 * k.val = k.val; rw [hi.2]; omega

/-- The column tile of the embeddings, read at (z, k), is the array at (row z of tile t % 8, k). -/
theorem tile1_apply (c : Dev nD) (t : Fin cfg0.N) (z : Fin 1024) (k : Fin 128) :
    (tile V c 1 t : Vec F S1024x128 .bf16) (ix2 z k) = (V c main_v6 : S8192x128.Idx → Elt F .bf16) (ix2 (row (t.val % 8) z) k) := by
  have hi := idx1 t
  have hN := lt64 t
  have hz := z.isLt
  unfold tile
  rw [View.read_apply]
  show V c main_v6 _ = V c main_v6 _
  congr 1
  funext a; apply Fin.ext
  match a with
  | ⟨0, _⟩ => show win0_1.index t 0 * 1024 + 1 * z.val = (1024 * (t.val % 8) + z.val) % 8192; rw [hi.1]; omega
  | ⟨1, _⟩ => show win0_1.index t 1 * 128 + 1 * k.val = k.val; rw [hi.2]; omega

/-- The row tile of the labels column, read at (y, u), is the column at (row y of tile t / 8, u). -/
theorem tile2_apply (c : Dev nD) (t : Fin cfg0.N) (y : Fin 1024) (u : Fin 1) :
    (tile V c 2 t : Vec F S1024x1 .i32) (ix2 y u) = (V c main_v7 : S8192x1.Idx → Elt F .i32) (ix2 (row (t.val / 8) y) u) := by
  have hi := idx2 t
  have hN := lt64 t
  have hy := y.isLt
  unfold tile
  rw [View.read_apply]
  show V c main_v7 _ = V c main_v7 _
  congr 1
  funext a; apply Fin.ext
  match a with
  | ⟨0, _⟩ => show win0_2.index t 0 * 1024 + 1 * y.val = (1024 * (t.val / 8) + y.val) % 8192; rw [hi.1]; omega
  | ⟨1, _⟩ => show win0_2.index t 1 * 1 + 1 * u.val = u.val; rw [hi.2]; omega

/-- The column tile of the labels row, read at (u, z), is the row at (u, row z of tile t % 8). -/
theorem tile3_apply (c : Dev nD) (t : Fin cfg0.N) (u : Fin 1) (z : Fin 1024) :
    (tile V c 3 t : Vec F S1x1024 .i32) (ix2 u z) = (V c main_v8 : S1x8192.Idx → Elt F .i32) (ix2 u (row (t.val % 8) z)) := by
  have hi := idx3 t
  have hN := lt64 t
  have hz := z.isLt
  unfold tile
  rw [View.read_apply]
  show V c main_v8 _ = V c main_v8 _
  congr 1
  funext a; apply Fin.ext
  match a with
  | ⟨0, _⟩ => show win0_3.index t 0 * 1 + 1 * u.val = u.val; rw [hi.1]; omega
  | ⟨1, _⟩ => show win0_3.index t 1 * 1024 + 1 * z.val = (1024 * (t.val % 8) + z.val) % 8192; rw [hi.2]; omega
end Tiles

/-- The rows below 1024·(b+1) are the rows below 1024·b together with the rows of tile b: the supremum over them splits. -/
theorem sup_step (g : Fin 8192 → EReal) (b : ℕ) (hb : b < 8) :
    max ((Finset.univ.filter fun q : Fin 8192 => q.val < 1024 * b).sup g) (Finset.univ.sup fun z : Fin 1024 => g (row b z))
      = (Finset.univ.filter fun q : Fin 8192 => q.val < 1024 * (b + 1)).sup g := by
  have hsplit : (Finset.univ.filter fun q : Fin 8192 => q.val < 1024 * (b + 1))
      = (Finset.univ.filter fun q : Fin 8192 => q.val < 1024 * b) ∪ Finset.univ.image (row b) := by
    ext q
    simp only [Finset.mem_filter, Finset.mem_univ, true_and, Finset.mem_union, Finset.mem_image]
    constructor
    · intro h
      by_cases hq : q.val < 1024 * b
      · exact Or.inl hq
      · refine Or.inr ⟨⟨q.val - 1024 * b, by omega⟩, Fin.ext ?_⟩
        rw [row_val b hb]; show 1024 * b + (q.val - 1024 * b) = q.val; omega
    · rintro (h | ⟨z, rfl⟩)
      · omega
      · rw [row_val b hb]; have := z.isLt; omega
  rw [hsplit, Finset.sup_union, Finset.sup_image]
  rfl

section AtIdeal
variable (V : (c : Dev nD) → (b : Ref sig .tc) → Buf (Elt Ideal) ((c : Thread nD τ).loc b))

/-- The embeddings, the labels as a column and the labels as a row, as the pass finds them. -/
abbrev emb (c : Dev nD) : S8192x128.Idx → EReal := V c main_v6
abbrev labC (c : Dev nD) : S8192x1.Idx → BitVec 32 := V c main_v7
abbrev labR (c : Dev nD) : S1x8192.Idx → BitVec 32 := V c main_v8

/-- The masked distance from row r to row q of the embeddings: one minus their inner product where the labels agree and the rows
    differ, the fill value elsewhere. -/
def dist (c : Dev nD) (r q : Fin 8192) : EReal :=
  if labC V c (ix2 r (0 : Fin 1)) = labR V c (ix2 (0 : Fin 1) q) ∧ r ≠ q then
    ONE - ∑ k : Fin 128, emb V c (ix2 r k) * emb V c (ix2 q k)
  else NEG

theorem row_eq_iff (a b : ℕ) (ha : a < 8) (hb : b < 8) (y z : Fin 1024) : row a y = row b z ↔ 1024 * a + y.val = 1024 * b + z.val := by
  rw [Fin.ext_iff, row_val a ha, row_val b hb]

/-- What a case of the body leaves in the scratch column at position n, read at row y of the tile: the column before at y raised to
    the largest masked distance from row y of row tile n / 8 to a row of column tile n % 8. -/
theorem pay_tile (c : Dev nD) (n : ℕ) (hn : n < cfg0.N) (xs : Vec Ideal S1024x1 .f32) (y : Fin 1024) :
    k0_pay1 (k0_pay3 (grid0.coords ⟨n, hn⟩) (tile V c 0 ⟨n, hn⟩) (tile V c 1 ⟨n, hn⟩) (tile V c 2 ⟨n, hn⟩) (tile V c 3 ⟨n, hn⟩) xs) (ix2 y (0 : Fin 1))
      = max (xs (ix2 y (0 : Fin 1))) (Finset.univ.sup fun z : Fin 1024 => dist V c (row (n / 8) y) (row (n % 8) z)) := by
  have hN : n < 64 := lt64 ⟨n, hn⟩
  have hc0 : ((grid0.coords ⟨n, hn⟩) 0).val = n / 8 := (coords_eq ⟨n, hn⟩).1
  have hc1 : ((grid0.coords ⟨n, hn⟩) 1).val = n % 8 := (coords_eq ⟨n, hn⟩).2
  refine (pay_apply (grid0.coords ⟨n, hn⟩) (tile V c 0 ⟨n, hn⟩) (tile V c 1 ⟨n, hn⟩) (tile V c 2 ⟨n, hn⟩) (tile V c 3 ⟨n, hn⟩) xs y).trans ?_
  refine congrArg (max _) (congrArg (Finset.sup Finset.univ) (funext fun z => ?_))
  rw [hc0, hc1]
  unfold dist
  refine if_congr (and_congr ?_ (not_congr ?_)) ?_ rfl
  · rw [tile2_apply V c ⟨n, hn⟩ y 0, tile3_apply V c ⟨n, hn⟩ 0 z]
  · rw [word_eq_iff y.val z.val (n / 8) (n % 8) y.isLt z.isLt (by omega) (by omega), row_eq_iff (n / 8) (n % 8) (by omega) (by omega)]
  · refine congrArg (ONE - ·) (Finset.sum_congr rfl fun k _ => ?_)
    rw [tile0_apply V c ⟨n, hn⟩ y k, tile1_apply V c ⟨n, hn⟩ z k]

/-- The running maximum of row r over the first m rows: the fill value raised to the largest masked distance to one of them. -/
def runMax (c : Dev nD) (r : Fin 8192) (m : ℕ) : EReal :=
  max NEG ((Finset.univ.filter fun q : Fin 8192 => q.val < m).sup (dist V c r))

theorem runMax_first (c : Dev nD) (r : Fin 8192) :
    max NEG (Finset.univ.sup fun z : Fin 1024 => dist V c r (row 0 z)) = runMax V c r (1024 * (0 + 1)) := by
  unfold runMax
  rw [← sup_step (dist V c r) 0 (by decide)]
  have he : (Finset.univ.filter fun q : Fin 8192 => q.val < 1024 * 0) = ∅ :=
    Finset.filter_eq_empty_iff.mpr fun q _ => by omega
  rw [he, Finset.sup_empty, max_bot_left]

theorem runMax_step (c : Dev nD) (r : Fin 8192) (b : ℕ) (hb : b < 8) :
    max (runMax V c r (1024 * b)) (Finset.univ.sup fun z : Fin 1024 => dist V c r (row b z)) = runMax V c r (1024 * (b + 1)) := by
  unfold runMax
  rw [max_assoc, sup_step (dist V c r) b hb]

/-- THE INVARIANT: after the body at position n the scratch column at row y of the tile holds the running maximum of row y of row
    tile n / 8 over the rows of the column tiles 0 … n % 8. -/
theorem acc_inv (c : Dev nD) : ∀ (n : ℕ) (hn : n < cfg0.N) (y : Fin 1024),
    (accAt V c n hn).2 (ix2 y (0 : Fin 1)) = runMax V c (row (n / 8) y) (1024 * (n % 8 + 1))
  | 0, hn, y => by
    refine (congrArg (fun p => p.2 (ix2 y (0 : Fin 1))) (accAt_first V c ⟨0, hn⟩ (Nat.zero_mod 8) (by show ¬0 % 8 = 7; decide))).trans ?_
    dsimp only
    rw [soutFirst_eq]
    refine (pay_tile V c 0 hn _ y).trans ?_
    rw [pay2_apply]
    exact runMax_first V c _
  | n + 1, hn, y => by
    have hN : n + 1 < 64 := lt64 ⟨n + 1, hn⟩
    by_cases h0 : (n + 1) % 8 = 0
    · refine (congrArg (fun p => p.2 (ix2 y (0 : Fin 1))) (accAt_first V c ⟨n + 1, hn⟩ h0 (by dsimp only; omega))).trans ?_
      dsimp only
      rw [soutFirst_eq]
      refine (pay_tile V c (n + 1) hn _ y).trans ?_
      rw [pay2_apply, h0]
      exact runMax_first V c _
    · have ih := acc_inv c n (Nat.lt_of_succ_lt hn) y
      have e1 : n / 8 = (n + 1) / 8 := by omega
      have e2 : n % 8 + 1 = (n + 1) % 8 := by omega
      rw [e1, e2] at ih
      by_cases h1 : (n + 1) % 8 = 7
      · refine (congrArg (fun p => p.2 (ix2 y (0 : Fin 1))) (accAt_last V c ⟨n + 1, hn⟩ h0 h1)).trans ?_
        dsimp only
        rw [soutLast_eq]
        refine (pay_tile V c (n + 1) hn _ y).trans ?_
        show max ((accAt V c n _).2 (ix2 y (0 : Fin 1))) _ = _
        rw [ih]
        exact runMax_step V c _ _ (by omega)
      · refine (congrArg (fun p => p.2 (ix2 y (0 : Fin 1))) (accAt_mid V c ⟨n + 1, hn⟩ h0 h1)).trans ?_
        dsimp only
        rw [soutMid_eq]
        refine (pay_tile V c (n + 1) hn _ y).trans ?_
        show max ((accAt V c n _).2 (ix2 y (0 : Fin 1))) _ = _
        rw [ih]
        exact runMax_step V c _ _ (by omega)

end AtIdeal

end Cert.KernelIdeal.Pass1

end
-- ==== Proof.KIPass1ValueD.lean ====
/- The first pass's result: the block written back at the last column tile of a row tile is that tile's rows of the computed
    column, those blocks cover the output column's array, and so the array ends holding, at every row, the fill value raised to the
    largest masked distance from that row to any row. -/
import proofs.«165275_j48198122996409_2_alg».proof.Proof.KIPass1ValueC
import Idealize.ShloMosaic.Lib.Pipeline.Value

set_option maxRecDepth 16384

noncomputable section

namespace Cert.KernelIdeal.Pass1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- Two functions of a rank-2 index that agree at every pair of coordinates are equal. -/
theorem funext_ix2 {α : Type} {n0 n1 : ℕ} {f g : (⟨2, ![n0, n1]⟩ : Shape).Idx → α}
    (h : ∀ (a : Fin n0) (b : Fin n1), f (ix2 a b) = g (ix2 a b)) : f = g :=
  funext fun j => by rw [eq_ix2 j]; exact h _ _

/-- The output column's block at a grid point is whole: 1024 rows, one column. -/
theorem xs4 : ∀ t : Fin cfg0.N, win0_4.xsize (grid0.coords t) 0 = 1024 ∧ win0_4.xsize (grid0.coords t) 1 = 1 :=
  (by decide +kernel : ∀ t : Fin grid0.N, win0_4.xsize (grid0.coords t) 0 = 1024 ∧ win0_4.xsize (grid0.coords t) 1 = 1)

section AtIdeal
variable (V : (c : Dev nD) → (b : Ref sig .tc) → Buf (Elt Ideal) ((c : Thread nD τ).loc b))

/-- The column the pass computes: at row r the fill value raised to the largest masked distance from r to any row. -/
def colMax (c : Dev nD) : S8192x1.Idx → EReal := fun i => max NEG (Finset.univ.sup (dist V c ⟨(i 0).val, idx2_lt0 i⟩))

theorem runMax_all (c : Dev nD) (r : Fin 8192) : runMax V c r (1024 * (7 + 1)) = max NEG (Finset.univ.sup (dist V c r)) := by
  unfold runMax
  rw [Finset.filter_true_of_mem fun q _ => by have := q.isLt; omega]

/-- At a last column tile the output column's staging buffer is left at the scratch column. -/
theorem acc_out (c : Dev nD) (n : ℕ) (hn : n < cfg0.N) (h7 : n % 8 = 7) : (accAt V c n hn).1 = (accAt V c n hn).2 := by
  have e := accAt_last V c ⟨n, hn⟩ (by show ¬n % 8 = 0; omega) h7
  rw [show accAt V c n hn = _ from e]
  dsimp only
  rw [outLast_eq, soutLast_eq]

/-- A block of the output column's array, read at (y, u), is the array at (row y of tile t / 8, u). -/
theorem blk4_read (c : Dev nD) (G : Buf (Elt Ideal) ((cfg0.win 4).arr.view.loc (c : Thread nD τ))) (t : Fin cfg0.N) (y : Fin 1024) (u : Fin 1) :
    (((cfg0.win 4).blk t).view.read (Elt Ideal) G : S1024x1.Idx → EReal) (ix2 y u) = (G : S8192x1.Idx → EReal) (ix2 (row (t.val / 8) y) u) := by
  have hi := idx4 t
  have hN := lt64 t
  have hy := y.isLt
  rw [View.read_apply]
  show G _ = G _
  congr 1
  funext a; apply Fin.ext
  match a with
  | ⟨0, _⟩ => show win0_4.index t 0 * 1024 + 1 * y.val = (1024 * (t.val / 8) + y.val) % 8192; rw [hi.1]; omega
  | ⟨1, _⟩ => show win0_4.index t 1 * 1 + 1 * u.val = u.val; rw [hi.2]; omega

/-- What a write-back of the output column writes is its block of the computed column. -/
theorem flushed_eq (c : Dev nD) (t : Fin cfg0.N) (hf : (cfg0.win 4).flush t = true) :
    (dat V c).flushed 4 t = ((cfg0.win 4).blk t).view.read (Elt Ideal) (colMax V c) := by
  have h7 : t.val % 8 = 7 := (flush0_4 t).mp hf
  show ((cfg0.win 4).cut (grid0.coords t) ((dat V c).after 4 t) : S1024x1.Idx → EReal) = _
  rw [after4]
  refine funext_ix2 fun y u => ?_
  obtain rfl : u = 0 := Subsingleton.elim _ _
  rw [blk4_read c (colMax V c) t y 0]
  show (accAt V c t.val t.isLt).1 (ix2 y (0 : Fin 1)) = _
  rw [acc_out V c t.val t.isLt h7, acc_inv V c t.val t.isLt y, h7, runMax_all]
  rfl

/-- Every row of the output column's array is in the block written back at the last column tile of its row tile. -/
theorem cover4 (c : Dev nD) (i : ((cfg0.win 4).arr.view.loc (c : Thread nD τ)).2.ty.Idx) :
    ∃ t : Fin cfg0.N, (cfg0.win 4).flush t = true ∧ i ∈ ((cfg0.win 4).blk t).view.set := by
  have h0 : (i 0 : ℕ) < 8192 := (i 0).isLt
  have h1 : (i 1 : ℕ) < 1 := (i 1).isLt
  have hlt64 : 8 * ((i 0 : ℕ) / 1024) + 7 < 64 := by omega
  have hlt : 8 * ((i 0 : ℕ) / 1024) + 7 < cfg0.N := lt_of_lt_of_eq hlt64 N_0.symm
  refine ⟨⟨8 * ((i 0 : ℕ) / 1024) + 7, hlt⟩, (flush0_4 _).mpr (by show (8 * ((i 0 : ℕ) / 1024) + 7) % 8 = 7; omega), ?_⟩
  show i ∈ ((View.whole main_v9).slice (win0_4.rect ⟨8 * ((i 0 : ℕ) / 1024) + 7, hlt⟩)).set
  rw [View.set_slice_whole, Rect.mem_set_unit]
  intro a
  have hi := idx4 ⟨8 * ((i 0 : ℕ) / 1024) + 7, hlt⟩
  have hx := xs4 ⟨8 * ((i 0 : ℕ) / 1024) + 7, hlt⟩
  match a with
  | ⟨0, _⟩ =>
    show win0_4.index ⟨8 * ((i 0 : ℕ) / 1024) + 7, hlt⟩ 0 * win0_4.size 0 ≤ (i 0 : ℕ)
      ∧ (i 0 : ℕ) < win0_4.index ⟨8 * ((i 0 : ℕ) / 1024) + 7, hlt⟩ 0 * win0_4.size 0 + win0_4.xsize (grid0.coords ⟨8 * ((i 0 : ℕ) / 1024) + 7, hlt⟩) 0
    rw [hi.1, hx.1, show win0_4.size 0 = 1024 from rfl]
    show (8 * ((i 0 : ℕ) / 1024) + 7) / 8 * 1024 ≤ (i 0 : ℕ) ∧ (i 0 : ℕ) < (8 * ((i 0 : ℕ) / 1024) + 7) / 8 * 1024 + 1024
    omega
  | ⟨1, _⟩ =>
    show win0_4.index ⟨8 * ((i 0 : ℕ) / 1024) + 7, hlt⟩ 1 * win0_4.size 1 ≤ (i 1 : ℕ)
      ∧ (i 1 : ℕ) < win0_4.index ⟨8 * ((i 0 : ℕ) / 1024) + 7, hlt⟩ 1 * win0_4.size 1 + win0_4.xsize (grid0.coords ⟨8 * ((i 0 : ℕ) / 1024) + 7, hlt⟩) 1
    rw [hi.2, hx.2]
    omega

/-- THE OUTPUT COLUMN: when the pass is left its array holds the computed column. -/
theorem final_col (c : Dev nD) : (dat V c).arrAt 4 cfg0.N = colMax V c :=
  (dat V c).arrAt_eq_of_cover 4 (colMax V c) (flushed_eq V c) (cover4 c)

/-- Read at a row: the fill value raised to the largest, over all rows q, of one minus the inner product of rows r and q where the
    labels agree and q is not r (the fill value at the other q). -/
theorem pass1_value (c : Dev nD) (r : Fin 8192) :
    ((dat V c).arrAt 4 cfg0.N : S8192x1.Idx → EReal) (ix2 r (0 : Fin 1))
      = max NEG (Finset.univ.sup fun q : Fin 8192 =>
          if labC V c (ix2 r (0 : Fin 1)) = labR V c (ix2 (0 : Fin 1) q) ∧ r ≠ q then
            ONE - ∑ k : Fin 128, emb V c (ix2 r k) * emb V c (ix2 q k)
          else NEG) := by
  rw [final_col V c]
  rfl

end AtIdeal

end Cert.KernelIdeal.Pass1

end
-- ==== Proof.RefTail.lean ====
/- The reference's result is the shared last step applied to its hardest-positive distances, its chosen negative distances and its flags:
   its last eleven operations are that step, operation for operation. -/
import proofs.«165275_j48198122996409_2_alg».proof.Proof.RefReadP
import proofs.«165275_j48198122996409_2_alg».proof.Proof.Tail

noncomputable section

namespace Cert.ReferenceIdeal.Rows

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The loss as the reference computes it, through the three row-indexed stages. -/
theorem val_v46_tail (x0 : (⟨S8192x128, .f32⟩ : BufTy).Contents (Elt F)) (x1 : (⟨S8192, .i32⟩ : BufTy).Contents (Elt F)) :
    val_main_v46 (F := F) x0 x1 = Cert.Tail.tail (F := F) bcast_S_S8192 reducesTo_S8192_S_d0 h_S_ natLt_1_32
      (val_main_v22 (F := F) x0 x1) (val_main_v32 (F := F) x0 x1) (val_main_v35 (F := F) x1) := rfl

end Cert.ReferenceIdeal.Rows

end
-- ==== Proof.RefNorm.lean ====
/- A normalised embedding entry, read at its index: the entry divided by the square root of its row's sum of squares. -/
import proofs.«165275_j48198122996409_2_alg».proof.Proof.RefTail

noncomputable section

namespace Cert.ReferenceIdeal.Rows

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-- Entry `(r, k)` of the normalised embeddings is `x0 (r, k)` over the square root of `∑ j, x0 (r, j)²` (the sum onto a zero). -/
theorem xn_apply (x0 : (⟨S8192x128, .f32⟩ : BufTy).Contents (Elt Ideal)) (r : Fin 8192) (k : Fin 128) :
    val_main_v2 (F := Ideal) x0 (ix2 r k)
      = Ideal.div (x0 (ix2 r k)) (Ideal.sqrt (0 + ∑ j : Fin 128, x0 (ix2 r j) * x0 (ix2 r j))) := by
  rw [val_main_v2_apply, val_main_v1_apply, val_main_v0_apply, val_main_call0_v2_apply, val_main_call0_v1_apply]
  have e1 : ∀ j : Fin 128, idx_main_call0_v1 (idx_main_call0_v2 (idx_main_v1 (ix2 r k))) j = ix2 r j := fun j => by
    funext a; match a with | ⟨0, _⟩ => rfl | ⟨1, _⟩ => rfl
  simp only [e1, val_main_call0_v0_apply, val_main_call0_cst_apply, Ideal.hostDivf_def, Ideal.hostUnary_sqrt_def, Ideal.ofBits_def,
    Ideal.ofBits_zero_f32, Ideal.mulf_def]

end Cert.ReferenceIdeal.Rows

end
-- ==== Proof.LibUnitRows.lean ====
/- Rows divided by their own Euclidean norm: over the reals such a row has entries of absolute value at most one, so the inner
    product of two such rows of length `K` is at most `K` in absolute value; and over the extended reals, with the operations that
    give division by zero and the square root of a negative number a value, a finite row that is not all zero is normalised to
    the same row as over the reals. -/
import Mathlib.Analysis.SpecialFunctions.Pow.Real
import Mathlib.Algebra.BigOperators.Group.Finset.Basic
import Mathlib.Algebra.Order.BigOperators.Group.Finset
import Mathlib.Data.EReal.Inv
import Idealize.ShloMosaic.PureOps.Ideal

noncomputable section

namespace Cert.Lib.UnitRows

open scoped BigOperators
open Idealize.ShloMosaic

variable {K : ℕ}

/-! ## Over the reals -/

/-- The sum of the squares of a row with a nonzero entry is positive. -/
theorem sumSq_pos (a : Fin K → ℝ) (ha : ∃ k, a k ≠ 0) : 0 < ∑ k, a k * a k := by
  obtain ⟨k, hk⟩ := ha
  exact Finset.sum_pos' (fun j _ => mul_self_nonneg (a j)) ⟨k, Finset.mem_univ k, mul_self_pos.mpr hk⟩

/-- The Euclidean norm of a row with a nonzero entry is positive. -/
theorem norm_pos (a : Fin K → ℝ) (ha : ∃ k, a k ≠ 0) : 0 < Real.sqrt (∑ k, a k * a k) :=
  Real.sqrt_pos.mpr (sumSq_pos a ha)

/-- Every entry of a row is at most the row's Euclidean norm in absolute value. -/
theorem abs_le_norm (a : Fin K → ℝ) (k : Fin K) : |a k| ≤ Real.sqrt (∑ j, a j * a j) := by
  rw [← Real.sqrt_mul_self_eq_abs]
  exact Real.sqrt_le_sqrt
    (Finset.single_le_sum (f := fun j => a j * a j) (fun j _ => mul_self_nonneg (a j)) (Finset.mem_univ k))

/-- Every entry of a row divided by the row's Euclidean norm is at most one in absolute value. -/
theorem abs_div_norm_le_one (a : Fin K → ℝ) (ha : ∃ k, a k ≠ 0) (k : Fin K) :
    |a k / Real.sqrt (∑ j, a j * a j)| ≤ 1 := by
  rw [abs_div, abs_of_pos (norm_pos a ha)]
  exact (div_le_one (norm_pos a ha)).mpr (abs_le_norm a k)

/-- The inner product of two rows of length `K`, each divided by its own Euclidean norm, is at most `K` in absolute value. -/
theorem abs_inner_le (a b : Fin K → ℝ) (ha : ∃ k, a k ≠ 0) (hb : ∃ k, b k ≠ 0) :
    |∑ k, (a k / Real.sqrt (∑ j, a j * a j)) * (b k / Real.sqrt (∑ j, b j * b j))| ≤ (K : ℝ) := by
  have hterm : ∀ k : Fin K,
      |(a k / Real.sqrt (∑ j, a j * a j)) * (b k / Real.sqrt (∑ j, b j * b j))| ≤ 1 := by
    intro k
    rw [abs_mul]
    calc |a k / Real.sqrt (∑ j, a j * a j)| * |b k / Real.sqrt (∑ j, b j * b j)|
        ≤ 1 * 1 := mul_le_mul (abs_div_norm_le_one a ha k) (abs_div_norm_le_one b hb k) (abs_nonneg _) zero_le_one
      _ = 1 := one_mul 1
  calc |∑ k, (a k / Real.sqrt (∑ j, a j * a j)) * (b k / Real.sqrt (∑ j, b j * b j))|
      ≤ ∑ k, |(a k / Real.sqrt (∑ j, a j * a j)) * (b k / Real.sqrt (∑ j, b j * b j))| :=
        Finset.abs_sum_le_sum_abs _ _
    _ ≤ ∑ _k : Fin K, (1 : ℝ) := Finset.sum_le_sum (fun k _ => hterm k)
    _ = (K : ℝ) := by simp

/-! ## Over the extended reals -/

/-- The extended real of a finite sum of reals is the sum of the extended reals. -/
theorem coe_sum {ι : Type} (t : Finset ι) (f : ι → ℝ) :
    ((∑ k ∈ t, f k : ℝ) : EReal) = ∑ k ∈ t, (f k : EReal) := by
  classical
  refine Finset.induction_on t (by simp) ?_
  intro a t ha ih
  rw [Finset.sum_insert ha, Finset.sum_insert ha, EReal.coe_add, ih]

/-- The sum of the squares of a finite row, started from zero, is the extended real of the reals' sum of squares. -/
theorem zero_add_sumSq (r : Fin K → ℝ) :
    (0 : EReal) + ∑ j, (r j : EReal) * (r j : EReal) = ((∑ j, r j * r j : ℝ) : EReal) := by
  rw [zero_add, coe_sum]
  simp only [EReal.coe_mul]

/-- The extended square root of that sum is the extended real of the row's Euclidean norm. -/
theorem sqrt_sumSq (r : Fin K → ℝ) :
    Ideal.sqrt ((0 : EReal) + ∑ j, (r j : EReal) * (r j : EReal)) = ((Real.sqrt (∑ j, r j * r j) : ℝ) : EReal) := by
  rw [zero_add_sumSq, Ideal.sqrt_coe,
    if_neg (not_lt.mpr (Finset.sum_nonneg (fun j _ => mul_self_nonneg (r j))))]

/-- A finite row that is not all zero, divided entry by entry by the extended square root of its sum of squares, is the extended
    real of the row divided by its Euclidean norm: neither the division by zero nor the root of a negative number is met. -/
theorem div_sqrt_sumSq (r : Fin K → ℝ) (hr : ∃ k, r k ≠ 0) (k : Fin K) :
    Ideal.div (r k : EReal) (Ideal.sqrt ((0 : EReal) + ∑ j, (r j : EReal) * (r j : EReal)))
      = ((r k / Real.sqrt (∑ j, r j * r j) : ℝ) : EReal) := by
  rw [sqrt_sumSq, Ideal.div_coe (norm_pos r hr).ne', ← EReal.coe_mul, mul_one_div]

/-- The same for a row of extended reals given as the extended reals of a real row. -/
theorem div_sqrt_sumSq_of_eq (e : Fin K → EReal) (r : Fin K → ℝ) (he : ∀ k, e k = (r k : EReal)) (hr : ∃ k, r k ≠ 0)
    (k : Fin K) :
    Ideal.div (e k) (Ideal.sqrt ((0 : EReal) + ∑ j, e j * e j)) = ((r k / Real.sqrt (∑ j, r j * r j) : ℝ) : EReal) := by
  have hfun : e = fun k => (r k : EReal) := funext he
  subst hfun
  exact div_sqrt_sumSq r hr k

/-- The same for a row of extended reals all finite and not all zero, read back as reals. -/
theorem div_sqrt_sumSq_of_finite (e : Fin K → EReal) (hfin : ∀ k, e k ≠ ⊤ ∧ e k ≠ ⊥) (hne : ∃ k, e k ≠ 0) (k : Fin K) :
    Ideal.div (e k) (Ideal.sqrt ((0 : EReal) + ∑ j, e j * e j))
      = (((e k).toReal / Real.sqrt (∑ j, (e j).toReal * (e j).toReal) : ℝ) : EReal) := by
  have he : ∀ k, e k = ((e k).toReal : EReal) := fun k => (EReal.coe_toReal (hfin k).1 (hfin k).2).symm
  refine div_sqrt_sumSq_of_eq e (fun k => (e k).toReal) he ?_ k
  obtain ⟨k0, hk0⟩ := hne
  refine ⟨k0, fun h0 => hk0 ?_⟩
  rw [he k0]
  show (((e k0).toReal : ℝ) : EReal) = 0
  rw [h0, EReal.coe_zero]

end Cert.Lib.UnitRows

end
-- ==== Proof.Words.lean ====
/- The float words the two programs spell, as the numbers they denote: the fill values ±(13234890 · 2^76) (single precision's nearest
   to ±1e30), the half-way values ±(13234890 · 2^75), one and one half; and how they are ordered around a bounded real. -/
import Idealize.ShloMosaic.PureOps.Ideal.Laws

noncomputable section

namespace Cert.Words

open Idealize.ShloMosaic

/-- The positive fill: exponent field 226, fraction field 4846282. -/
theorem inf_eq : Ideal.ofBits .f32 0x7149F2CA#32 = ((13234890 * (2 : ℝ) ^ (76 : ℤ) : ℝ) : EReal) := by
  simp [Ideal.ofBits, Ideal.ieee]
/-- The negative fill is its negation. -/
theorem neg_eq : Ideal.ofBits .f32 0xF149F2CA#32 = ((-(13234890 * (2 : ℝ) ^ (76 : ℤ)) : ℝ) : EReal) := by
  simp [Ideal.ofBits, Ideal.ieee]
/-- The positive half-way value: exponent field 225, the same fraction. -/
theorem half_eq : Ideal.ofBits .f32 0x70C9F2CA#32 = ((13234890 * (2 : ℝ) ^ (75 : ℤ) : ℝ) : EReal) := by
  simp [Ideal.ofBits, Ideal.ieee]
theorem nhalf_eq : Ideal.ofBits .f32 0xF0C9F2CA#32 = ((-(13234890 * (2 : ℝ) ^ (75 : ℤ)) : ℝ) : EReal) := by
  simp [Ideal.ofBits, Ideal.ieee]
theorem one_eq : Ideal.ofBits .f32 0x3F800000#32 = ((1 : ℝ) : EReal) := by
  simp [Ideal.ofBits, Ideal.ieee]
  exact_mod_cast (by norm_num : (8388608 : ℝ) * ((2 : ℝ) ^ 23)⁻¹ = 1)
theorem onehalf_eq : Ideal.ofBits .f32 0x3F000000#32 = (((1 : ℝ) / 2 : ℝ) : EReal) := by
  simp [Ideal.ofBits, Ideal.ieee]
  exact_mod_cast (by norm_num : (8388608 : ℝ) * ((2 : ℝ) ^ 24)⁻¹ = 2⁻¹)

/-- The negative fill written as the program on the other side spells it: the negation of the positive fill. -/
theorem neg_eq_neg_inf : Ideal.ofBits .f32 0xF149F2CA#32 = -(Ideal.ofBits .f32 0x7149F2CA#32) := by
  rw [neg_eq, inf_eq, EReal.coe_neg]

theorem neg_lt_nhalf : Ideal.ofBits .f32 0xF149F2CA#32 < Ideal.ofBits .f32 0xF0C9F2CA#32 := by
  rw [neg_eq, nhalf_eq, EReal.coe_lt_coe_iff]; norm_num
theorem half_lt_inf : Ideal.ofBits .f32 0x70C9F2CA#32 < Ideal.ofBits .f32 0x7149F2CA#32 := by
  rw [half_eq, inf_eq, EReal.coe_lt_coe_iff]; norm_num
/-- A real of modest size lies strictly between the two half-way values. -/
theorem nhalf_lt_coe (x : ℝ) (hx : -200 ≤ x) : Ideal.ofBits .f32 0xF0C9F2CA#32 < (x : EReal) := by
  rw [nhalf_eq, EReal.coe_lt_coe_iff]
  have : (0 : ℝ) < 13234890 * (2 : ℝ) ^ (75 : ℤ) - 200 := by norm_num
  linarith
theorem coe_lt_half (x : ℝ) (hx : x ≤ 200) : (x : EReal) < Ideal.ofBits .f32 0x70C9F2CA#32 := by
  rw [half_eq, EReal.coe_lt_coe_iff]
  have : (0 : ℝ) < 13234890 * (2 : ℝ) ^ (75 : ℤ) - 200 := by norm_num
  linarith

end Cert.Words

end
-- ==== Proof.RefBounds.lean ====
/- The cosine distances are bounded reals when every embedding entry is finite and every row has a nonzero entry: each normalised entry
   is at most one in absolute value, so an inner product of two normalised rows of width 128 is at most 128. -/
import proofs.«165275_j48198122996409_2_alg».proof.Proof.RefNorm
import proofs.«165275_j48198122996409_2_alg».proof.Proof.LibUnitRows
import proofs.«165275_j48198122996409_2_alg».proof.Proof.Words

noncomputable section

namespace Cert.ReferenceIdeal.Rows

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-- The distance between rows `r` and `q`: one minus the inner product of the two normalised rows. -/
def dist (x0 : (⟨S8192x128, .f32⟩ : BufTy).Contents (Elt Ideal)) (r q : Fin 8192) : EReal :=
  Ideal.ofBits .f32 0x3F800000#32 - ∑ k : Fin 128, val_main_v2 (F := Ideal) x0 (ix2 r k) * val_main_v2 (F := Ideal) x0 (ix2 q k)

/-- Rows `r` and `q` carry the same label. -/
def same (x1 : (⟨S8192, .i32⟩ : BufTy).Contents (Elt Ideal)) (r q : Fin 8192) : Prop := x1 (ix1 r) = x1 (ix1 q)

instance (x1 : (⟨S8192, .i32⟩ : BufTy).Contents (Elt Ideal)) (r q : Fin 8192) : Decidable (same x1 r q) := by
  unfold same; infer_instance

/-- With finite entries and no zero row, every distance is a real number between −200 and 200. -/
theorem dist_real (x0 : (⟨S8192x128, .f32⟩ : BufTy).Contents (Elt Ideal)) (hfin : ∀ idx : S8192x128.Idx, x0 idx ≠ ⊤ ∧ x0 idx ≠ ⊥)
    (hne : ∀ r : Fin 8192, ∃ k : Fin 128, x0 (ix2 r k) ≠ 0) (r q : Fin 8192) :
    ∃ x : ℝ, dist x0 r q = (x : EReal) ∧ -200 ≤ x ∧ x ≤ 200 := by
  have nz : ∀ p : Fin 8192, ∃ k : Fin 128, (x0 (ix2 p k)).toReal ≠ 0 := fun p => by
    obtain ⟨k, hk⟩ := hne p
    exact ⟨k, fun h0 => by
      rcases EReal.toReal_eq_zero_iff.1 h0 with h | h | h
      exacts [hk h, (hfin _).1 h, (hfin _).2 h]⟩
  have hx : ∀ (p : Fin 8192) (k : Fin 128), val_main_v2 (F := Ideal) x0 (ix2 p k)
      = (((x0 (ix2 p k)).toReal / Real.sqrt (∑ j : Fin 128, (x0 (ix2 p j)).toReal * (x0 (ix2 p j)).toReal) : ℝ) : EReal) := fun p k => by
    rw [xn_apply]
    exact Cert.Lib.UnitRows.div_sqrt_sumSq_of_finite (fun k => x0 (ix2 p k)) (fun k => hfin _) (hne p) k
  have hb := abs_le.1 (Cert.Lib.UnitRows.abs_inner_le (fun k => (x0 (ix2 r k)).toReal) (fun k => (x0 (ix2 q k)).toReal) (nz r) (nz q))
  refine ⟨1 - ∑ k : Fin 128, ((x0 (ix2 r k)).toReal / Real.sqrt (∑ j : Fin 128, (x0 (ix2 r j)).toReal * (x0 (ix2 r j)).toReal))
      * ((x0 (ix2 q k)).toReal / Real.sqrt (∑ j : Fin 128, (x0 (ix2 q j)).toReal * (x0 (ix2 q j)).toReal)), ?_, ?_, ?_⟩
  · unfold dist
    rw [Cert.Words.one_eq]
    simp only [hx, ← EReal.coe_mul]
    rw [← Cert.Lib.UnitRows.coe_sum, ← EReal.coe_sub]
  · have h2 := hb.2
    norm_num at h2
    linarith
  · have h1 := hb.1
    norm_num at h1
    linarith

end Cert.ReferenceIdeal.Rows

end
-- ==== Proof.LibSentinel.lean ====
/- Mining the hardest positive and a semi-hard negative for every anchor from a square matrix of extended-real distances and a
    reflexive "same label" relation, in two ways. The first way takes suprema and infima whose neutral elements it is free to
    choose and tests existence; the second starts every running maximum and minimum at a finite fill value and replaces every
    existence test by a comparison with a half-way value. When every distance lies strictly between the two half-way values the
    two ways give the same distances and call the same anchors valid. -/
import Mathlib.Data.EReal.Basic
import Mathlib.Data.Finset.Lattice.Fold
import Mathlib.Data.Fintype.Basic
import Mathlib.Order.Fin.Basic

noncomputable section

namespace Cert.Lib.Sentinel

/-! ## The first way: suprema, infima and existence tests -/

/-- The largest distance from anchor `i` to another item of the same label; `N` stands for the items that do not count. -/
def refDap {n : ℕ} (d : Fin n → Fin n → EReal) (s : Fin n → Fin n → Prop) [∀ i j, Decidable (s i j)] (N : EReal) (i : Fin n) : EReal :=
  Finset.univ.sup fun j => if s i j ∧ i ≠ j then d i j else N

/-- Item `j` is a semi-hard negative of anchor `i`: of another label, and farther than the farthest item of the same label. -/
def refSemi {n : ℕ} (d : Fin n → Fin n → EReal) (s : Fin n → Fin n → Prop) [∀ i j, Decidable (s i j)] (N : EReal) (i j : Fin n) : Prop :=
  ¬ s i j ∧ refDap d s N i < d i j

/-- Being a semi-hard negative is decidable, by its two clauses. -/
instance refSemi.decidable {n : ℕ} (d : Fin n → Fin n → EReal) (s : Fin n → Fin n → Prop) [∀ i j, Decidable (s i j)] (N : EReal) (i j : Fin n) : Decidable (refSemi d s N i j) :=
  inferInstanceAs (Decidable (¬ s i j ∧ refDap d s N i < d i j))

/-- The smallest distance from anchor `i` to a semi-hard negative; `I` stands for the items that do not count. -/
def refSemiMin {n : ℕ} (d : Fin n → Fin n → EReal) (s : Fin n → Fin n → Prop) [∀ i j, Decidable (s i j)] (N I : EReal) (i : Fin n) : EReal :=
  Finset.univ.inf fun j => if refSemi d s N i j then d i j else I

/-- The smallest distance from anchor `i` to an item of another label. -/
def refNegMin {n : ℕ} (d : Fin n → Fin n → EReal) (s : Fin n → Fin n → Prop) [∀ i j, Decidable (s i j)] (I : EReal) (i : Fin n) : EReal :=
  Finset.univ.inf fun j => if ¬ s i j then d i j else I

/-- The negative distance of anchor `i`: to the nearest semi-hard negative if there is one, else to the nearest negative. -/
def refDan {n : ℕ} (d : Fin n → Fin n → EReal) (s : Fin n → Fin n → Prop) [∀ i j, Decidable (s i j)] (N I : EReal) (i : Fin n) : EReal :=
  if ∃ j, refSemi d s N i j then refSemiMin d s N I i else refNegMin d s I i

/-- Anchor `i` counts: it has another item of its label and an item of another label. -/
def refValid {n : ℕ} (s : Fin n → Fin n → Prop) (i : Fin n) : Prop :=
  (∃ j, s i j ∧ i ≠ j) ∧ ∃ j, ¬ s i j

/-! ## The second way: running extrema from a fill value and comparisons with a half-way value -/

/-- The running maximum, started at the fill value `N`. -/
def kerDap {n : ℕ} (d : Fin n → Fin n → EReal) (s : Fin n → Fin n → Prop) [∀ i j, Decidable (s i j)] (N : EReal) (i : Fin n) : EReal :=
  max N (refDap d s N i)

/-- The distances with the same-label entries filled with `I`. -/
def kerDn {n : ℕ} (d : Fin n → Fin n → EReal) (s : Fin n → Fin n → Prop) [∀ i j, Decidable (s i j)] (I : EReal) (i j : Fin n) : EReal :=
  if s i j then I else d i j

/-- The running minimum over the filled distances, started at the fill value `I`. -/
def kerNegMin {n : ℕ} (d : Fin n → Fin n → EReal) (s : Fin n → Fin n → Prop) [∀ i j, Decidable (s i j)] (I : EReal) (i : Fin n) : EReal :=
  min I (Finset.univ.inf fun j => kerDn d s I i j)

/-- The running minimum over the filled distances that exceed the anchor's positive distance `dap i`, started at `I`. -/
def kerSemiMin {n : ℕ} (d : Fin n → Fin n → EReal) (s : Fin n → Fin n → Prop) [∀ i j, Decidable (s i j)] (I : EReal) (dap : Fin n → EReal) (i : Fin n) : EReal :=
  min I (Finset.univ.inf fun j => if dap i < kerDn d s I i j then kerDn d s I i j else I)

/-- The negative distance: the semi-hard minimum if it stayed below the half-way value `H`, else the plain minimum. -/
def kerDan {n : ℕ} (d : Fin n → Fin n → EReal) (s : Fin n → Fin n → Prop) [∀ i j, Decidable (s i j)] (I H : EReal) (dap : Fin n → EReal) (i : Fin n) : EReal :=
  if kerSemiMin d s I dap i < H then kerSemiMin d s I dap i else kerNegMin d s I i

/-- The anchor counts: its positive distance rose above the half-way value `NH` and its negative minimum fell below `H`. -/
def kerValid {n : ℕ} (d : Fin n → Fin n → EReal) (s : Fin n → Fin n → Prop) [∀ i j, Decidable (s i j)] (I NH H : EReal) (dap : Fin n → EReal) (i : Fin n) : Prop :=
  NH < dap i ∧ kerNegMin d s I i < H

/-! ## The two ways agree -/

/-- Starting the running maximum at `N` changes nothing: the anchor itself does not count, so the supremum is already at least `N`. -/
theorem kerDap_eq {n : ℕ} (d : Fin n → Fin n → EReal) (s : Fin n → Fin n → Prop) [∀ i j, Decidable (s i j)] (N : EReal) (hs : ∀ i, s i i) (i : Fin n) :
    kerDap d s N i = refDap d s N i := by
  unfold kerDap
  refine max_eq_right ?_
  have h : (if s i i ∧ i ≠ i then d i i else N) ≤ refDap d s N i :=
    Finset.le_sup (f := fun j => if s i j ∧ i ≠ j then d i j else N) (Finset.mem_univ i)
  rwa [if_neg (fun hh => hh.2 rfl)] at h

/-- Starting the running minimum at `I` changes nothing: the anchor has its own label, so the infimum is already at most `I`. -/
theorem kerNegMin_eq {n : ℕ} (d : Fin n → Fin n → EReal) (s : Fin n → Fin n → Prop) [∀ i j, Decidable (s i j)] (I : EReal) (hs : ∀ i, s i i) (i : Fin n) :
    kerNegMin d s I i = refNegMin d s I i := by
  have hfun : (fun j => kerDn d s I i j) = fun j => if ¬ s i j then d i j else I := by
    funext j
    unfold kerDn
    by_cases h : s i j
    · rw [if_pos h, if_neg (not_not.mpr h)]
    · rw [if_neg h, if_pos h]
  unfold kerNegMin refNegMin
  rw [hfun]
  refine min_eq_right ?_
  have h : (Finset.univ.inf fun j => if ¬ s i j then d i j else I) ≤ (if ¬ s i i then d i i else I) :=
    Finset.inf_le (f := fun j => if ¬ s i j then d i j else I) (Finset.mem_univ i)
  rwa [if_neg (not_not.mpr (hs i))] at h

/-- At the first way's positive distance the two semi-hard minima agree, entry by entry: a same-label entry is `I` on both sides, and
    an entry of another label is tested by the same comparison. -/
theorem kerSemiMin_eq {n : ℕ} (d : Fin n → Fin n → EReal) (s : Fin n → Fin n → Prop) [∀ i j, Decidable (s i j)] (N I : EReal) (hs : ∀ i, s i i) (i : Fin n) :
    kerSemiMin d s I (refDap d s N) i = refSemiMin d s N I i := by
  have hfun : (fun j => if refDap d s N i < kerDn d s I i j then kerDn d s I i j else I)
      = fun j => if refSemi d s N i j then d i j else I := by
    funext j
    by_cases h : s i j
    · have hk : kerDn d s I i j = I := by unfold kerDn; rw [if_pos h]
      rw [hk, ite_self, if_neg (fun hh : refSemi d s N i j => hh.1 h)]
    · have hk : kerDn d s I i j = d i j := by unfold kerDn; rw [if_neg h]
      rw [hk]
      by_cases h2 : refDap d s N i < d i j
      · rw [if_pos h2, if_pos (show refSemi d s N i j from ⟨h, h2⟩)]
      · rw [if_neg h2, if_neg (fun hh : refSemi d s N i j => h2 hh.2)]
  unfold kerSemiMin refSemiMin
  rw [hfun]
  refine min_eq_right ?_
  have h : (Finset.univ.inf fun j => if refSemi d s N i j then d i j else I) ≤ (if refSemi d s N i i then d i i else I) :=
    Finset.inf_le (f := fun j => if refSemi d s N i j then d i j else I) (Finset.mem_univ i)
  rwa [if_neg (fun hh : refSemi d s N i i => hh.1 (hs i))] at h

/-- With every distance below `H` and `H` below `I`, the semi-hard minimum is below `H` exactly when a semi-hard negative exists. -/
theorem refSemiMin_lt_iff {n : ℕ} (d : Fin n → Fin n → EReal) (s : Fin n → Fin n → Prop) [∀ i j, Decidable (s i j)] (N I H : EReal) (hhi : ∀ i j, d i j < H) (hHI : H < I) (i : Fin n) :
    refSemiMin d s N I i < H ↔ ∃ j, refSemi d s N i j := by
  unfold refSemiMin
  rw [Finset.inf_lt_iff]
  constructor
  · rintro ⟨j, -, hj⟩
    by_cases h : refSemi d s N i j
    · exact ⟨j, h⟩
    · rw [if_neg h] at hj
      exact absurd hj (not_lt.mpr hHI.le)
  · rintro ⟨j, hj⟩
    exact ⟨j, Finset.mem_univ j, by rw [if_pos hj]; exact hhi i j⟩

/-- With every distance below `H` and `H` below `I`, the comparison with `H` decides as the existence test does: the two negative
    distances agree. -/
theorem kerDan_eq {n : ℕ} (d : Fin n → Fin n → EReal) (s : Fin n → Fin n → Prop) [∀ i j, Decidable (s i j)] (N I H : EReal) (hs : ∀ i, s i i) (hhi : ∀ i j, d i j < H) (hHI : H < I) (i : Fin n) :
    kerDan d s I H (refDap d s N) i = refDan d s N I i := by
  unfold kerDan refDan
  rw [kerSemiMin_eq d s N I hs i, kerNegMin_eq d s I hs i]
  by_cases h : ∃ j, refSemi d s N i j
  · rw [if_pos ((refSemiMin_lt_iff d s N I H hhi hHI i).mpr h), if_pos h]
  · rw [if_neg (fun hh => h ((refSemiMin_lt_iff d s N I H hhi hHI i).mp hh)), if_neg h]

/-- With `N` below `NH` and every distance above `NH`, the positive distance is above `NH` exactly when the anchor has another item
    of its label. -/
theorem lt_refDap_iff {n : ℕ} (d : Fin n → Fin n → EReal) (s : Fin n → Fin n → Prop) [∀ i j, Decidable (s i j)] (N NH : EReal) (hN : N < NH) (hlo : ∀ i j, NH < d i j) (i : Fin n) :
    NH < refDap d s N i ↔ ∃ j, s i j ∧ i ≠ j := by
  unfold refDap
  rw [Finset.lt_sup_iff]
  constructor
  · rintro ⟨j, -, hj⟩
    by_cases h : s i j ∧ i ≠ j
    · exact ⟨j, h⟩
    · rw [if_neg h] at hj
      exact absurd hj (not_lt.mpr hN.le)
  · rintro ⟨j, hj⟩
    exact ⟨j, Finset.mem_univ j, by rw [if_pos hj]; exact hlo i j⟩

/-- With every distance below `H` and `H` below `I`, the negative minimum is below `H` exactly when the anchor has an item of
    another label. -/
theorem kerNegMin_lt_iff {n : ℕ} (d : Fin n → Fin n → EReal) (s : Fin n → Fin n → Prop) [∀ i j, Decidable (s i j)] (I H : EReal) (hhi : ∀ i j, d i j < H) (hHI : H < I) (i : Fin n) :
    kerNegMin d s I i < H ↔ ∃ j, ¬ s i j := by
  unfold kerNegMin
  rw [min_lt_iff, Finset.inf_lt_iff]
  constructor
  · rintro (h | ⟨j, -, hj⟩)
    · exact absurd h (not_lt.mpr hHI.le)
    · by_cases h : s i j
      · have hk : kerDn d s I i j = I := by unfold kerDn; rw [if_pos h]
        rw [hk] at hj
        exact absurd hj (not_lt.mpr hHI.le)
      · exact ⟨j, h⟩
  · rintro ⟨j, hj⟩
    have hk : kerDn d s I i j = d i j := by unfold kerDn; rw [if_neg hj]
    exact Or.inr ⟨j, Finset.mem_univ j, by rw [hk]; exact hhi i j⟩

/-- With the fill values outside and every distance strictly between the two half-way values, the two comparisons call exactly the
    anchors valid that have another item of their label and an item of another label. -/
theorem kerValid_iff {n : ℕ} (d : Fin n → Fin n → EReal) (s : Fin n → Fin n → Prop) [∀ i j, Decidable (s i j)] (N I NH H : EReal) (hs : ∀ i, s i i) (hN : N < NH) (hlo : ∀ i j, NH < d i j)
    (hhi : ∀ i j, d i j < H) (hHI : H < I) (i : Fin n) :
    kerValid d s I NH H (refDap d s N) i ↔ refValid s i := by
  unfold kerValid refValid
  rw [lt_refDap_iff d s N NH hN hlo i, kerNegMin_lt_iff d s I H hhi hHI i]

end Cert.Lib.Sentinel

end
-- ==== Proof.RefRows.lean ====
/- The reference's three row-indexed quantities, read at a row. With the distance `dist x0 r q` between the normalised rows `r` and
   `q` (one minus their inner product) and the relation `same x1 r q` "rows `r` and `q` carry the same label", the hardest positive
   distance of row `r` is the supremum over the other rows of its label, the chosen negative distance is the infimum over the
   semi-hard rows of other labels if there is one and over all rows of other labels otherwise, and the row counts exactly when it
   has another row of its label and a row of another label: the first way of mining of the general library, at the two fill
   values the program spells (the positive fill and its negation). Each array of the program is read at an index (r, q) first,
   then each reduction along the second axis as a fold over `q`. -/
import proofs.«165275_j48198122996409_2_alg».proof.Proof.RefReadP
import proofs.«165275_j48198122996409_2_alg».proof.Proof.RefBounds
import proofs.«165275_j48198122996409_2_alg».proof.Proof.LibSentinel
import Idealize.ShloMosaic.Lib.ValueIdx
import Idealize.ShloMosaic.Lib.Affine
import Idealize.ShloMosaic.PureOps.Reduce
import Idealize.ShloMosaic.PureOps.Ideal.Laws

noncomputable section

open scoped BigOperators

namespace Cert.ReferenceIdeal.Rows

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Lib.Sentinel

/-! ## The arrays at an index (r, q) -/

/-- The distances. -/
theorem v6_at (x0 : (⟨S8192x128, .f32⟩ : BufTy).Contents (Elt Ideal)) (r q : Fin 8192) :
    val_main_v6 (F := Ideal) x0 (ix2 r q) = dist x0 r q := by
  rw [val_main_v6_apply, val_main_v5_apply, val_main_cst_0_apply, val_main_v4_apply]
  unfold dist
  refine congrArg (fun z => Ideal.ofBits .f32 0x3F800000#32 - z) (Finset.sum_congr rfl fun k _ => ?_)
  rw [val_main_v3_apply]
  congr 2 <;> (funext a; match a with | ⟨0, _⟩ => rfl | ⟨1, _⟩ => rfl)

/-- The label comparison. -/
theorem v11_at (x1 : (⟨S8192, .i32⟩ : BufTy).Contents (Elt Ideal)) (r q : Fin 8192) :
    val_main_v11 (F := Ideal) x1 (ix2 r q) = 1#1 ↔ same x1 r q := by
  rw [val_main_v11_apply, val_main_v9_apply, val_main_v7_apply, val_main_v10_apply, val_main_v8_apply, IntOp.cmpi_eq]
  unfold same
  have e1 : idx_main_v7 (idx_main_v9 (ix2 r q)) = ix1 r := funext fun a => match a with | ⟨0, _⟩ => rfl
  have e2 : idx_main_v8 (idx_main_v10 (ix2 r q)) = ix1 q := funext fun a => match a with | ⟨0, _⟩ => rfl
  rw [e1, e2]

/-- The diagonal test compares the 32-bit words of the two coordinates, which are below 8192. -/
theorem v16_at (r q : Fin 8192) : val_main_v16 (F := Ideal) (ix2 r q) = 1#1 ↔ r = q := by
  rw [val_main_v16_apply, val_main_v15_apply, val_main_v12_apply, val_main_v14_apply, val_main_c_apply, val_main_v13_apply,
    IntOp.cmpi_eq]
  show IntOp.addi (BitVec.ofNat 32 r.val) 0#32 = BitVec.ofNat 32 q.val ↔ r = q
  unfold IntOp.addi
  rw [BitVec.add_zero]
  constructor
  · intro h
    have h' := congrArg BitVec.toNat h
    rw [BitVec.toNat_ofNat, BitVec.toNat_ofNat] at h'
    have := r.isLt; have := q.isLt
    exact Fin.ext (by omega)
  · rintro rfl; rfl

/-- The positives' mask. -/
theorem v18_at (x1 : (⟨S8192, .i32⟩ : BufTy).Contents (Elt Ideal)) (r q : Fin 8192) :
    val_main_v18 (F := Ideal) x1 (ix2 r q) = 1#1 ↔ same x1 r q ∧ r ≠ q := by
  rw [val_main_v18_apply, IntOp.andi_eq_one, val_main_v17_apply, IntOp.not_eq_one, v11_at, v16_at]

/-- The negatives' mask. -/
theorem v19_at (x1 : (⟨S8192, .i32⟩ : BufTy).Contents (Elt Ideal)) (r q : Fin 8192) :
    val_main_v19 (F := Ideal) x1 (ix2 r q) = 1#1 ↔ ¬ same x1 r q := by
  rw [val_main_v19_apply, IntOp.not_eq_one, v11_at]

/-- The negative fill is the negation of the positive one. -/
theorem v20_val (i : S_.Idx) : val_main_v20 (F := Ideal) i = (-(Ideal.ofBits .f32 0x7149F2CA#32)) := rfl

/-- The distances with the positions that are not positives at the negative fill. -/
theorem v21_at (x0 : (⟨S8192x128, .f32⟩ : BufTy).Contents (Elt Ideal)) (x1 : (⟨S8192, .i32⟩ : BufTy).Contents (Elt Ideal)) (r q : Fin 8192) :
    val_main_v21 (F := Ideal) x0 x1 (ix2 r q) = if same x1 r q ∧ r ≠ q then dist x0 r q else (-(Ideal.ofBits .f32 0x7149F2CA#32)) := by
  rw [val_main_v21_apply, v6_at, val_main_call1_v0_apply, v20_val]
  by_cases h : same x1 r q ∧ r ≠ q
  · rw [if_pos h, (v18_at x1 r q).2 h, select_one]
  · rw [if_neg h, eq_zero_of_ne_one (fun e => h ((v18_at x1 r q).1 e)), select_zero]

/-! ## The reductions along the second axis -/

/-- The reduction's shapes. -/
theorem red_d1 : S8192x8192.Reduces [1] S8192 := by decide

/-- The reduced index `r` with column `q` put back is (r, q). -/
theorem lift_d1 (r : Fin 8192) (q : Fin (S8192x8192.size 1)) : red_d1.lift (ix1 r) q = ix2 r (⟨q.val, q.isLt⟩ : Fin 8192) := by
  funext c; apply Fin.ext
  fin_cases c <;> rfl

/-- A fold by "or" over one-bit words is 1 exactly when it started at 1 or met a 1. -/
theorem fold_ori_eq_one {ι : Type} (S : Finset ι) (f : ι → BitVec 1) (b : BitVec 1) :
    S.fold IntOp.ori b f = 1#1 ↔ b = 1#1 ∨ ∃ q ∈ S, f q = 1#1 := by
  induction S using Finset.cons_induction with
  | empty => simp
  | cons a S ha ih =>
    rw [Finset.fold_cons, IntOp.ori_eq_one, ih]
    constructor
    · rintro (h | h | ⟨q, hq, hf⟩)
      · exact .inr ⟨a, Finset.mem_cons_self a S, h⟩
      · exact .inl h
      · exact .inr ⟨q, Finset.mem_cons.2 (.inr hq), hf⟩
    · rintro (h | ⟨q, hq, hf⟩)
      · exact .inr (.inl h)
      · rcases Finset.mem_cons.1 hq with rfl | hq
        · exact .inl hf
        · exact .inr (.inr ⟨q, hq, hf⟩)

/-- An "or" along the second axis of a one-bit array, from 0: some entry of the row is 1. -/
theorem reduce_ori_row (p : (⟨S8192x8192, .i1⟩ : BufTy).Contents (Elt Ideal)) (c : (⟨S_, .i1⟩ : BufTy).Contents (Elt Ideal))
    (hc : c (Shape.Idx.first h_S_) = 0#1) (r : Fin 8192) :
    Host.reduce IntOp.ori p c reducesTo_S8192x8192_S8192_d1 h_S_ (ix1 r) = 1#1 ↔ ∃ q : Fin 8192, p (ix2 r q) = 1#1 := by
  rw [Host.reduce_eq_fold_single IntOp.ori p c reducesTo_S8192x8192_S8192_d1 red_d1 h_S_, fold_ori_eq_one, hc]
  constructor
  · rintro (h | ⟨q, -, hq⟩)
    · exact absurd h (by decide)
    · exact ⟨⟨q.val, q.isLt⟩, by rw [← lift_d1 r q]; exact hq⟩
  · rintro ⟨q, hq⟩
    exact .inr ⟨(⟨q.val, q.isLt⟩ : Fin (S8192x8192.size 1)), Finset.mem_univ _, by
      show p (red_d1.lift (ix1 r) _) = 1#1
      rw [lift_d1]; exact hq⟩

/-- The row has a positive. -/
theorem v33_row (x1 : (⟨S8192, .i32⟩ : BufTy).Contents (Elt Ideal)) (r : Fin 8192) :
    val_main_v33 (F := Ideal) x1 (ix1 r) = 1#1 ↔ ∃ q, same x1 r q ∧ r ≠ q := by
  unfold val_main_v33
  rw [reduce_ori_row _ _ rfl]
  exact exists_congr fun q => v18_at x1 r q

/-- The row has a negative. -/
theorem v34_row (x1 : (⟨S8192, .i32⟩ : BufTy).Contents (Elt Ideal)) (r : Fin 8192) :
    val_main_v34 (F := Ideal) x1 (ix1 r) = 1#1 ↔ ∃ q, ¬ same x1 r q := by
  unfold val_main_v34
  rw [reduce_ori_row _ _ rfl]
  exact exists_congr fun q => v19_at x1 r q

/-- The row counts exactly when it has another row of its label and a row of another label. -/
theorem v35_row (x1 : (⟨S8192, .i32⟩ : BufTy).Contents (Elt Ideal)) (r : Fin 8192) :
    val_main_v35 (F := Ideal) x1 (ix1 r) = 1#1 ↔ refValid (same x1) r := by
  rw [val_main_v35_apply, IntOp.andi_eq_one, v33_row, v34_row]
  rfl

/-! ## The hardest positive -/

/-- The words of the two infinities. -/
theorem ninf_eq : Ideal.ofBits .f32 0xFF800000#32 = (⊥ : EReal) := by simp [Ideal.ofBits, Ideal.ieee]
theorem pinf_eq : Ideal.ofBits .f32 0x7F800000#32 = (⊤ : EReal) := by simp [Ideal.ofBits, Ideal.ieee]

/-- A maximum along the second axis from −∞ is the supremum over the row. -/
theorem reduce_max_row (y : (⟨S8192x8192, .f32⟩ : BufTy).Contents (Elt Ideal)) (c : (⟨S_, .f32⟩ : BufTy).Contents (Elt Ideal))
    (hc : c (Shape.Idx.first h_S_) = (⊥ : EReal)) (r : Fin 8192) :
    (Host.reduce (FloatOps.maximumf (F := Ideal) (φ := .f32)) y c reducesTo_S8192x8192_S8192_d1 h_S_ (ix1 r) : EReal) = Finset.univ.sup fun q : Fin 8192 => y (ix2 r q) := by
  rw [Host.reduce_eq_fold_single (FloatOps.maximumf (F := Ideal) (φ := .f32)) y c reducesTo_S8192x8192_S8192_d1 red_d1 h_S_, hc]
  have hf : (y ∘ red_d1.lift (ix1 r)) = fun q : Fin 8192 => y (ix2 r q) := funext fun q => congrArg y (lift_d1 r q)
  rw [hf]
  rfl

/-- A minimum along the second axis from +∞ is the infimum over the row. -/
theorem reduce_min_row (y : (⟨S8192x8192, .f32⟩ : BufTy).Contents (Elt Ideal)) (c : (⟨S_, .f32⟩ : BufTy).Contents (Elt Ideal))
    (hc : c (Shape.Idx.first h_S_) = (⊤ : EReal)) (r : Fin 8192) :
    (Host.reduce (FloatOps.minimumf (F := Ideal) (φ := .f32)) y c reducesTo_S8192x8192_S8192_d1 h_S_ (ix1 r) : EReal) = Finset.univ.inf fun q : Fin 8192 => y (ix2 r q) := by
  rw [Host.reduce_eq_fold_single (FloatOps.minimumf (F := Ideal) (φ := .f32)) y c reducesTo_S8192x8192_S8192_d1 red_d1 h_S_, hc]
  have hf : (y ∘ red_d1.lift (ix1 r)) = fun q : Fin 8192 => y (ix2 r q) := funext fun q => congrArg y (lift_d1 r q)
  rw [hf]
  rfl

/-- The hardest positive distance of row `r`: the supremum, over the other rows of its label, of the distance. -/
theorem v22_row (x0 : (⟨S8192x128, .f32⟩ : BufTy).Contents (Elt Ideal)) (x1 : (⟨S8192, .i32⟩ : BufTy).Contents (Elt Ideal)) (r : Fin 8192) :
    val_main_v22 (F := Ideal) x0 x1 (ix1 r) = refDap (dist x0) (same x1) (-(Ideal.ofBits .f32 0x7149F2CA#32)) r := by
  unfold val_main_v22
  rw [reduce_max_row _ _ ninf_eq]
  unfold refDap
  exact congrArg Finset.univ.sup (funext fun q => v21_at x0 x1 r q)

/-! ## The chosen negative -/

/-- The hardest positive distance broadcast along the row. -/
theorem v24_at (x0 : (⟨S8192x128, .f32⟩ : BufTy).Contents (Elt Ideal)) (x1 : (⟨S8192, .i32⟩ : BufTy).Contents (Elt Ideal)) (r q : Fin 8192) :
    val_main_v24 (F := Ideal) x0 x1 (ix2 r q) = val_main_v22 (F := Ideal) x0 x1 (ix1 r) := by
  rw [val_main_v24_apply, val_main_v23_apply]
  exact congrArg _ (funext fun a => match a with | ⟨0, _⟩ => rfl)

/-- The ordered "greater than" of two extended reals. -/
theorem cmpf_ogt_eq_one (a b : EReal) : FloatOps.cmpf (F := Ideal) (φ := .f32) .ogt a b = 1#1 ↔ b < a := by
  show BitVec.ofBool (decide (b < a)) = 1#1 ↔ b < a
  by_cases h : b < a
  · simp [h]
  · simp [h]

/-- The semi-hard mask. -/
theorem v26_at (x0 : (⟨S8192x128, .f32⟩ : BufTy).Contents (Elt Ideal)) (x1 : (⟨S8192, .i32⟩ : BufTy).Contents (Elt Ideal)) (r q : Fin 8192) :
    val_main_v26 (F := Ideal) x0 x1 (ix2 r q) = 1#1 ↔ refSemi (dist x0) (same x1) (-(Ideal.ofBits .f32 0x7149F2CA#32)) r q := by
  rw [val_main_v26_apply, IntOp.andi_eq_one, v19_at, val_main_v25_apply, v6_at, v24_at, v22_row, cmpf_ogt_eq_one]
  rfl

/-- The distances with the positions that are not semi-hard at the positive fill. -/
theorem v27_at (x0 : (⟨S8192x128, .f32⟩ : BufTy).Contents (Elt Ideal)) (x1 : (⟨S8192, .i32⟩ : BufTy).Contents (Elt Ideal)) (r q : Fin 8192) :
    val_main_v27 (F := Ideal) x0 x1 (ix2 r q) = if refSemi (dist x0) (same x1) (-(Ideal.ofBits .f32 0x7149F2CA#32)) r q then dist x0 r q else (Ideal.ofBits .f32 0x7149F2CA#32) := by
  rw [val_main_v27_apply, v6_at, val_main_call2_v0_apply, val_main_cst_apply, Ideal.ofBits_def]
  by_cases h : refSemi (dist x0) (same x1) (-(Ideal.ofBits .f32 0x7149F2CA#32)) r q
  · rw [if_pos h, (v26_at x0 x1 r q).2 h, select_one]
  · rw [if_neg h, eq_zero_of_ne_one (fun e => h ((v26_at x0 x1 r q).1 e)), select_zero]

/-- The least semi-hard distance of row `r`. -/
theorem v28_row (x0 : (⟨S8192x128, .f32⟩ : BufTy).Contents (Elt Ideal)) (x1 : (⟨S8192, .i32⟩ : BufTy).Contents (Elt Ideal)) (r : Fin 8192) :
    val_main_v28 (F := Ideal) x0 x1 (ix1 r) = refSemiMin (dist x0) (same x1) (-(Ideal.ofBits .f32 0x7149F2CA#32)) (Ideal.ofBits .f32 0x7149F2CA#32) r := by
  unfold val_main_v28
  rw [reduce_min_row _ _ pinf_eq]
  unfold refSemiMin
  exact congrArg Finset.univ.inf (funext fun q => v27_at x0 x1 r q)

/-- The distances with the positions that are not negatives at the positive fill. -/
theorem v29_at (x0 : (⟨S8192x128, .f32⟩ : BufTy).Contents (Elt Ideal)) (x1 : (⟨S8192, .i32⟩ : BufTy).Contents (Elt Ideal)) (r q : Fin 8192) :
    val_main_v29 (F := Ideal) x0 x1 (ix2 r q) = if ¬ same x1 r q then dist x0 r q else (Ideal.ofBits .f32 0x7149F2CA#32) := by
  rw [val_main_v29_apply, v6_at, val_main_call3_v0_apply, val_main_cst_apply, Ideal.ofBits_def]
  by_cases h : ¬ same x1 r q
  · rw [if_pos h, (v19_at x1 r q).2 h, select_one]
  · rw [if_neg h, eq_zero_of_ne_one (fun e => h ((v19_at x1 r q).1 e)), select_zero]

/-- The least negative distance of row `r`. -/
theorem v30_row (x0 : (⟨S8192x128, .f32⟩ : BufTy).Contents (Elt Ideal)) (x1 : (⟨S8192, .i32⟩ : BufTy).Contents (Elt Ideal)) (r : Fin 8192) :
    val_main_v30 (F := Ideal) x0 x1 (ix1 r) = refNegMin (dist x0) (same x1) (Ideal.ofBits .f32 0x7149F2CA#32) r := by
  unfold val_main_v30
  rw [reduce_min_row _ _ pinf_eq]
  unfold refNegMin
  exact congrArg Finset.univ.inf (funext fun q => v29_at x0 x1 r q)

/-- Row `r` has a semi-hard negative. -/
theorem v31_row (x0 : (⟨S8192x128, .f32⟩ : BufTy).Contents (Elt Ideal)) (x1 : (⟨S8192, .i32⟩ : BufTy).Contents (Elt Ideal)) (r : Fin 8192) :
    val_main_v31 (F := Ideal) x0 x1 (ix1 r) = 1#1 ↔ ∃ q, refSemi (dist x0) (same x1) (-(Ideal.ofBits .f32 0x7149F2CA#32)) r q := by
  unfold val_main_v31
  rw [reduce_ori_row _ _ rfl]
  exact exists_congr fun q => v26_at x0 x1 r q

/-- The chosen negative distance of row `r`: to the nearest semi-hard negative if there is one, else to the nearest negative. -/
theorem v32_row (x0 : (⟨S8192x128, .f32⟩ : BufTy).Contents (Elt Ideal)) (x1 : (⟨S8192, .i32⟩ : BufTy).Contents (Elt Ideal)) (r : Fin 8192) :
    val_main_v32 (F := Ideal) x0 x1 (ix1 r) = refDan (dist x0) (same x1) (-(Ideal.ofBits .f32 0x7149F2CA#32)) (Ideal.ofBits .f32 0x7149F2CA#32) r := by
  rw [val_main_v32_apply, v28_row, v30_row]
  unfold refDan
  by_cases h : ∃ j, refSemi (dist x0) (same x1) (-(Ideal.ofBits .f32 0x7149F2CA#32)) r j
  · rw [if_pos h, (v31_row x0 x1 r).2 h, select_one]
  · rw [if_neg h, eq_zero_of_ne_one (fun e => h ((v31_row x0 x1 r).1 e)), select_zero]

end Cert.ReferenceIdeal.Rows

end
-- ==== Proof.RefSentinel.lean ====
/- The reference's three row-indexed quantities, in the form the kernel computes them. With finite embeddings and no zero row every
   distance is a bounded real, strictly between the two half-way values; so running extrema started at the fill values and
   comparisons with the half-way values give the reference's suprema, infima and existence tests. -/
import proofs.«165275_j48198122996409_2_alg».proof.Proof.RefRows

noncomputable section

namespace Cert.ReferenceIdeal.Rows

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.Lib.Sentinel

/-- The four words. -/
abbrev NEG : EReal := Ideal.ofBits .f32 0xF149F2CA#32
abbrev INF : EReal := Ideal.ofBits .f32 0x7149F2CA#32
abbrev HALF : EReal := Ideal.ofBits .f32 0x70C9F2CA#32
abbrev NHALF : EReal := Ideal.ofBits .f32 0xF0C9F2CA#32

section
variable (x0 : (⟨S8192x128, .f32⟩ : BufTy).Contents (Elt Ideal)) (x1 : (⟨S8192, .i32⟩ : BufTy).Contents (Elt Ideal))
  (hfin : ∀ idx : S8192x128.Idx, x0 idx ≠ ⊤ ∧ x0 idx ≠ ⊥) (hne : ∀ r : Fin 8192, ∃ k : Fin 128, x0 (ix2 r k) ≠ 0)
include hfin hne

/-- Every distance lies strictly between the two half-way values. -/
theorem nhalf_lt_dist (r q : Fin 8192) : NHALF < dist x0 r q := by
  obtain ⟨x, hx, hlo, -⟩ := dist_real x0 hfin hne r q
  rw [hx]; exact Cert.Words.nhalf_lt_coe x hlo
theorem dist_lt_half (r q : Fin 8192) : dist x0 r q < HALF := by
  obtain ⟨x, hx, -, hhi⟩ := dist_real x0 hfin hne r q
  rw [hx]; exact Cert.Words.coe_lt_half x hhi

omit hfin hne in
/-- The hardest-positive distance: the running maximum from the negative fill is the reference's supremum (no bound is needed). -/
theorem kerDap_ref (r : Fin 8192) : kerDap (dist x0) (same x1) NEG r = val_main_v22 (F := Ideal) x0 x1 (ix1 r) := by
  rw [kerDap_eq (dist x0) (same x1) NEG (fun _ => rfl) r, v22_row, ← Cert.Words.neg_eq_neg_inf]

/-- The negative distance. -/
theorem kerDan_ref (r : Fin 8192) :
    kerDan (dist x0) (same x1) INF HALF (refDap (dist x0) (same x1) NEG) r = val_main_v32 (F := Ideal) x0 x1 (ix1 r) := by
  rw [kerDan_eq (dist x0) (same x1) NEG INF HALF (fun _ => rfl) (dist_lt_half x0 hfin hne) Cert.Words.half_lt_inf r, v32_row,
    ← Cert.Words.neg_eq_neg_inf]

/-- The flags. -/
theorem kerValid_ref (r : Fin 8192) :
    kerValid (dist x0) (same x1) INF NHALF HALF (refDap (dist x0) (same x1) NEG) r ↔ val_main_v35 (F := Ideal) x1 (ix1 r) = 1#1 := by
  rw [kerValid_iff (dist x0) (same x1) NEG INF NHALF HALF (fun _ => rfl) Cert.Words.neg_lt_nhalf (nhalf_lt_dist x0 hfin hne)
    (dist_lt_half x0 hfin hne) Cert.Words.half_lt_inf r, v35_row]

end

end Cert.ReferenceIdeal.Rows

end
-- ==== Proof.KICol1.lean ====
/- The first pass's column at a row is the running maximum, from the negative fill, of the distances to the other rows of the same label. -/
import proofs.«165275_j48198122996409_2_alg».proof.Proof.KIEntryIdx
import proofs.«165275_j48198122996409_2_alg».proof.Proof.KIPass1ValueD
import proofs.«165275_j48198122996409_2_alg».proof.Proof.RefSentinel

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Cert.ReferenceIdeal.Rows Cert.Lib.Sentinel

variable (m : (ℓ : Loc nD τ sig) → Buf (Elt Ideal) ℓ) [Cert.ReferenceIdeal.Facts]

set_option maxHeartbeats 4000000 in
/-- Row `r` of the first pass's column. -/
theorem col1 (c : Dev nD) (r : Fin 8192) :
    (res9 m c : S8192x1.Idx → EReal) (ix2 r (0 : Fin 1))
      = kerDap (Cert.ReferenceIdeal.Rows.dist (m ((c : Thread nD τ).loc main_arg0))) (same (m ((c : Thread nD τ).loc main_arg1))) NEG r := by
  unfold res9
  rw [Pass1.pass1_value (Vin0 m) c r]
  unfold kerDap refDap
  refine congrArg (max NEG) (Finset.sup_congr rfl fun q _ => ?_)
  refine if_congr ?_ ?_ rfl
  · -- the same-label test on the labels' column and row is the test on the labels
    show (Vin0 m c main_v7 : S8192x1.Idx → BitVec 32) (ix2 r (0 : Fin 1)) = (Vin0 m c main_v8 : S1x8192.Idx → BitVec 32) (ix2 (0 : Fin 1) q) ∧ r ≠ q ↔ _
    rw [in0_v7, in0_v8]
    rfl
  · -- the distance over the normalised embeddings is the reference's
    unfold Cert.ReferenceIdeal.Rows.dist
    refine congrArg (Pass1.ONE - ·) (Finset.sum_congr rfl fun k _ => ?_)
    rw [show Pass1.emb (Vin0 m) c (ix2 r k) = _ from in0_v6 m c r k, show Pass1.emb (Vin0 m) c (ix2 q k) = _ from in0_v6 m c q k]

end Cert.KernelIdeal.Run

end
-- ==== Proof.KIPass2ValuePieces.lean ====
/- What each case of the second pass's body leaves, as the body's own expressions: each scratch column and each output column after
    a case is one of the body's stored values over the case's inputs. -/
import proofs.«165275_j48198122996409_2_alg».proof.Proof.KIPass2Arrays
import Idealize.ShloMosaic.Lib.Pipeline.Value

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-shape access, however they are spelt. -/
theorem hz : (![0, 0] : Fin 2 → Nat) = fun _ => 0 := funext fun a => by fin_cases a <;> rfl

section Cases
variable (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
  (x2 : Vec F S1024x128 .bf16) (x3 : Vec F S1024x128 .bf16) (x4 : Vec F S1024x1 .i32) (x5 : Vec F S1x1024 .i32) (x6 : Vec F S1024x1 .f32)

set_option maxHeartbeats 4000000 in
/-- At a first column tile the first scratch column is left at the tile's row minima of the masked distances, lowered from the fill value. -/
theorem sout9First_eq (hc0 : atFirst i) (hc1 : ¬atLast i) :
    sout9First c i arg2 harg2 arg3 harg3 arg4 harg4 arg5 harg5 arg6 harg6 arg7 harg7 arg8 harg8 arg9 harg9 arg10 harg10 x2 x3 x4 x5 x6 hc0 hc1 = k1_pay8 x2 x3 x4 x5 (k1_pay4 (F := F)) := by
  unfold sout9First
  rw [View.read_writes_eq_canon _ _ _ (scover9First c i arg2 harg2 arg3 harg3 arg4 harg4 arg5 harg5 arg6 harg6 arg7 harg7 arg8 harg8 arg9 harg9 arg10 harg10 x2 x3 x4 x5 x6 hc0 hc1)]
  unfold runFirst
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- At a first column tile the second scratch column is left at the tile's row minima over the semi-hard entries, lowered from the fill value. -/
theorem sout10First_eq (hc0 : atFirst i) (hc1 : ¬atLast i) :
    sout10First c i arg2 harg2 arg3 harg3 arg4 harg4 arg5 harg5 arg6 harg6 arg7 harg7 arg8 harg8 arg9 harg9 arg10 harg10 x2 x3 x4 x5 x6 hc0 hc1 = k1_pay1 (k1_pay7 x2 x3 x4 x5 x6) (k1_pay5 (F := F)) := by
  unfold sout10First
  rw [View.read_writes_eq_canon _ _ _ (scover10First c i arg2 harg2 arg3 harg3 arg4 harg4 arg5 harg5 arg6 harg6 arg7 harg7 arg8 harg8 arg9 harg9 arg10 harg10 x2 x3 x4 x5 x6 hc0 hc1)]
  unfold runFirst
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- At a middle column tile the first scratch column is lowered from what the tile before left, -/
theorem sout9Mid_eq (hc0 : ¬atFirst i) (hc1 : ¬atLast i) (xs9 : Vec F S1024x1 .f32) (xs10 : Vec F S1024x1 .f32) :
    sout9Mid c i arg2 harg2 arg3 harg3 arg4 harg4 arg5 harg5 arg6 harg6 arg7 harg7 arg8 harg8 arg9 harg9 arg10 harg10 x2 x3 x4 x5 x6 hc0 hc1 xs9 xs10 = k1_pay8 x2 x3 x4 x5 xs9 := by
  unfold sout9Mid
  rw [View.read_writes_eq_canon _ _ _ (scover9Mid c i arg2 harg2 arg3 harg3 arg4 harg4 arg5 harg5 arg6 harg6 arg7 harg7 arg8 harg8 arg9 harg9 arg10 harg10 x2 x3 x4 x5 x6 hc0 hc1 xs9 xs10)]
  unfold runMid
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- and so is the second. -/
theorem sout10Mid_eq (hc0 : ¬atFirst i) (hc1 : ¬atLast i) (xs9 : Vec F S1024x1 .f32) (xs10 : Vec F S1024x1 .f32) :
    sout10Mid c i arg2 harg2 arg3 harg3 arg4 harg4 arg5 harg5 arg6 harg6 arg7 harg7 arg8 harg8 arg9 harg9 arg10 harg10 x2 x3 x4 x5 x6 hc0 hc1 xs9 xs10 = k1_pay1 (k1_pay7 x2 x3 x4 x5 x6) xs10 := by
  unfold sout10Mid
  rw [View.read_writes_eq_canon _ _ _ (scover10Mid c i arg2 harg2 arg3 harg3 arg4 harg4 arg5 harg5 arg6 harg6 arg7 harg7 arg8 harg8 arg9 harg9 arg10 harg10 x2 x3 x4 x5 x6 hc0 hc1 xs9 xs10)]
  unfold runMid
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- At a last column tile the two scratch columns are lowered in the same way, -/
theorem sout9Last_eq (hc0 : ¬atFirst i) (hc1 : atLast i) (xs9 : Vec F S1024x1 .f32) (xs10 : Vec F S1024x1 .f32) :
    sout9Last c i arg2 harg2 arg3 harg3 arg4 harg4 arg5 harg5 arg6 harg6 arg7 harg7 arg8 harg8 arg9 harg9 arg10 harg10 x2 x3 x4 x5 x6 hc0 hc1 xs9 xs10 = k1_pay8 x2 x3 x4 x5 xs9 := by
  unfold sout9Last
  rw [View.read_writes_eq_canon _ _ _ (scover9Last c i arg2 harg2 arg3 harg3 arg4 harg4 arg5 harg5 arg6 harg6 arg7 harg7 arg8 harg8 arg9 harg9 arg10 harg10 x2 x3 x4 x5 x6 hc0 hc1 xs9 xs10)]
  unfold runLast
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
theorem sout10Last_eq (hc0 : ¬atFirst i) (hc1 : atLast i) (xs9 : Vec F S1024x1 .f32) (xs10 : Vec F S1024x1 .f32) :
    sout10Last c i arg2 harg2 arg3 harg3 arg4 harg4 arg5 harg5 arg6 harg6 arg7 harg7 arg8 harg8 arg9 harg9 arg10 harg10 x2 x3 x4 x5 x6 hc0 hc1 xs9 xs10 = k1_pay1 (k1_pay7 x2 x3 x4 x5 x6) xs10 := by
  unfold sout10Last
  rw [View.read_writes_eq_canon _ _ _ (scover10Last c i arg2 harg2 arg3 harg3 arg4 harg4 arg5 harg5 arg6 harg6 arg7 harg7 arg8 harg8 arg9 harg9 arg10 harg10 x2 x3 x4 x5 x6 hc0 hc1 xs9 xs10)]
  unfold runLast
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- the first output column is the selection between the two final scratch columns, -/
theorem out5Last_eq (hc0 : ¬atFirst i) (hc1 : atLast i) (xs9 : Vec F S1024x1 .f32) (xs10 : Vec F S1024x1 .f32) :
    out5Last c i arg2 harg2 arg3 harg3 arg4 harg4 arg5 harg5 arg6 harg6 arg7 harg7 arg8 harg8 arg9 harg9 arg10 harg10 x2 x3 x4 x5 x6 hc0 hc1 xs9 xs10 = k1_pay2 (k1_pay1 (k1_pay7 x2 x3 x4 x5 x6) xs10) (k1_pay1 (k1_pay7 x2 x3 x4 x5 x6) xs10) (k1_pay8 x2 x3 x4 x5 xs9) := by
  unfold out5Last
  rw [View.read_writes_eq_canon _ _ _ (cover5Last c i arg2 harg2 arg3 harg3 arg4 harg4 arg5 harg5 arg6 harg6 arg7 harg7 arg8 harg8 arg9 harg9 arg10 harg10 x2 x3 x4 x5 x6 hc0 hc1 xs9 xs10)]
  unfold runLast
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

set_option maxHeartbeats 4000000 in
/-- and the second the validity flag from the first pass's result column and the first final scratch column. -/
theorem out6Last_eq (hc0 : ¬atFirst i) (hc1 : atLast i) (xs9 : Vec F S1024x1 .f32) (xs10 : Vec F S1024x1 .f32) :
    out6Last c i arg2 harg2 arg3 harg3 arg4 harg4 arg5 harg5 arg6 harg6 arg7 harg7 arg8 harg8 arg9 harg9 arg10 harg10 x2 x3 x4 x5 x6 hc0 hc1 xs9 xs10 = k1_pay3 x6 (k1_pay8 x2 x3 x4 x5 xs9) := by
  unfold out6Last
  rw [View.read_writes_eq_canon _ _ _ (cover6Last c i arg2 harg2 arg3 harg3 arg4 harg4 arg5 harg5 arg6 harg6 arg7 harg7 arg8 harg8 arg9 harg9 arg10 harg10 x2 x3 x4 x5 x6 hc0 hc1 xs9 xs10)]
  unfold runLast
  dsimp only
  sl_unfold_words
  rw [View.canon_cons_unit_zero (S := S1024x1) hz]
  simp only [View.readCov_unit_zero (S := S1024x1) _ hz, View.readAt_eq_ld, harg2.read_unread, harg3.read_unread, harg4.read_unread,
    harg5.read_unread, harg6.read_unread, harg9.read_unread, harg10.read_unread,
    View.ld_unit_zero (S := S1024x128) hz, View.ld_unit_zero (S := S1024x1) hz, View.ld_unit_zero (S := S1x1024) hz]

end Cases

end Cert.KernelIdeal.Pass2

end
-- ==== Proof.KIPass2ValuePoint.lean ====
/- The second pass's stored values read at a row, at the ideal values: the masked distance between two rows as one minus an inner
    product, the two lane minima as infima over a row, and the four stored columns as minima, a selection and a flag of those. -/
import proofs.«165275_j48198122996409_2_alg».proof.Proof.KIPass2ValuePieces
import Idealize.ShloMosaic.Lib.ValueLayout
import Idealize.ShloMosaic.PureOps.Ideal.Laws
import Idealize.ShloMosaic.Lib.Affine

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## Small facts about one-bit flags and folds -/

/-- A selection on an ordered "less than" flag is the conditional on the inequality. -/
theorem select_cmp_olt {α : Type} (x y : EReal) (a b : α) : Scalar.select (Ideal.cmp .olt x y) a b = if x < y then a else b := by
  unfold Scalar.select Ideal.cmp
  by_cases h : x < y <;> simp [h]

/-- A selection on an ordered "greater than" flag is the conditional on the reversed inequality. -/
theorem select_cmp_ogt {α : Type} (x y : EReal) (a b : α) : Scalar.select (Ideal.cmp .ogt x y) a b = if y < x then a else b := by
  unfold Scalar.select Ideal.cmp
  by_cases h : y < x <;> simp [h]

/-- A selection on an integer equality flag is the conditional on the equality. -/
theorem select_cmpi_eq {α : Type} (x y : BitVec 32) (a b : α) : Scalar.select (IntOp.cmpi .eq x y) a b = if x = y then a else b := by
  unfold Scalar.select
  by_cases h : x = y
  · rw [if_pos (show IntOp.cmpi .eq x y = 1 from IntOp.cmpi_eq.mpr h), if_pos h]
  · rw [if_neg (fun hh : IntOp.cmpi .eq x y = 1 => h (IntOp.cmpi_eq.mp hh)), if_neg h]

/-- The conjunction of two comparison flags, widened and read as a signed integer, is one where both hold and zero elsewhere. -/
theorem sitofp_and_flags (p q : Prop) [Decidable p] [Decidable q] :
    ((((IntOp.andi (BitVec.ofBool (decide p)) (BitVec.ofBool (decide q))).setWidth 32).toInt : ℝ) : EReal) = if p ∧ q then 1 else 0 := by
  unfold IntOp.andi
  by_cases hp : p <;> by_cases hq : q <;> simp [hp, hq]

/-- The fold of minima from the top is the infimum. -/
theorem fold_min_top_eq_inf {ι : Type} (s : Finset ι) (f : ι → EReal) : s.fold min ⊤ f = s.inf f := by
  classical
  refine Finset.induction_on s (by simp) ?_
  intro a s ha ih
  rw [Finset.fold_insert ha, Finset.inf_insert, ih]

/-- The word of positive infinity is the top. -/
theorem ofBits_pinf : Ideal.ofBits .f32 0x7F800000#32 = ⊤ := by simp [Ideal.ofBits, Ideal.ieee]

/-- A minimum reduction over one axis, read at the ideal values: the fold of minima from the accumulator over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The body's constants, kept as words -/

/-- The fill value of the masked distances and of the running minima. -/
abbrev INF : EReal := Ideal.ofBits .f32 0x7149F2CA#32
/-- One. -/
abbrev ONE : EReal := Ideal.ofBits .f32 0x3F800000#32
/-- The half-way value below which a running minimum has met an entry. -/
abbrev HALF : EReal := Ideal.ofBits .f32 0x70C9F2CA#32
/-- The half-way value above which a running maximum has met an entry. -/
abbrev NHALF : EReal := Ideal.ofBits .f32 0xF0C9F2CA#32

/-! ## The body's stored values at a row -/

/-- The second scratch column's new value at a row: the old value lowered to the tile's semi-hard row minimum. -/
theorem pay1_apply (v29 : FVec Ideal S1024x1 .f32) (v35 : Vec Ideal S1024x1 .f32) (y : Fin 1024) :
    k1_pay1 v29 v35 (ix2 y (0 : Fin 1)) = min (v35 (ix2 y (0 : Fin 1))) (v29 (ix2 y (0 : Fin 1))) := by
  simp only [k1_pay1, shapeCast_self]
  rfl

/-- The first output column at a row: the semi-hard minimum if it stayed below the half-way value, else the plain minimum. -/
theorem pay2_apply (v43 v46 v47 : Vec Ideal S1024x1 .f32) (y : Fin 1024) :
    k1_pay2 v43 v46 v47 (ix2 y (0 : Fin 1))
      = if v43 (ix2 y (0 : Fin 1)) < HALF then v46 (ix2 y (0 : Fin 1)) else v47 (ix2 y (0 : Fin 1)) := by
  simp only [k1_pay2]
  exact select_cmp_olt _ _ _ _

/-- The second output column at a row: one where the positive distance rose above its half-way value and the negative minimum fell
    below its own, zero elsewhere. -/
theorem pay3_apply (v50 v54 : Vec Ideal S1024x1 .f32) (y : Fin 1024) :
    k1_pay3 v50 v54 (ix2 y (0 : Fin 1))
      = if NHALF < v50 (ix2 y (0 : Fin 1)) ∧ v54 (ix2 y (0 : Fin 1)) < HALF then 1 else 0 := by
  simp only [k1_pay3, shapeCast_self]
  exact sitofp_and_flags _ _

/-- The reset value of the first scratch column is the fill value at every row, -/
theorem pay4_apply (j : S1024x1.Idx) : (k1_pay4 (F := Ideal)) j = INF := by
  simp only [k1_pay4, shapeCast_self]
  rfl

/-- and so is the second's. -/
theorem pay5_apply (j : S1024x1.Idx) : (k1_pay5 (F := Ideal)) j = INF := by
  simp only [k1_pay5, shapeCast_self]
  rfl

/-! ## The masked distances of a tile -/

/-- The masked distance between row `y` of the row tile and row `q` of the column tile: the fill value where the labels agree, else
    one minus the inner product of the two embedding rows. -/
def dnT (v3 v5 : Vec Ideal S1024x128 .bf16) (v11 : Vec Ideal S1024x1 .i32) (v13 : Vec Ideal S1x1024 .i32) (y q : Fin 1024) : EReal :=
  if v11 (ix2 y (0 : Fin 1)) = v13 (ix2 (0 : Fin 1) q) then INF else ONE - ∑ k : Fin 128, ((v3 (ix2 y k) : EReal) * (v5 (ix2 q k) : EReal))

/-- The product of the row tile with the transposed column tile, into the zero accumulator, at `(y, q)`: the inner product of the two rows. -/
theorem matmul_rows_apply (v3 v5 : FVec Ideal S1024x128 .bf16) (y q : Fin 1024) :
    (matmul (F := Ideal) (φ₁ := .bf16) (φ₂ := .bf16) dot_S1024x128_S128x1024_S1024x1024_1_0_0_1_n_n none v3 (transpose S128x1024 [1, 0] v5 transposes_S1024x128_p1_0_S128x1024)
        (constant S1024x1024 .f32 0x00000000#32) (ix2 y q) : EReal)
      = ∑ k : Fin 128, ((v3 (ix2 y k) : EReal) * (v5 (ix2 q k) : EReal)) := by
  refine (Ideal.matmul_constant_zero_apply (φ₁ := .bf16) (φ₂ := .bf16) dot_S1024x128_S128x1024_S1024x1024_1_0_0_1_n_n none v3 _ (ix2 y q)).trans ?_
  refine ((contrEquiv1 dot_S1024x128_S128x1024_S1024x1024_1_0_0_1_n_n 128 rfl rfl).symm.sum_comp _).symm.trans ?_
  refine Finset.sum_congr rfl fun k _ => ?_
  have hl : (dot_S1024x128_S128x1024_S1024x1024_1_0_0_1_n_n).lhsIdx (ix2 y q) ((contrEquiv1 dot_S1024x128_S128x1024_S1024x1024_1_0_0_1_n_n 128 rfl rfl).symm k) = ix2 y k := by
    funext a; apply Fin.ext
    match a with
    | ⟨0, _⟩ => rfl
    | ⟨1, _⟩ =>
      exact ((dot_S1024x128_S128x1024_S1024x1024_1_0_0_1_n_n).lhsIdx_val_of_single (cl := (1 : Fin 2)) rfl (ix2 y q) _).trans
        (contrEquiv1_symm_val dot_S1024x128_S128x1024_S1024x1024_1_0_0_1_n_n 128 rfl rfl k)
  have hr : (dot_S1024x128_S128x1024_S1024x1024_1_0_0_1_n_n).rhsIdx (ix2 y q) ((contrEquiv1 dot_S1024x128_S128x1024_S1024x1024_1_0_0_1_n_n 128 rfl rfl).symm k) = ix2 k q := by
    funext a; apply Fin.ext
    match a with
    | ⟨0, _⟩ =>
      exact ((dot_S1024x128_S128x1024_S1024x1024_1_0_0_1_n_n).rhsIdx_val_of_single (cr := (0 : Fin 2)) rfl (ix2 y q) _).trans
        (contrEquiv1_symm_val dot_S1024x128_S128x1024_S1024x1024_1_0_0_1_n_n 128 rfl rfl k)
    | ⟨1, _⟩ => rfl
  rw [hl, hr, transpose_ix2_apply]

/-- The body's masked distances at `(y, q)`. -/
theorem pay6_apply (v3 v5 : Vec Ideal S1024x128 .bf16) (v11 : Vec Ideal S1024x1 .i32) (v13 : Vec Ideal S1x1024 .i32) (y q : Fin 1024) :
    k1_pay6 v3 v5 v11 v13 (ix2 y q) = dnT v3 v5 v11 v13 y q := by
  simp only [k1_pay6, shapeCast_self]
  have hb1 : broadcastTo S1024x1024 v11 broadcasts_S1024x1_S1024x1024 (ix2 y q) = v11 (ix2 y (0 : Fin 1)) :=
    broadcastTo_apply v11 _ (ix2 y q) (ix2 y (0 : Fin 1)) (fun ax => match ax with | ⟨0, _⟩ => rfl | ⟨1, _⟩ => rfl)
  have hb2 : broadcastTo S1024x1024 v13 broadcasts_S1x1024_S1024x1024 (ix2 y q) = v13 (ix2 (0 : Fin 1) q) :=
    broadcastTo_1b_ab_apply v13 _ y q
  refine (select_cmpi_eq (broadcastTo S1024x1024 v11 broadcasts_S1024x1_S1024x1024 (ix2 y q))
    (broadcastTo S1024x1024 v13 broadcasts_S1x1024_S1024x1024 (ix2 y q)) _ _).trans ?_
  unfold dnT
  rw [hb1, hb2]
  refine congrArg (fun z => if v11 (ix2 y (0 : Fin 1)) = v13 (ix2 (0 : Fin 1) q) then INF else ONE - z) ?_
  exact matmul_rows_apply v3 v5 y q

/-! ## Lane minima -/

/-- The minimum over the lanes of row `y`, from the accumulator at positive infinity, reshaped to a column: the infimum of the row. -/
theorem rowMin_apply (src : FVec Ideal S1024x1024 .f32) (y : Fin 1024) :
    (shapeCast S1024x1 (multiReduction (F := Ideal) .minimumf [1] S1024 src 0x7F800000#32 reduces_S1024x1024_S1024 (.inl rfl) rfl)
        shapeCasts_S1024_S1024x1 (ix2 y (0 : Fin 1)) : EReal)
      = Finset.univ.inf fun q : Fin 1024 => (src (ix2 y q) : EReal) := by
  refine (shapeCast_apply _ shapeCasts_S1024_S1024x1 (ix2 y (0 : Fin 1)) (ix1 y) ?_).trans ?_
  · rw [Shape.rowMajor_val_one, Shape.rowMajor_val_two]
    show y.val = y.val * 1 + 0
    omega
  refine (multiReduction_minimumf_single src _ reduces_S1024x1024_S1024 _ _ (ix1 y)).trans ?_
  rw [show (FloatOps.ofBits .f32 0x7F800000#32 : Ideal .f32) = (⊤ : EReal) from ofBits_pinf]
  refine (fold_min_top_eq_inf _ _).trans ?_
  refine congrArg (Finset.univ.inf) (funext fun q => ?_)
  show src (reduces_S1024x1024_S1024.lift (ix1 y) q) = src (ix2 y q)
  refine congrArg src (funext fun a => Fin.ext ?_)
  match a with
  | ⟨0, _⟩ => rfl
  | ⟨1, _⟩ => rfl

/-- The tile's plain row minimum, lowering the first scratch column: at row `y` the old value and the infimum of the row's masked
    distances, whichever is smaller. -/
theorem pay8_apply (v3 v5 : Vec Ideal S1024x128 .bf16) (v11 : Vec Ideal S1024x1 .i32) (v13 : Vec Ideal S1x1024 .i32) (v30 : Vec Ideal S1024x1 .f32) (y : Fin 1024) :
    k1_pay8 v3 v5 v11 v13 v30 (ix2 y (0 : Fin 1))
      = min (v30 (ix2 y (0 : Fin 1))) (Finset.univ.inf fun q : Fin 1024 => dnT v3 v5 v11 v13 y q) := by
  simp only [k1_pay8, shapeCast_self]
  refine congrArg (min (v30 (ix2 y (0 : Fin 1)))) ?_
  refine (rowMin_apply (k1_pay6 v3 v5 v11 v13) y).trans ?_
  exact congrArg (Finset.univ.inf) (funext fun q => pay6_apply v3 v5 v11 v13 y q)

/-- The tile's semi-hard row minimum: at row `y` the infimum over the row of the masked distances that exceed the row's positive
    distance, the fill value standing for the others. -/
theorem pay7_apply (v3 v5 : Vec Ideal S1024x128 .bf16) (v11 : Vec Ideal S1024x1 .i32) (v13 : Vec Ideal S1x1024 .i32) (v18 : Vec Ideal S1024x1 .f32) (y : Fin 1024) :
    k1_pay7 v3 v5 v11 v13 v18 (ix2 y (0 : Fin 1))
      = Finset.univ.inf fun q : Fin 1024 =>
          if v18 (ix2 y (0 : Fin 1)) < dnT v3 v5 v11 v13 y q then dnT v3 v5 v11 v13 y q else INF := by
  simp only [k1_pay7, shapeCast_self]
  refine (rowMin_apply _ y).trans ?_
  refine congrArg (Finset.univ.inf) (funext fun q => ?_)
  have hb : broadcastTo S1024x1024 v18 broadcasts_S1024x1_S1024x1024 (ix2 y q) = v18 (ix2 y (0 : Fin 1)) :=
    broadcastTo_apply v18 _ (ix2 y q) (ix2 y (0 : Fin 1)) (fun ax => match ax with | ⟨0, _⟩ => rfl | ⟨1, _⟩ => rfl)
  refine (select_cmp_ogt (k1_pay6 v3 v5 v11 v13 (ix2 y q)) (broadcastTo S1024x1024 v18 broadcasts_S1024x1_S1024x1024 (ix2 y q)) _ _).trans ?_
  rw [hb, pay6_apply]
  rfl

end Cert.KernelIdeal.Pass2

end
-- ==== Proof.KIPass2ValueAcc.lean ====
/- The second pass's running minima read at a row, grid point by grid point: what the body leaves in the two scratch columns and in the
    two output columns at a row of the row tile, in terms of the point's tiles and of what the point before left. -/
import proofs.«165275_j48198122996409_2_alg».proof.Proof.KIPass2ValuePoint

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Entry
variable (V : (c : Dev nD) → (b : Ref sig .tc) → Buf (Elt Ideal) ((c : Thread nD τ).loc b))

/-! ## The point's tiles at a row -/

/-- The masked distance between row `y` of the point's row tile and row `q` of its column tile. -/
def dnAt (c : Dev nD) (t : Fin cfg1.N) (y q : Fin 1024) : EReal := dnT (tile V c 0 t) (tile V c 1 t) (tile V c 2 t) (tile V c 3 t) y q
/-- The first pass's result at row `y` of the point's row tile. -/
def dapAt (c : Dev nD) (t : Fin cfg1.N) (y : Fin 1024) : EReal := tile V c 4 t (ix2 y (0 : Fin 1))
/-- The smallest masked distance of row `y` within the point's column tile. -/
def negRow (c : Dev nD) (t : Fin cfg1.N) (y : Fin 1024) : EReal := Finset.univ.inf fun q : Fin 1024 => dnAt V c t y q
/-- The smallest masked distance of row `y` within the point's column tile that exceeds the row's first-pass result. -/
def semiRow (c : Dev nD) (t : Fin cfg1.N) (y : Fin 1024) : EReal :=
  Finset.univ.inf fun q : Fin 1024 => if dapAt V c t y < dnAt V c t y q then dnAt V c t y q else INF

/-- The body's plain row minimum on the point's tiles, lowering a column `v`. -/
theorem pay8_tile (c : Dev nD) (t : Fin cfg1.N) (v : Vec Ideal S1024x1 .f32) (y : Fin 1024) :
    k1_pay8 (tile V c 0 t) (tile V c 1 t) (tile V c 2 t) (tile V c 3 t) v (ix2 y (0 : Fin 1)) = min (v (ix2 y (0 : Fin 1))) (negRow V c t y) :=
  pay8_apply (tile V c 0 t) (tile V c 1 t) (tile V c 2 t) (tile V c 3 t) v y
/-- The body's semi-hard row minimum on the point's tiles. -/
theorem pay7_tile (c : Dev nD) (t : Fin cfg1.N) (y : Fin 1024) :
    k1_pay7 (tile V c 0 t) (tile V c 1 t) (tile V c 2 t) (tile V c 3 t) (tile V c 4 t) (ix2 y (0 : Fin 1)) = semiRow V c t y :=
  pay7_apply (tile V c 0 t) (tile V c 1 t) (tile V c 2 t) (tile V c 3 t) (tile V c 4 t) y

/-! ## The two scratch columns after a point -/

/-- At a first column tile the first scratch column is the fill value lowered by the tile, -/
theorem acc9_first (c : Dev nD) (t : Fin cfg1.N) (h0 : t.val % 8 = 0) (h1 : ¬t.val % 8 = 7) (y : Fin 1024) :
    (accAt V c t.val t.isLt).2.2.1 (ix2 y (0 : Fin 1)) = min INF (negRow V c t y) := by
  rw [accAt_first V c t h0 h1]
  dsimp only
  refine (congrFun (sout9First_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h))) (ix2 y (0 : Fin 1))).trans ?_
  refine (pay8_tile V c t _ y).trans ?_
  rw [pay4_apply]
/-- and so is the second. -/
theorem acc10_first (c : Dev nD) (t : Fin cfg1.N) (h0 : t.val % 8 = 0) (h1 : ¬t.val % 8 = 7) (y : Fin 1024) :
    (accAt V c t.val t.isLt).2.2.2 (ix2 y (0 : Fin 1)) = min INF (semiRow V c t y) := by
  rw [accAt_first V c t h0 h1]
  dsimp only
  refine (congrFun (sout10First_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) ((atFirst_iff t).mpr h0) (fun h => h1 ((atLast_iff t).mp h))) (ix2 y (0 : Fin 1))).trans ?_
  refine (pay1_apply _ _ y).trans ?_
  rw [pay5_apply, pay7_tile]

/-- At a middle column tile each scratch column is what the point before left, lowered by the tile. -/
theorem acc9_mid (c : Dev nD) (t : Fin cfg1.N) (h0 : ¬t.val % 8 = 0) (h1 : ¬t.val % 8 = 7) (y : Fin 1024) :
    (accAt V c t.val t.isLt).2.2.1 (ix2 y (0 : Fin 1)) = min ((accAt V c (t.val - 1) (Nat.lt_of_le_of_lt (Nat.sub_le _ _) t.isLt)).2.2.1 (ix2 y (0 : Fin 1))) (negRow V c t y) := by
  rw [accAt_mid V c t h0 h1]
  dsimp only
  refine (congrFun (sout9Mid_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))).trans ?_
  exact pay8_tile V c t _ y
theorem acc10_mid (c : Dev nD) (t : Fin cfg1.N) (h0 : ¬t.val % 8 = 0) (h1 : ¬t.val % 8 = 7) (y : Fin 1024) :
    (accAt V c t.val t.isLt).2.2.2 (ix2 y (0 : Fin 1)) = min ((accAt V c (t.val - 1) (Nat.lt_of_le_of_lt (Nat.sub_le _ _) t.isLt)).2.2.2 (ix2 y (0 : Fin 1))) (semiRow V c t y) := by
  rw [accAt_mid V c t h0 h1]
  dsimp only
  refine (congrFun (sout10Mid_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) (fun h => h1 ((atLast_iff t).mp h)) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))).trans ?_
  refine (pay1_apply _ _ y).trans ?_
  rw [pay7_tile]

/-- At a last column tile likewise. -/
theorem acc9_last (c : Dev nD) (t : Fin cfg1.N) (h0 : ¬t.val % 8 = 0) (h1 : t.val % 8 = 7) (y : Fin 1024) :
    (accAt V c t.val t.isLt).2.2.1 (ix2 y (0 : Fin 1)) = min ((accAt V c (t.val - 1) (Nat.lt_of_le_of_lt (Nat.sub_le _ _) t.isLt)).2.2.1 (ix2 y (0 : Fin 1))) (negRow V c t y) := by
  rw [accAt_last V c t h0 h1]
  dsimp only
  refine (congrFun (sout9Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))).trans ?_
  exact pay8_tile V c t _ y
theorem acc10_last (c : Dev nD) (t : Fin cfg1.N) (h0 : ¬t.val % 8 = 0) (h1 : t.val % 8 = 7) (y : Fin 1024) :
    (accAt V c t.val t.isLt).2.2.2 (ix2 y (0 : Fin 1)) = min ((accAt V c (t.val - 1) (Nat.lt_of_le_of_lt (Nat.sub_le _ _) t.isLt)).2.2.2 (ix2 y (0 : Fin 1))) (semiRow V c t y) := by
  rw [accAt_last V c t h0 h1]
  dsimp only
  refine (congrFun (sout10Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))).trans ?_
  refine (pay1_apply _ _ y).trans ?_
  rw [pay7_tile]

/-! ## The two output columns after a last column tile -/

/-- The first output column at a row: the final semi-hard minimum if it stayed below the half-way value, else the final plain minimum. -/
theorem acc5_last (c : Dev nD) (t : Fin cfg1.N) (h0 : ¬t.val % 8 = 0) (h1 : t.val % 8 = 7) (y : Fin 1024) :
    (accAt V c t.val t.isLt).1 (ix2 y (0 : Fin 1))
      = if (accAt V c t.val t.isLt).2.2.2 (ix2 y (0 : Fin 1)) < HALF then (accAt V c t.val t.isLt).2.2.2 (ix2 y (0 : Fin 1))
        else (accAt V c t.val t.isLt).2.2.1 (ix2 y (0 : Fin 1)) := by
  have e9 : (accAt V c t.val t.isLt).2.2.1 (ix2 y (0 : Fin 1)) = (k1_pay8 (tile V c 0 t) (tile V c 1 t) (tile V c 2 t) (tile V c 3 t) (accAt V c (t.val - 1) (Nat.lt_of_le_of_lt (Nat.sub_le _ _) t.isLt)).2.2.1) (ix2 y (0 : Fin 1)) := by
    rw [accAt_last V c t h0 h1]
    dsimp only
    exact congrFun (sout9Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))
  have e10 : (accAt V c t.val t.isLt).2.2.2 (ix2 y (0 : Fin 1)) = (k1_pay1 (k1_pay7 (tile V c 0 t) (tile V c 1 t) (tile V c 2 t) (tile V c 3 t) (tile V c 4 t)) (accAt V c (t.val - 1) (Nat.lt_of_le_of_lt (Nat.sub_le _ _) t.isLt)).2.2.2) (ix2 y (0 : Fin 1)) := by
    rw [accAt_last V c t h0 h1]
    dsimp only
    exact congrFun (sout10Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))
  have e5 : (accAt V c t.val t.isLt).1 (ix2 y (0 : Fin 1)) = k1_pay2 (k1_pay1 (k1_pay7 (tile V c 0 t) (tile V c 1 t) (tile V c 2 t) (tile V c 3 t) (tile V c 4 t)) (accAt V c (t.val - 1) (Nat.lt_of_le_of_lt (Nat.sub_le _ _) t.isLt)).2.2.2) (k1_pay1 (k1_pay7 (tile V c 0 t) (tile V c 1 t) (tile V c 2 t) (tile V c 3 t) (tile V c 4 t)) (accAt V c (t.val - 1) (Nat.lt_of_le_of_lt (Nat.sub_le _ _) t.isLt)).2.2.2) (k1_pay8 (tile V c 0 t) (tile V c 1 t) (tile V c 2 t) (tile V c 3 t) (accAt V c (t.val - 1) (Nat.lt_of_le_of_lt (Nat.sub_le _ _) t.isLt)).2.2.1) (ix2 y (0 : Fin 1)) := by
    rw [accAt_last V c t h0 h1]
    dsimp only
    exact congrFun (out5Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))
  refine e5.trans ((pay2_apply (k1_pay1 (k1_pay7 (tile V c 0 t) (tile V c 1 t) (tile V c 2 t) (tile V c 3 t) (tile V c 4 t)) (accAt V c (t.val - 1) (Nat.lt_of_le_of_lt (Nat.sub_le _ _) t.isLt)).2.2.2) (k1_pay1 (k1_pay7 (tile V c 0 t) (tile V c 1 t) (tile V c 2 t) (tile V c 3 t) (tile V c 4 t)) (accAt V c (t.val - 1) (Nat.lt_of_le_of_lt (Nat.sub_le _ _) t.isLt)).2.2.2) (k1_pay8 (tile V c 0 t) (tile V c 1 t) (tile V c 2 t) (tile V c 3 t) (accAt V c (t.val - 1) (Nat.lt_of_le_of_lt (Nat.sub_le _ _) t.isLt)).2.2.1) y).trans ?_)
  exact if_congr (by rw [e10]) e10.symm e9.symm

/-- The second output column at a row: one where the first pass's result rose above its half-way value and the final plain minimum fell
    below its own, zero elsewhere. -/
theorem acc6_last (c : Dev nD) (t : Fin cfg1.N) (h0 : ¬t.val % 8 = 0) (h1 : t.val % 8 = 7) (y : Fin 1024) :
    (accAt V c t.val t.isLt).2.1 (ix2 y (0 : Fin 1))
      = if NHALF < dapAt V c t y ∧ (accAt V c t.val t.isLt).2.2.1 (ix2 y (0 : Fin 1)) < HALF then 1 else 0 := by
  have e9 : (accAt V c t.val t.isLt).2.2.1 (ix2 y (0 : Fin 1)) = (k1_pay8 (tile V c 0 t) (tile V c 1 t) (tile V c 2 t) (tile V c 3 t) (accAt V c (t.val - 1) (Nat.lt_of_le_of_lt (Nat.sub_le _ _) t.isLt)).2.2.1) (ix2 y (0 : Fin 1)) := by
    rw [accAt_last V c t h0 h1]
    dsimp only
    exact congrFun (sout9Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))
  have e6 : (accAt V c t.val t.isLt).2.1 (ix2 y (0 : Fin 1)) = k1_pay3 (tile V c 4 t) (k1_pay8 (tile V c 0 t) (tile V c 1 t) (tile V c 2 t) (tile V c 3 t) (accAt V c (t.val - 1) (Nat.lt_of_le_of_lt (Nat.sub_le _ _) t.isLt)).2.2.1) (ix2 y (0 : Fin 1)) := by
    rw [accAt_last V c t h0 h1]
    dsimp only
    exact congrFun (out6Last_eq c (grid1.coords t) (ms0 t) (hs0 t) (ms1 t) (hs1 t) (ms2 t) (hs2 t) (ms3 t) (hs3 t) (ms4 t) (hs4 t) (ms5 t) (hs5 t) (ms6 t) (hs6 t) scM9 (Memref.isWhole_whole _) scM10 (Memref.isWhole_whole _) (tile V c 0 t) (tile V c 1 t) (tile V c 2 t) (tile V c 3 t) (tile V c 4 t) (fun h => h0 ((atFirst_iff t).mp h)) ((atLast_iff t).mpr h1) (accAt V c (t.val - 1) (Nat.lt_of_le_of_lt (Nat.sub_le _ _) t.isLt)).2.2.1 (accAt V c (t.val - 1) (Nat.lt_of_le_of_lt (Nat.sub_le _ _) t.isLt)).2.2.2) (ix2 y (0 : Fin 1))
  refine e6.trans ((pay3_apply (tile V c 4 t) (k1_pay8 (tile V c 0 t) (tile V c 1 t) (tile V c 2 t) (tile V c 3 t) (accAt V c (t.val - 1) (Nat.lt_of_le_of_lt (Nat.sub_le _ _) t.isLt)).2.2.1) y).trans ?_)
  exact if_congr (and_congr Iff.rfl (by rw [e9])) rfl rfl

end Entry

end Cert.KernelIdeal.Pass2

end
-- ==== Proof.KIPass2ValueGlobal.lean ====
/- The second pass's operands as whole arrays, and the quantities the pass computes from them row by row: the masked distance between
    two rows, its semi-hard variant, the two minima over all columns, the infimum over the first column tiles, and the global row
    and column a grid point's tile rows stand for. Definitions only. -/
import proofs.«165275_j48198122996409_2_alg».proof.Proof.KIPass2ValueAcc

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The infimum of `f` over the columns of the first `m` column tiles. -/
def infUpTo (f : Fin 8192 → EReal) (m : ℕ) : EReal :=
  (Finset.univ.filter fun q : Fin 8192 => q.val < 1024 * m).inf f

/-- The global row that row `y` of grid point `t`'s row tile stands for. -/
def grow (t : Fin cfg1.N) (y : Fin 1024) : Fin 8192 :=
  ⟨1024 * (t.val / 8) + y.val, by have h1 := t.isLt; have h2 : cfg1.N = 64 := N_1; have h3 := y.isLt; omega⟩
/-- The global column that row `q` of grid point `t`'s column tile stands for. -/
def gcol (t : Fin cfg1.N) (q : Fin 1024) : Fin 8192 :=
  ⟨1024 * (t.val % 8) + q.val, by have h3 := q.isLt; omega⟩

section Entry
variable (V : (c : Dev nD) → (b : Ref sig .tc) → Buf (Elt Ideal) ((c : Thread nD τ).loc b))

/-- The normalised embeddings, one row per item. -/
def Xg (c : Dev nD) : S8192x128.Idx → EReal := V c main_v6
/-- The labels as a column, -/
def LRg (c : Dev nD) : S8192x1.Idx → BitVec 32 := V c main_v7
/-- and as a row. -/
def LCg (c : Dev nD) : S1x8192.Idx → BitVec 32 := V c main_v8
/-- The first pass's result column. -/
def Dg (c : Dev nD) : S8192x1.Idx → EReal := V c main_v9

/-- The masked distance between items `r` and `q`: the fill value where the labels agree, else one minus the inner product of the
    two embedding rows. -/
def dnG (c : Dev nD) (r q : Fin 8192) : EReal :=
  if LRg V c (ix2 r (0 : Fin 1)) = LCg V c (ix2 (0 : Fin 1) q) then INF
  else ONE - ∑ k : Fin 128, Xg V c (ix2 r k) * Xg V c (ix2 q k)
/-- The same where it exceeds item `r`'s first-pass result, the fill value elsewhere. -/
def semiG (c : Dev nD) (r q : Fin 8192) : EReal :=
  if Dg V c (ix2 r (0 : Fin 1)) < dnG V c r q then dnG V c r q else INF
/-- The smallest masked distance of item `r`, from the fill value. -/
def negmin (c : Dev nD) (r : Fin 8192) : EReal := min INF (Finset.univ.inf fun q : Fin 8192 => dnG V c r q)
/-- The smallest semi-hard masked distance of item `r`, from the fill value. -/
def semimin (c : Dev nD) (r : Fin 8192) : EReal := min INF (Finset.univ.inf fun q : Fin 8192 => semiG V c r q)

end Entry

end Cert.KernelIdeal.Pass2

end
-- ==== Proof.KIPass2ValueTiles.lean ====
/- The second pass's tiles read at a global index: at a grid point the five input tiles are blocks of the arrays the pass finds — the
    embeddings' row tile and column tile, the labels as a column and as a row, and the first pass's column —, so an entry of a tile
    is the array's entry at the row of the row tile or the row of the column tile; hence the masked distance of a point's tiles is
    the masked distance of the two global rows. And the infimum over the first 1024·(b+1) rows splits into the infimum over the
    first 1024·b rows and the infimum over the rows of tile b. -/
import proofs.«165275_j48198122996409_2_alg».proof.Proof.KIPass2ValueGlobal
import Idealize.ShloMosaic.Lib.Pipeline.Value

set_option maxRecDepth 16384

noncomputable section

namespace Cert.KernelIdeal.Pass2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- A grid point is below 64. -/
theorem lt64 (t : Fin cfg1.N) : t.val < 64 := lt_of_lt_of_eq t.isLt N_1

/-- The block indices of the five input windows at a grid point: row tile t / 8, column tile t % 8. -/
theorem idx0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx2 : ∀ t : Fin cfg1.N, win1_2.index t 0 = t.val / 8 ∧ win1_2.index t 1 = 0 :=
  (by decide +kernel : ∀ t : Fin grid1.N, win1_2.index t 0 = t.val / 8 ∧ win1_2.index t 1 = 0)
theorem idx3 : ∀ t : Fin cfg1.N, win1_3.index t 0 = 0 ∧ win1_3.index t 1 = t.val % 8 :=
  (by decide +kernel : ∀ t : Fin grid1.N, win1_3.index t 0 = 0 ∧ win1_3.index t 1 = t.val % 8)
theorem idx4 : ∀ t : Fin cfg1.N, win1_4.index t 0 = t.val / 8 ∧ win1_4.index t 1 = 0 :=
  (by decide +kernel : ∀ t : Fin grid1.N, win1_4.index t 0 = t.val / 8 ∧ win1_4.index t 1 = 0)

section AtIdeal
variable (V : (c : Dev nD) → (b : Ref sig .tc) → Buf (Elt Ideal) ((c : Thread nD τ).loc b))

/-- The row tile of the embeddings at a grid point, read at (y, k), is the array at (row y of the row tile, k). -/
theorem tile0_apply (c : Dev nD) (t : Fin cfg1.N) (y : Fin 1024) (k : Fin 128) :
    (tile V c 0 t : Vec Ideal S1024x128 .bf16) (ix2 y k) = Xg V c (ix2 (grow t y) k) := by
  have hi := idx0 t
  unfold tile Xg
  rw [View.read_apply]
  show V c main_v6 _ = V c main_v6 _
  congr 1
  funext a; apply Fin.ext
  match a with
  | ⟨0, _⟩ => show win1_0.index t 0 * 1024 + 1 * y.val = 1024 * (t.val / 8) + y.val; rw [hi.1]; omega
  | ⟨1, _⟩ => show win1_0.index t 1 * 128 + 1 * k.val = k.val; rw [hi.2]; omega

/-- The column tile of the embeddings, read at (q, k), is the array at (row q of the column tile, k). -/
theorem tile1_apply (c : Dev nD) (t : Fin cfg1.N) (q : Fin 1024) (k : Fin 128) :
    (tile V c 1 t : Vec Ideal S1024x128 .bf16) (ix2 q k) = Xg V c (ix2 (gcol t q) k) := by
  have hi := idx1 t
  unfold tile Xg
  rw [View.read_apply]
  show V c main_v6 _ = V c main_v6 _
  congr 1
  funext a; apply Fin.ext
  match a with
  | ⟨0, _⟩ => show win1_1.index t 0 * 1024 + 1 * q.val = 1024 * (t.val % 8) + q.val; rw [hi.1]; omega
  | ⟨1, _⟩ => show win1_1.index t 1 * 128 + 1 * k.val = k.val; rw [hi.2]; omega

/-- The row tile of the labels column, read at (y, u), is the column at (row y of the row tile, u). -/
theorem tile2_apply (c : Dev nD) (t : Fin cfg1.N) (y : Fin 1024) (u : Fin 1) :
    (tile V c 2 t : Vec Ideal S1024x1 .i32) (ix2 y u) = LRg V c (ix2 (grow t y) u) := by
  have hi := idx2 t
  unfold tile LRg
  rw [View.read_apply]
  show V c main_v7 _ = V c main_v7 _
  congr 1
  funext a; apply Fin.ext
  match a with
  | ⟨0, _⟩ => show win1_2.index t 0 * 1024 + 1 * y.val = 1024 * (t.val / 8) + y.val; rw [hi.1]; omega
  | ⟨1, _⟩ => show win1_2.index t 1 * 1 + 1 * u.val = u.val; rw [hi.2]; omega

/-- The column tile of the labels row, read at (u, q), is the row at (u, row q of the column tile). -/
theorem tile3_apply (c : Dev nD) (t : Fin cfg1.N) (u : Fin 1) (q : Fin 1024) :
    (tile V c 3 t : Vec Ideal S1x1024 .i32) (ix2 u q) = LCg V c (ix2 u (gcol t q)) := by
  have hi := idx3 t
  unfold tile LCg
  rw [View.read_apply]
  show V c main_v8 _ = V c main_v8 _
  congr 1
  funext a; apply Fin.ext
  match a with
  | ⟨0, _⟩ => show win1_3.index t 0 * 1 + 1 * u.val = u.val; rw [hi.1]; omega
  | ⟨1, _⟩ => show win1_3.index t 1 * 1024 + 1 * q.val = 1024 * (t.val % 8) + q.val; rw [hi.2]; omega

/-- The row tile of the first pass's column, read at (y, u), is the column at (row y of the row tile, u). -/
theorem tile4_apply (c : Dev nD) (t : Fin cfg1.N) (y : Fin 1024) (u : Fin 1) :
    (tile V c 4 t : Vec Ideal S1024x1 .f32) (ix2 y u) = Dg V c (ix2 (grow t y) u) := by
  have hi := idx4 t
  unfold tile Dg
  rw [View.read_apply]
  show V c main_v9 _ = V c main_v9 _
  congr 1
  funext a; apply Fin.ext
  match a with
  | ⟨0, _⟩ => show win1_4.index t 0 * 1024 + 1 * y.val = 1024 * (t.val / 8) + y.val; rw [hi.1]; omega
  | ⟨1, _⟩ => show win1_4.index t 1 * 1 + 1 * u.val = u.val; rw [hi.2]; omega

/-- The masked distance of a point's tiles is the masked distance of the two global rows. -/
theorem dnAt_global (c : Dev nD) (t : Fin cfg1.N) (y q : Fin 1024) : dnAt V c t y q = dnG V c (grow t y) (gcol t q) := by
  unfold dnAt dnT dnG
  rw [tile2_apply V c t y 0, tile3_apply V c t 0 q]
  refine if_congr Iff.rfl rfl (congrArg (fun z => ONE - z) (Finset.sum_congr rfl fun k _ => ?_))
  rw [tile0_apply V c t y k, tile1_apply V c t q k]

/-- The first pass's result at a row of the point's row tile is its column at the global row. -/
theorem dapAt_global (c : Dev nD) (t : Fin cfg1.N) (y : Fin 1024) : dapAt V c t y = Dg V c (ix2 (grow t y) (0 : Fin 1)) := by
  unfold dapAt
  exact tile4_apply V c t y 0

end AtIdeal

/-! ## The infimum over the rows so far -/

/-- Over no rows the infimum is the top. -/
theorem infUpTo_zero (f : Fin 8192 → EReal) : infUpTo f 0 = ⊤ := by
  unfold infUpTo
  have he : (Finset.univ.filter fun q : Fin 8192 => q.val < 1024 * 0) = ∅ :=
    Finset.filter_eq_empty_iff.mpr fun q _ => by omega
  rw [he, Finset.inf_empty]

/-- The rows below 1024·(b+1) are the rows below 1024·b together with the rows of tile b: the infimum over them splits. -/
theorem infUpTo_succ (f : Fin 8192 → EReal) (b : ℕ) (hb : b < 8) :
    infUpTo f (b + 1) = min (infUpTo f b) (Finset.univ.inf fun q : Fin 1024 => f ⟨1024 * b + q.val, by have := q.isLt; omega⟩) := by
  unfold infUpTo
  have hsplit : (Finset.univ.filter fun q : Fin 8192 => q.val < 1024 * (b + 1))
      = (Finset.univ.filter fun q : Fin 8192 => q.val < 1024 * b)
        ∪ Finset.univ.image (fun q : Fin 1024 => (⟨1024 * b + q.val, by have := q.isLt; omega⟩ : Fin 8192)) := by
    ext q
    simp only [Finset.mem_filter, Finset.mem_univ, true_and, Finset.mem_union, Finset.mem_image]
    constructor
    · intro h
      by_cases hq : q.val < 1024 * b
      · exact Or.inl hq
      · exact Or.inr ⟨⟨q.val - 1024 * b, by omega⟩, Fin.ext (by show 1024 * b + (q.val - 1024 * b) = q.val; omega)⟩
    · rintro (h | ⟨z, rfl⟩)
      · omega
      · have := z.isLt; show 1024 * b + z.val < 1024 * (b + 1); omega
  rw [hsplit, Finset.inf_union, Finset.inf_image]
  rfl

/-- Over all eight tiles it is the infimum over every row. -/
theorem infUpTo_eight (f : Fin 8192 → EReal) : infUpTo f 8 = Finset.univ.inf f := by
  unfold infUpTo
  rw [Finset.filter_true_of_mem fun q _ => by have := q.isLt; omega]

end Cert.KernelIdeal.Pass2

end
-- ==== Proof.KIPass2ValueInv.lean ====
/- The second pass's running minima in closed form: after every grid point each scratch column holds, at each row, the fill value
    lowered to the smallest (semi-hard) masked distance over the columns of the column tiles met so far — by induction along a row
    tile —, so that at a last column tile the two scratch columns hold the minima over all columns and the two output columns are
    the selection and the flag of those. -/
import proofs.«165275_j48198122996409_2_alg».proof.Proof.KIPass2ValueTiles

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## One step of a running minimum along a row tile -/

/-- At a first column tile the fill value lowered by the tile's columns is the running minimum over the first column tile. -/
theorem step_first (f : Fin 8192 → EReal) (t : Fin cfg1.N) (h0 : t.val % 8 = 0) :
    min INF (Finset.univ.inf fun q : Fin 1024 => f (gcol t q)) = min INF (infUpTo f (t.val % 8 + 1)) := by
  rw [h0, infUpTo_succ f 0 (by omega), infUpTo_zero, min_top_left]
  refine congrArg (min INF) (congrArg (Finset.univ.inf) (funext fun q => congrArg f (Fin.ext ?_)))
  show 1024 * (t.val % 8) + q.val = 1024 * 0 + q.val
  rw [h0]

/-- At a later column tile the running minimum over the column tiles before, lowered by this tile's columns, is the running minimum
    over the column tiles up to this one. -/
theorem step_next (f : Fin 8192 → EReal) (t : Fin cfg1.N) (h0 : ¬t.val % 8 = 0) (prev : EReal)
    (hprev : prev = min INF (infUpTo f (t.val % 8))) :
    min prev (Finset.univ.inf fun q : Fin 1024 => f (gcol t q)) = min INF (infUpTo f (t.val % 8 + 1)) := by
  subst hprev
  rw [min_assoc, infUpTo_succ f (t.val % 8) (Nat.mod_lt _ (by omega))]
  rfl

section Entry
variable (V : (c : Dev nD) → (b : Ref sig .tc) → Buf (Elt Ideal) ((c : Thread nD τ).loc b))

/-! ## A tile's row minima over the global columns -/

/-- The tile's plain row minimum is the infimum of the global masked distances over the tile's columns. -/
theorem negRow_global (c : Dev nD) (t : Fin cfg1.N) (y : Fin 1024) :
    negRow V c t y = Finset.univ.inf fun q : Fin 1024 => dnG V c (grow t y) (gcol t q) := by
  unfold negRow
  exact congrArg (Finset.univ.inf) (funext fun q => dnAt_global V c t y q)
/-- The tile's semi-hard row minimum likewise. -/
theorem semiRow_global (c : Dev nD) (t : Fin cfg1.N) (y : Fin 1024) :
    semiRow V c t y = Finset.univ.inf fun q : Fin 1024 => semiG V c (grow t y) (gcol t q) := by
  unfold semiRow
  refine congrArg (Finset.univ.inf) (funext fun q => ?_)
  rw [dapAt_global, dnAt_global]
  rfl

/-! ## The invariant along a row tile -/

/-- After any grid point the first scratch column holds, at each row, the fill value lowered to the smallest masked distance over the
    columns of the column tiles up to the point's: by induction on the point. -/
theorem acc9_closed_aux (c : Dev nD) : ∀ (n : ℕ) (hn : n < cfg1.N) (y : Fin 1024),
    (accAt V c n hn).2.2.1 (ix2 y (0 : Fin 1)) = min INF (infUpTo (dnG V c (grow ⟨n, hn⟩ y)) (n % 8 + 1)) := by
  intro n
  induction n using Nat.strong_induction_on with
  | _ n ih =>
    intro hn y
    have hN : cfg1.N = 64 := N_1
    by_cases h0 : n % 8 = 0
    · have h1 : ¬n % 8 = 7 := by omega
      refine (acc9_first V c ⟨n, hn⟩ h0 h1 y).trans ?_
      rw [negRow_global]
      exact step_first _ ⟨n, hn⟩ h0
    · have hprev := ih (n - 1) (by omega) (by omega) y
      have hg : grow ⟨n - 1, by omega⟩ y = grow ⟨n, hn⟩ y :=
        Fin.ext (by show 1024 * ((n - 1) / 8) + y.val = 1024 * (n / 8) + y.val; omega)
      have hm : (n - 1) % 8 + 1 = n % 8 := by omega
      rw [hg, hm] at hprev
      by_cases h1 : n % 8 = 7
      · refine (acc9_last V c ⟨n, hn⟩ h0 h1 y).trans ?_
        rw [negRow_global]
        exact step_next _ ⟨n, hn⟩ h0 _ hprev
      · refine (acc9_mid V c ⟨n, hn⟩ h0 h1 y).trans ?_
        rw [negRow_global]
        exact step_next _ ⟨n, hn⟩ h0 _ hprev

/-- The second scratch column likewise, over the semi-hard masked distances. -/
theorem acc10_closed_aux (c : Dev nD) : ∀ (n : ℕ) (hn : n < cfg1.N) (y : Fin 1024),
    (accAt V c n hn).2.2.2 (ix2 y (0 : Fin 1)) = min INF (infUpTo (semiG V c (grow ⟨n, hn⟩ y)) (n % 8 + 1)) := by
  intro n
  induction n using Nat.strong_induction_on with
  | _ n ih =>
    intro hn y
    have hN : cfg1.N = 64 := N_1
    by_cases h0 : n % 8 = 0
    · have h1 : ¬n % 8 = 7 := by omega
      refine (acc10_first V c ⟨n, hn⟩ h0 h1 y).trans ?_
      rw [semiRow_global]
      exact step_first _ ⟨n, hn⟩ h0
    · have hprev := ih (n - 1) (by omega) (by omega) y
      have hg : grow ⟨n - 1, by omega⟩ y = grow ⟨n, hn⟩ y :=
        Fin.ext (by show 1024 * ((n - 1) / 8) + y.val = 1024 * (n / 8) + y.val; omega)
      have hm : (n - 1) % 8 + 1 = n % 8 := by omega
      rw [hg, hm] at hprev
      by_cases h1 : n % 8 = 7
      · refine (acc10_last V c ⟨n, hn⟩ h0 h1 y).trans ?_
        rw [semiRow_global]
        exact step_next _ ⟨n, hn⟩ h0 _ hprev
      · refine (acc10_mid V c ⟨n, hn⟩ h0 h1 y).trans ?_
        rw [semiRow_global]
        exact step_next _ ⟨n, hn⟩ h0 _ hprev

theorem acc9_closed (c : Dev nD) (t : Fin cfg1.N) (y : Fin 1024) :
    (accAt V c t.val t.isLt).2.2.1 (ix2 y (0 : Fin 1)) = min INF (infUpTo (dnG V c (grow t y)) (t.val % 8 + 1)) :=
  acc9_closed_aux V c t.val t.isLt y
theorem acc10_closed (c : Dev nD) (t : Fin cfg1.N) (y : Fin 1024) :
    (accAt V c t.val t.isLt).2.2.2 (ix2 y (0 : Fin 1)) = min INF (infUpTo (semiG V c (grow t y)) (t.val % 8 + 1)) :=
  acc10_closed_aux V c t.val t.isLt y

/-! ## At a last column tile -/

/-- At a last column tile the first scratch column holds each row's smallest masked distance over all columns, -/
theorem acc9_last_closed (c : Dev nD) (t : Fin cfg1.N) (h1 : t.val % 8 = 7) (y : Fin 1024) :
    (accAt V c t.val t.isLt).2.2.1 (ix2 y (0 : Fin 1)) = negmin V c (grow t y) := by
  rw [acc9_closed, h1, infUpTo_eight]
  rfl
/-- and the second each row's smallest semi-hard masked distance. -/
theorem acc10_last_closed (c : Dev nD) (t : Fin cfg1.N) (h1 : t.val % 8 = 7) (y : Fin 1024) :
    (accAt V c t.val t.isLt).2.2.2 (ix2 y (0 : Fin 1)) = semimin V c (grow t y) := by
  rw [acc10_closed, h1, infUpTo_eight]
  rfl

/-- The same two facts under the names the end of the pass cites. -/
theorem acc9_final (c : Dev nD) (t : Fin cfg1.N) (h7 : t.val % 8 = 7) (y : Fin 1024) :
    (accAt V c t.val t.isLt).2.2.1 (ix2 y (0 : Fin 1)) = negmin V c (grow t y) := acc9_last_closed V c t h7 y
theorem acc10_final (c : Dev nD) (t : Fin cfg1.N) (h7 : t.val % 8 = 7) (y : Fin 1024) :
    (accAt V c t.val t.isLt).2.2.2 (ix2 y (0 : Fin 1)) = semimin V c (grow t y) := acc10_last_closed V c t h7 y

/-- So the first output column at a row is the semi-hard minimum if it stayed below the half-way value, else the plain minimum, -/
theorem acc5_last_closed (c : Dev nD) (t : Fin cfg1.N) (h0 : ¬t.val % 8 = 0) (h1 : t.val % 8 = 7) (y : Fin 1024) :
    (accAt V c t.val t.isLt).1 (ix2 y (0 : Fin 1))
      = if semimin V c (grow t y) < HALF then semimin V c (grow t y) else negmin V c (grow t y) := by
  refine (acc5_last V c t h0 h1 y).trans ?_
  exact if_congr (by rw [acc10_last_closed V c t h1 y]) (acc10_last_closed V c t h1 y) (acc9_last_closed V c t h1 y)

/-- and the second is one where the first pass's result rose above its half-way value and the plain minimum fell below its own. -/
theorem acc6_last_closed (c : Dev nD) (t : Fin cfg1.N) (h0 : ¬t.val % 8 = 0) (h1 : t.val % 8 = 7) (y : Fin 1024) :
    (accAt V c t.val t.isLt).2.1 (ix2 y (0 : Fin 1))
      = if NHALF < Dg V c (ix2 (grow t y) (0 : Fin 1)) ∧ negmin V c (grow t y) < HALF then 1 else 0 := by
  refine (acc6_last V c t h0 h1 y).trans ?_
  exact if_congr (and_congr (by rw [dapAt_global]) (by rw [acc9_last_closed V c t h1 y])) rfl rfl

end Entry

end Cert.KernelIdeal.Pass2

end
-- ==== Proof.KIPass2ValueEnd.lean ====
/- The second pass's result: the blocks written back at the last column tile of a row tile are that tile's rows of the two computed
    columns, those blocks cover the two output columns' arrays, and so the arrays end holding, at every row, the semi-hard minimum
    (or the plain one where the semi-hard one met nothing) and the flag that both a positive and a negative were met. -/
import proofs.«165275_j48198122996409_2_alg».proof.Proof.KIPass2ValueInv
import Idealize.ShloMosaic.Lib.Pipeline.Value

set_option maxRecDepth 16384

noncomputable section

namespace Cert.KernelIdeal.Pass2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- Two functions of a rank-2 index that agree at every pair of coordinates are equal. -/
theorem out_funext_ix2 {α : Type} {n0 n1 : ℕ} {f g : (⟨2, ![n0, n1]⟩ : Shape).Idx → α}
    (h : ∀ (a : Fin n0) (b : Fin n1), f (ix2 a b) = g (ix2 a b)) : f = g :=
  funext fun j => by rw [eq_ix2 j]; exact h _ _

theorem out_lt64 (t : Fin cfg1.N) : t.val < 64 := lt_of_lt_of_eq t.isLt N_1

/-- The block indices of the two output columns' windows at a grid point: row tile t / 8, -/
theorem idx5 : ∀ t : Fin cfg1.N, win1_5.index t 0 = t.val / 8 ∧ win1_5.index t 1 = 0 :=
  (by decide +kernel : ∀ t : Fin grid1.N, win1_5.index t 0 = t.val / 8 ∧ win1_5.index t 1 = 0)
theorem idx6 : ∀ t : Fin cfg1.N, win1_6.index t 0 = t.val / 8 ∧ win1_6.index t 1 = 0 :=
  (by decide +kernel : ∀ t : Fin grid1.N, win1_6.index t 0 = t.val / 8 ∧ win1_6.index t 1 = 0)
/-- and their blocks are whole: 1024 rows, one column. -/
theorem xs5 : ∀ t : Fin cfg1.N, win1_5.xsize (grid1.coords t) 0 = 1024 ∧ win1_5.xsize (grid1.coords t) 1 = 1 :=
  (by decide +kernel : ∀ t : Fin grid1.N, win1_5.xsize (grid1.coords t) 0 = 1024 ∧ win1_5.xsize (grid1.coords t) 1 = 1)
theorem xs6 : ∀ t : Fin cfg1.N, win1_6.xsize (grid1.coords t) 0 = 1024 ∧ win1_6.xsize (grid1.coords t) 1 = 1 :=
  (by decide +kernel : ∀ t : Fin grid1.N, win1_6.xsize (grid1.coords t) 0 = 1024 ∧ win1_6.xsize (grid1.coords t) 1 = 1)

/-- A block of the first output column's array, read at (y, u), is the array at (the global row of y, u). -/
theorem blk5_read (c : Dev nD) (G : Buf (Elt Ideal) ((cfg1.win 5).arr.view.loc (c : Thread nD τ))) (t : Fin cfg1.N) (y : Fin 1024) (u : Fin 1) :
    (((cfg1.win 5).blk t).view.read (Elt Ideal) G : S1024x1.Idx → EReal) (ix2 y u) = (G : S8192x1.Idx → EReal) (ix2 (grow t y) u) := by
  have hi := idx5 t
  rw [View.read_apply]
  show G _ = G _
  congr 1
  funext a; apply Fin.ext
  match a with
  | ⟨0, _⟩ => show win1_5.index t 0 * 1024 + 1 * y.val = 1024 * (t.val / 8) + y.val; rw [hi.1]; omega
  | ⟨1, _⟩ => show win1_5.index t 1 * 1 + 1 * u.val = u.val; rw [hi.2]; omega
/-- The second output column's likewise. -/
theorem blk6_read (c : Dev nD) (G : Buf (Elt Ideal) ((cfg1.win 6).arr.view.loc (c : Thread nD τ))) (t : Fin cfg1.N) (y : Fin 1024) (u : Fin 1) :
    (((cfg1.win 6).blk t).view.read (Elt Ideal) G : S1024x1.Idx → EReal) (ix2 y u) = (G : S8192x1.Idx → EReal) (ix2 (grow t y) u) := by
  have hi := idx6 t
  rw [View.read_apply]
  show G _ = G _
  congr 1
  funext a; apply Fin.ext
  match a with
  | ⟨0, _⟩ => show win1_6.index t 0 * 1024 + 1 * y.val = 1024 * (t.val / 8) + y.val; rw [hi.1]; omega
  | ⟨1, _⟩ => show win1_6.index t 1 * 1 + 1 * u.val = u.val; rw [hi.2]; omega

/-- Every row of the first output column's array is in the block written back at the last column tile of its row tile. -/
theorem cover5 (c : Dev nD) (i : ((cfg1.win 5).arr.view.loc (c : Thread nD τ)).2.ty.Idx) :
    ∃ t : Fin cfg1.N, (cfg1.win 5).flush t = true ∧ i ∈ ((cfg1.win 5).blk t).view.set := by
  have h0 : (i 0 : ℕ) < 8192 := (i 0).isLt
  have h1 : (i 1 : ℕ) < 1 := (i 1).isLt
  have hlt64 : 8 * ((i 0 : ℕ) / 1024) + 7 < 64 := by omega
  have hlt : 8 * ((i 0 : ℕ) / 1024) + 7 < cfg1.N := lt_of_lt_of_eq hlt64 N_1.symm
  refine ⟨⟨8 * ((i 0 : ℕ) / 1024) + 7, hlt⟩, (flush1_5 _).mpr (by show (8 * ((i 0 : ℕ) / 1024) + 7) % 8 = 7; omega), ?_⟩
  show i ∈ ((View.whole main_v10_0).slice (win1_5.rect ⟨8 * ((i 0 : ℕ) / 1024) + 7, hlt⟩)).set
  rw [View.set_slice_whole, Rect.mem_set_unit]
  intro a
  have hi := idx5 ⟨8 * ((i 0 : ℕ) / 1024) + 7, hlt⟩
  have hx := xs5 ⟨8 * ((i 0 : ℕ) / 1024) + 7, hlt⟩
  match a with
  | ⟨0, _⟩ =>
    show win1_5.index ⟨8 * ((i 0 : ℕ) / 1024) + 7, hlt⟩ 0 * win1_5.size 0 ≤ (i 0 : ℕ)
      ∧ (i 0 : ℕ) < win1_5.index ⟨8 * ((i 0 : ℕ) / 1024) + 7, hlt⟩ 0 * win1_5.size 0 + win1_5.xsize (grid1.coords ⟨8 * ((i 0 : ℕ) / 1024) + 7, hlt⟩) 0
    rw [hi.1, hx.1, show win1_5.size 0 = 1024 from rfl]
    show (8 * ((i 0 : ℕ) / 1024) + 7) / 8 * 1024 ≤ (i 0 : ℕ) ∧ (i 0 : ℕ) < (8 * ((i 0 : ℕ) / 1024) + 7) / 8 * 1024 + 1024
    omega
  | ⟨1, _⟩ =>
    show win1_5.index ⟨8 * ((i 0 : ℕ) / 1024) + 7, hlt⟩ 1 * win1_5.size 1 ≤ (i 1 : ℕ)
      ∧ (i 1 : ℕ) < win1_5.index ⟨8 * ((i 0 : ℕ) / 1024) + 7, hlt⟩ 1 * win1_5.size 1 + win1_5.xsize (grid1.coords ⟨8 * ((i 0 : ℕ) / 1024) + 7, hlt⟩) 1
    rw [hi.2, hx.2]
    omega
/-- The second output column's likewise. -/
theorem cover6 (c : Dev nD) (i : ((cfg1.win 6).arr.view.loc (c : Thread nD τ)).2.ty.Idx) :
    ∃ t : Fin cfg1.N, (cfg1.win 6).flush t = true ∧ i ∈ ((cfg1.win 6).blk t).view.set := by
  have h0 : (i 0 : ℕ) < 8192 := (i 0).isLt
  have h1 : (i 1 : ℕ) < 1 := (i 1).isLt
  have hlt64 : 8 * ((i 0 : ℕ) / 1024) + 7 < 64 := by omega
  have hlt : 8 * ((i 0 : ℕ) / 1024) + 7 < cfg1.N := lt_of_lt_of_eq hlt64 N_1.symm
  refine ⟨⟨8 * ((i 0 : ℕ) / 1024) + 7, hlt⟩, (flush1_6 _).mpr (by show (8 * ((i 0 : ℕ) / 1024) + 7) % 8 = 7; omega), ?_⟩
  show i ∈ ((View.whole main_v10_1).slice (win1_6.rect ⟨8 * ((i 0 : ℕ) / 1024) + 7, hlt⟩)).set
  rw [View.set_slice_whole, Rect.mem_set_unit]
  intro a
  have hi := idx6 ⟨8 * ((i 0 : ℕ) / 1024) + 7, hlt⟩
  have hx := xs6 ⟨8 * ((i 0 : ℕ) / 1024) + 7, hlt⟩
  match a with
  | ⟨0, _⟩ =>
    show win1_6.index ⟨8 * ((i 0 : ℕ) / 1024) + 7, hlt⟩ 0 * win1_6.size 0 ≤ (i 0 : ℕ)
      ∧ (i 0 : ℕ) < win1_6.index ⟨8 * ((i 0 : ℕ) / 1024) + 7, hlt⟩ 0 * win1_6.size 0 + win1_6.xsize (grid1.coords ⟨8 * ((i 0 : ℕ) / 1024) + 7, hlt⟩) 0
    rw [hi.1, hx.1, show win1_6.size 0 = 1024 from rfl]
    show (8 * ((i 0 : ℕ) / 1024) + 7) / 8 * 1024 ≤ (i 0 : ℕ) ∧ (i 0 : ℕ) < (8 * ((i 0 : ℕ) / 1024) + 7) / 8 * 1024 + 1024
    omega
  | ⟨1, _⟩ =>
    show win1_6.index ⟨8 * ((i 0 : ℕ) / 1024) + 7, hlt⟩ 1 * win1_6.size 1 ≤ (i 1 : ℕ)
      ∧ (i 1 : ℕ) < win1_6.index ⟨8 * ((i 0 : ℕ) / 1024) + 7, hlt⟩ 1 * win1_6.size 1 + win1_6.xsize (grid1.coords ⟨8 * ((i 0 : ℕ) / 1024) + 7, hlt⟩) 1
    rw [hi.2, hx.2]
    omega

section AtIdeal
variable (V : (c : Dev nD) → (b : Ref sig .tc) → Buf (Elt Ideal) ((c : Thread nD τ).loc b))

/-- The first output column the pass computes: at row r the smallest semi-hard masked distance if it stayed below the half-way
    value, else the smallest masked distance. -/
def col5 (c : Dev nD) : S8192x1.Idx → EReal := fun i =>
  if semimin V c ⟨(i 0).val, idx2_lt0 i⟩ < HALF then semimin V c ⟨(i 0).val, idx2_lt0 i⟩ else negmin V c ⟨(i 0).val, idx2_lt0 i⟩
/-- The second: one where the first pass's result at r rose above its half-way value and the smallest masked distance fell below its
    own, zero elsewhere. -/
def col6 (c : Dev nD) : S8192x1.Idx → EReal := fun i =>
  if NHALF < Dg V c (ix2 ⟨(i 0).val, idx2_lt0 i⟩ (0 : Fin 1)) ∧ negmin V c ⟨(i 0).val, idx2_lt0 i⟩ < HALF then 1 else 0

/-- What a write-back of the first output column writes is its block of the computed column. -/
theorem flushed5_eq (c : Dev nD) (t : Fin cfg1.N) (hf : (cfg1.win 5).flush t = true) :
    (dat V c).flushed 5 t = ((cfg1.win 5).blk t).view.read (Elt Ideal) (col5 V c) := by
  have h7 : t.val % 8 = 7 := (flush1_5 t).mp hf
  have h0 : ¬t.val % 8 = 0 := by omega
  show ((cfg1.win 5).cut (grid1.coords t) ((dat V c).after 5 t) : S1024x1.Idx → EReal) = _
  rw [after5]
  refine out_funext_ix2 fun y u => ?_
  obtain rfl : u = 0 := Subsingleton.elim _ _
  rw [blk5_read c (col5 V c) t y 0]
  show (accAt V c t.val t.isLt).1 (ix2 y (0 : Fin 1)) = _
  rw [acc5_last_closed V c t h0 h7 y]
  rfl
/-- The second output column's likewise. -/
theorem flushed6_eq (c : Dev nD) (t : Fin cfg1.N) (hf : (cfg1.win 6).flush t = true) :
    (dat V c).flushed 6 t = ((cfg1.win 6).blk t).view.read (Elt Ideal) (col6 V c) := by
  have h7 : t.val % 8 = 7 := (flush1_6 t).mp hf
  have h0 : ¬t.val % 8 = 0 := by omega
  show ((cfg1.win 6).cut (grid1.coords t) ((dat V c).after 6 t) : S1024x1.Idx → EReal) = _
  rw [after6]
  refine out_funext_ix2 fun y u => ?_
  obtain rfl : u = 0 := Subsingleton.elim _ _
  rw [blk6_read c (col6 V c) t y 0]
  show (accAt V c t.val t.isLt).2.1 (ix2 y (0 : Fin 1)) = _
  rw [acc6_last_closed V c t h0 h7 y]
  rfl

/-- THE OUTPUT COLUMNS: when the pass is left their arrays hold the computed columns. -/
theorem final5 (c : Dev nD) : (dat V c).arrAt 5 cfg1.N = col5 V c :=
  (dat V c).arrAt_eq_of_cover 5 (col5 V c) (flushed5_eq V c) (cover5 c)
theorem final6 (c : Dev nD) : (dat V c).arrAt 6 cfg1.N = col6 V c :=
  (dat V c).arrAt_eq_of_cover 6 (col6 V c) (flushed6_eq V c) (cover6 c)

/-- Read at a row. -/
theorem pass2_value5 (c : Dev nD) (r : Fin 8192) :
    ((dat V c).arrAt 5 cfg1.N : S8192x1.Idx → EReal) (ix2 r (0 : Fin 1))
      = if semimin V c r < HALF then semimin V c r else negmin V c r := by
  rw [final5 V c]
  rfl
theorem pass2_value6 (c : Dev nD) (r : Fin 8192) :
    ((dat V c).arrAt 6 cfg1.N : S8192x1.Idx → EReal) (ix2 r (0 : Fin 1))
      = (if NHALF < Dg V c (ix2 r (0 : Fin 1)) ∧ negmin V c r < HALF then 1 else 0 : EReal) := by
  rw [final6 V c]
  rfl

end AtIdeal

end Cert.KernelIdeal.Pass2

end
-- ==== Proof.KICol23.lean ====
/- The second pass's two columns at a row: the chosen negative distance and the flag, as running minima from the positive fill over the
   masked distances, compared with the half-way values — over the reference's distances and labels, the first pass's column being the
   hardest-positive distance. -/
import proofs.«165275_j48198122996409_2_alg».proof.Proof.KICol1
import proofs.«165275_j48198122996409_2_alg».proof.Proof.KIPass2ValueEnd

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Cert.ReferenceIdeal.Rows Cert.Lib.Sentinel

variable (m : (ℓ : Loc nD τ sig) → Buf (Elt Ideal) ℓ) [Cert.ReferenceIdeal.Facts]

/-- The masked distance the second pass forms is the reference's distance with the fill value where the labels agree. -/
theorem dn_eq (c : Dev nD) (r q : Fin 8192) :
    Pass2.dnG (Vin1 m) c r q
      = kerDn (Cert.ReferenceIdeal.Rows.dist (m ((c : Thread nD τ).loc main_arg0))) (same (m ((c : Thread nD τ).loc main_arg1))) INF r q := by
  unfold Pass2.dnG kerDn
  refine if_congr ?_ rfl ?_
  · unfold Pass2.LRg Pass2.LCg
    rw [in1_v7, in1_v8, in0_v7, in0_v8]
    rfl
  · unfold Cert.ReferenceIdeal.Rows.dist
    refine congrArg (Pass2.ONE - ·) (Finset.sum_congr rfl fun k _ => ?_)
    have e : ∀ p : Fin 8192, Pass2.Xg (Vin1 m) c (ix2 p k)
        = Cert.ReferenceIdeal.ReadP.val_main_v2 (F := Ideal) (m ((c : Thread nD τ).loc main_arg0)) (ix2 p k) := fun p => by
      unfold Pass2.Xg; rw [in1_v6]; exact in0_v6 m c p k
    rw [e r, e q]

/-- The first pass's column, as the second pass reads it, is the hardest-positive distance. -/
theorem D_eq (c : Dev nD) (r : Fin 8192) :
    Pass2.Dg (Vin1 m) c (ix2 r (0 : Fin 1))
      = refDap (Cert.ReferenceIdeal.Rows.dist (m ((c : Thread nD τ).loc main_arg0))) (same (m ((c : Thread nD τ).loc main_arg1))) NEG r := by
  unfold Pass2.Dg
  rw [in1_v9, col1]
  exact kerDap_eq (Cert.ReferenceIdeal.Rows.dist (m ((c : Thread nD τ).loc main_arg0))) (same (m ((c : Thread nD τ).loc main_arg1))) NEG (fun _ => rfl) r

theorem negmin_eq (c : Dev nD) (r : Fin 8192) :
    Pass2.negmin (Vin1 m) c r
      = kerNegMin (Cert.ReferenceIdeal.Rows.dist (m ((c : Thread nD τ).loc main_arg0))) (same (m ((c : Thread nD τ).loc main_arg1))) INF r := by
  unfold Pass2.negmin kerNegMin
  exact congrArg (min INF) (Finset.inf_congr rfl fun q _ => dn_eq m c r q)

theorem semimin_eq (c : Dev nD) (r : Fin 8192) :
    Pass2.semimin (Vin1 m) c r
      = kerSemiMin (Cert.ReferenceIdeal.Rows.dist (m ((c : Thread nD τ).loc main_arg0))) (same (m ((c : Thread nD τ).loc main_arg1))) INF
          (refDap (Cert.ReferenceIdeal.Rows.dist (m ((c : Thread nD τ).loc main_arg0))) (same (m ((c : Thread nD τ).loc main_arg1))) NEG) r := by
  unfold Pass2.semimin Pass2.semiG kerSemiMin
  refine congrArg (min INF) (Finset.inf_congr rfl fun q _ => ?_)
  exact if_congr (by rw [D_eq, dn_eq]) (dn_eq m c r q) rfl

set_option maxHeartbeats 4000000 in
/-- Row `r` of the second pass's first column: the chosen negative distance. -/
theorem col2 (c : Dev nD) (r : Fin 8192) :
    (res10a m c : S8192x1.Idx → EReal) (ix2 r (0 : Fin 1))
      = kerDan (Cert.ReferenceIdeal.Rows.dist (m ((c : Thread nD τ).loc main_arg0))) (same (m ((c : Thread nD τ).loc main_arg1))) INF HALF
          (refDap (Cert.ReferenceIdeal.Rows.dist (m ((c : Thread nD τ).loc main_arg0))) (same (m ((c : Thread nD τ).loc main_arg1))) NEG) r := by
  unfold res10a
  rw [Pass2.pass2_value5 (Vin1 m) c r]
  unfold kerDan
  exact if_congr (by rw [semimin_eq]) (semimin_eq m c r) (negmin_eq m c r)

set_option maxHeartbeats 4000000 in
/-- Row `r` of the second pass's second column: one where the anchor counts, zero elsewhere. -/
theorem col3 (c : Dev nD) (r : Fin 8192) :
    (res10b m c : S8192x1.Idx → EReal) (ix2 r (0 : Fin 1))
      = if NHALF < refDap (Cert.ReferenceIdeal.Rows.dist (m ((c : Thread nD τ).loc main_arg0))) (same (m ((c : Thread nD τ).loc main_arg1))) NEG r
            ∧ kerNegMin (Cert.ReferenceIdeal.Rows.dist (m ((c : Thread nD τ).loc main_arg0))) (same (m ((c : Thread nD τ).loc main_arg1))) INF r < HALF
          then (1 : EReal) else 0 := by
  unfold res10b
  rw [Pass2.pass2_value6 (Vin1 m) c r]
  exact if_congr (by rw [D_eq, negmin_eq]) rfl rfl

end Cert.KernelIdeal.Run

end
-- ==== Proof.RefValueRunP.lean ====
/-
  The reference program's run WITH its value. The line of 72 host operations (`ops`, of the run module) is cut in six
  consecutive pieces; the valuation after the whole line is the pieces' valuations composed (`after_append`). Each piece is
  read over an arbitrary valuation, so its result is a small term over the few buffers it takes from earlier pieces: the
  pairwise distances `main_v6`, the constant `main_cst`, the label masks `main_v18` / `main_v19`, the hardest positive
  `main_v22`, the semi-hard mask `main_v26`, the three reductions `main_v28` / `main_v30` / `main_v31`, the chosen negative
  `main_v32` and the valid rows `main_v35`. Going through the pieces in order, each of these buffers is shown to hold its
  stage `val_main_vN` (the read module's, a function of the two arguments), a shared buffer being named once and never
  expanded. At the end the result buffer `main_v46` holds `val_main_v46` of the arguments' launch contents, at any float
  values `F`.
-/
import proofs.«165275_j48198122996409_2_alg».proof.Proof.RefRunP
import proofs.«165275_j48198122996409_2_alg».proof.Proof.RefReadP
import Idealize.ShloMosaic.Lib.Pipeline.Frame

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The line in six pieces

`ops = opsA ++ opsB ++ opsC ++ opsD ++ opsE ++ opsG`. Each piece is read over an ARBITRARY valuation `V`: what it
writes, as the operations' functions of what `V` holds at the few buffers the piece reads from earlier pieces, and
that it leaves alone the buffers later pieces still read. No statement mentions the composed term of a whole result. -/

/-- The normalised rows' pairwise distances `main_v6`, and the constant `main_cst`. -/
abbrev opsA : List (HloOp τ sig (Elt F)) :=
  [ nullary main_cst (constant S_ .f32 0x7149F2CA#32),
    TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    unary main_v0 main_v1 (broadcastInDim S8192x128 ![0, 1] bcast_S8192x1_S8192x128_0_1 : (⟨S8192x1, .f32⟩ : BufTy).Contents (Elt F) → (⟨S8192x128, .f32⟩ : BufTy).Contents (Elt F)),
    binary main_arg0 main_v1 main_v2 (Host.divf : (⟨S8192x128, .f32⟩ : BufTy).Contents (Elt F) → (⟨S8192x128, .f32⟩ : BufTy).Contents (Elt F) → (⟨S8192x128, .f32⟩ : BufTy).Contents (Elt F)),
    unary main_v2 main_v3 ((transpose S128x8192 [1, 0] · transposes_S8192x128_S128x8192_1_0) : (⟨S8192x128, .f32⟩ : BufTy).Contents (Elt F) → (⟨S128x8192, .f32⟩ : BufTy).Contents (Elt F)),
    binary main_v2 main_v3 main_v4 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F800000#32),
    unary main_cst_0 main_v5 (broadcastInDim S8192x8192 ![] bcast_S_S8192x8192 : (⟨S_, .f32⟩ : BufTy).Contents (Elt F) → (⟨S8192x8192, .f32⟩ : BufTy).Contents (Elt F)),
    binary main_v5 main_v4 main_v6 (subf : (⟨S8192x8192, .f32⟩ : BufTy).Contents (Elt F) → (⟨S8192x8192, .f32⟩ : BufTy).Contents (Elt F) → (⟨S8192x8192, .f32⟩ : BufTy).Contents (Elt F)) ]
/-- The label masks `main_v18` (positives), `main_v19` (negatives) and the hardest positive `main_v22`. -/
abbrev opsB : List (HloOp τ sig (Elt F)) :=
  [ unary main_arg1 main_v7 (broadcastInDim S8192x1 ![0] bcast_S8192_S8192x1_0 : (⟨S8192, .i32⟩ : BufTy).Contents (Elt F) → (⟨S8192x1, .i32⟩ : BufTy).Contents (Elt F)),
    unary main_arg1 main_v8 (broadcastInDim S1x8192 ![1] bcast_S8192_S1x8192_1 : (⟨S8192, .i32⟩ : BufTy).Contents (Elt F) → (⟨S1x8192, .i32⟩ : BufTy).Contents (Elt F)),
    unary main_v7 main_v9 (broadcastInDim S8192x8192 ![0, 1] bcast_S8192x1_S8192x8192_0_1 : (⟨S8192x1, .i32⟩ : BufTy).Contents (Elt F) → (⟨S8192x8192, .i32⟩ : BufTy).Contents (Elt F)),
    unary main_v8 main_v10 (broadcastInDim S8192x8192 ![0, 1] bcast_S1x8192_S8192x8192_0_1 : (⟨S1x8192, .i32⟩ : BufTy).Contents (Elt F) → (⟨S8192x8192, .i32⟩ : BufTy).Contents (Elt F)),
    binary main_v9 main_v10 main_v11 (cmpi .eq : (⟨S8192x8192, .i32⟩ : BufTy).Contents (Elt F) → (⟨S8192x8192, .i32⟩ : BufTy).Contents (Elt F) → (⟨S8192x8192, .i1⟩ : BufTy).Contents (Elt F)),
    nullary main_v12 (iotaInDim S8192x8192 32 0),
    nullary main_v13 (iotaInDim S8192x8192 32 1),
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_v12 main_v14 main_v15 (addi : (⟨S8192x8192, .i32⟩ : BufTy).Contents (Elt F) → (⟨S8192x8192, .i32⟩ : BufTy).Contents (Elt F) → (⟨S8192x8192, .i32⟩ : BufTy).Contents (Elt F)),
    binary main_v15 main_v13 main_v16 (cmpi .eq : (⟨S8192x8192, .i32⟩ : BufTy).Contents (Elt F) → (⟨S8192x8192, .i32⟩ : BufTy).Contents (Elt F) → (⟨S8192x8192, .i1⟩ : BufTy).Contents (Elt F)),
    unary main_v16 main_v17 (noti : (⟨S8192x8192, .i1⟩ : BufTy).Contents (Elt F) → (⟨S8192x8192, .i1⟩ : BufTy).Contents (Elt F)),
    binary main_v11 main_v17 main_v18 (andi : (⟨S8192x8192, .i1⟩ : BufTy).Contents (Elt F) → (⟨S8192x8192, .i1⟩ : BufTy).Contents (Elt F) → (⟨S8192x8192, .i1⟩ : BufTy).Contents (Elt F)),
    unary main_v11 main_v19 (noti : (⟨S8192x8192, .i1⟩ : BufTy).Contents (Elt F) → (⟨S8192x8192, .i1⟩ : BufTy).Contents (Elt F)),
    unary main_cst main_v20 (Host.negf : (⟨S_, .f32⟩ : BufTy).Contents (Elt F) → (⟨S_, .f32⟩ : BufTy).Contents (Elt F)),
    TRef.unary (TRef.of (T := ⟨S_, .f32⟩) main_v20) (TRef.of (T := ⟨S8192x8192, .f32⟩) main_call1_v0) (broadcastInDim S8192x8192 ![] bcast_S_S8192x8192),
    TRef.ternary (TRef.of (T := ⟨S8192x8192, .i1⟩) main_v18) (TRef.of (T := ⟨S8192x8192, .f32⟩) main_v6) (TRef.of (T := ⟨S8192x8192, .f32⟩) main_call1_v0) (TRef.of (T := ⟨S8192x8192, .f32⟩) main_v21) select,
    nullary main_cst_1 (constant S_ .f32 0xFF800000#32),
    binary main_v21 main_cst_1 main_v22 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
/-- The semi-hard mask `main_v26` and the least semi-hard distance `main_v28`. -/
abbrev opsC : List (HloOp τ sig (Elt F)) :=
  [ unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8192 ![0, 1] bcast_S8192x1_S8192x8192_0_1 : (⟨S8192x1, .f32⟩ : BufTy).Contents (Elt F) → (⟨S8192x8192, .f32⟩ : BufTy).Contents (Elt F)),
    binary main_v6 main_v24 main_v25 (cmpf .ogt : (⟨S8192x8192, .f32⟩ : BufTy).Contents (Elt F) → (⟨S8192x8192, .f32⟩ : BufTy).Contents (Elt F) → (⟨S8192x8192, .i1⟩ : BufTy).Contents (Elt F)),
    binary main_v19 main_v25 main_v26 (andi : (⟨S8192x8192, .i1⟩ : BufTy).Contents (Elt F) → (⟨S8192x8192, .i1⟩ : BufTy).Contents (Elt F) → (⟨S8192x8192, .i1⟩ : BufTy).Contents (Elt F)),
    TRef.unary (TRef.of (T := ⟨S_, .f32⟩) main_cst) (TRef.of (T := ⟨S8192x8192, .f32⟩) main_call2_v0) (broadcastInDim S8192x8192 ![] bcast_S_S8192x8192),
    TRef.ternary (TRef.of (T := ⟨S8192x8192, .i1⟩) main_v26) (TRef.of (T := ⟨S8192x8192, .f32⟩) main_v6) (TRef.of (T := ⟨S8192x8192, .f32⟩) main_call2_v0) (TRef.of (T := ⟨S8192x8192, .f32⟩) main_v27) select,
    nullary main_cst_2 (constant S_ .f32 0x7F800000#32),
    binary main_v27 main_cst_2 main_v28 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
/-- The least negative distance `main_v30`, and whether the row has a semi-hard negative, `main_v31`. -/
abbrev opsD : List (HloOp τ sig (Elt F)) :=
  [ TRef.unary (TRef.of (T := ⟨S_, .f32⟩) main_cst) (TRef.of (T := ⟨S8192x8192, .f32⟩) main_call3_v0) (broadcastInDim S8192x8192 ![] bcast_S_S8192x8192),
    TRef.ternary (TRef.of (T := ⟨S8192x8192, .i1⟩) main_v19) (TRef.of (T := ⟨S8192x8192, .f32⟩) main_v6) (TRef.of (T := ⟨S8192x8192, .f32⟩) main_call3_v0) (TRef.of (T := ⟨S8192x8192, .f32⟩) main_v29) select,
    nullary main_cst_3 (constant S_ .f32 0x7F800000#32),
    binary main_v29 main_cst_3 main_v30 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_4 (constantI S_ 1 0#1),
    binary main_v26 main_c_4 main_v31 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]
/-- The chosen negative distance `main_v32`, and the rows that have both a positive and a negative, `main_v35`. -/
abbrev opsE : List (HloOp τ sig (Elt F)) :=
  [ TRef.ternary (TRef.of (T := ⟨S8192, .i1⟩) main_v31) (TRef.of (T := ⟨S8192, .f32⟩) main_v28) (TRef.of (T := ⟨S8192, .f32⟩) main_v30) (TRef.of (T := ⟨S8192, .f32⟩) main_v32) select,
    nullary main_c_5 (constantI S_ 1 0#1),
    binary main_v18 main_c_5 main_v33 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_6 (constantI S_ 1 0#1),
    binary main_v19 main_c_6 main_v34 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    binary main_v33 main_v34 main_v35 (andi : (⟨S8192, .i1⟩ : BufTy).Contents (Elt F) → (⟨S8192, .i1⟩ : BufTy).Contents (Elt F) → (⟨S8192, .i1⟩ : BufTy).Contents (Elt F)) ]
/-- The scalar tail: the mean over the valid rows, `main_v46`. -/
abbrev opsG : List (HloOp τ sig (Elt F)) :=
  [ binary main_v22 main_v32 main_v36 (subf : (⟨S8192, .f32⟩ : BufTy).Contents (Elt F) → (⟨S8192, .f32⟩ : BufTy).Contents (Elt F) → (⟨S8192, .f32⟩ : BufTy).Contents (Elt F)),
    nullary main_cst_7 (constant S_ .f32 0x3E4CCCCD#32),
    unary main_cst_7 main_v37 (broadcastInDim S8192 ![] bcast_S_S8192 : (⟨S_, .f32⟩ : BufTy).Contents (Elt F) → (⟨S8192, .f32⟩ : BufTy).Contents (Elt F)),
    binary main_v36 main_v37 main_v38 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192, .f32⟩) main_call5_v0) (broadcastInDim S8192 ![] bcast_S_S8192),
    TRef.binary (TRef.of (T := ⟨S8192, .f32⟩) main_v38) (TRef.of (T := ⟨S8192, .f32⟩) main_call5_v0) (TRef.of (T := ⟨S8192, .f32⟩) main_v39) maximumf,
    unary main_v35 main_v40 ((extui 32 · natLt_1_32) : (⟨S8192, .i1⟩ : BufTy).Contents (Elt F) → (⟨S8192, .i32⟩ : BufTy).Contents (Elt F)),
    nullary main_c_8 (constantI S_ 32 0#32),
    binary main_v40 main_c_8 main_v41 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v35) (TRef.of (T := ⟨S8192, .f32⟩) main_v39) (TRef.of (T := ⟨S8192, .f32⟩) main_call6_v1) (TRef.of (T := ⟨S8192, .f32⟩) main_v42) select,
    nullary main_cst_10 (constant S_ .f32 0x00000000#32),
    binary main_v42 main_cst_10 main_v43 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_11 (constantI S_ 32 1#32),
    binary main_v41 main_c_11 main_v44 (maxsi : (⟨S_, .i32⟩ : BufTy).Contents (Elt F) → (⟨S_, .i32⟩ : BufTy).Contents (Elt F) → (⟨S_, .i32⟩ : BufTy).Contents (Elt F)),
    unary main_v44 main_v45 (sitofp .f32 : (⟨S_, .i32⟩ : BufTy).Contents (Elt F) → (⟨S_, .f32⟩ : BufTy).Contents (Elt F)),
    binary main_v43 main_v45 main_v46 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsA ++ (opsB ++ (opsC ++ (opsD ++ (opsE ++ opsG)))) := rfl

/-! ### Piece A -/

theorem A_v6 (V : Valuation τ sig (Elt F)) :
    after opsA V (Proc.devRef .tc main_v6) = val_main_v6 (F := F) (V (Proc.devRef .tc main_arg0)) := by
  after_results_simp <;> rfl
theorem A_cst (V : Valuation τ sig (Elt F)) :
    after opsA V (Proc.devRef .tc main_cst) = val_main_cst (F := F) := by
  after_results_simp <;> rfl
theorem A_arg1 (V : Valuation τ sig (Elt F)) :
    after opsA V (Proc.devRef .tc main_arg1) = V (Proc.devRef .tc main_arg1) := by
  after_results_simp <;> rfl

/-! ### Piece B -/

theorem B_v18 (V : Valuation τ sig (Elt F)) :
    after opsB V (Proc.devRef .tc main_v18) = val_main_v18 (F := F) (V (Proc.devRef .tc main_arg1)) := by
  after_results_simp <;> rfl
theorem B_v19 (V : Valuation τ sig (Elt F)) :
    after opsB V (Proc.devRef .tc main_v19) = val_main_v19 (F := F) (V (Proc.devRef .tc main_arg1)) := by
  after_results_simp <;> rfl
theorem B_v22 (V : Valuation τ sig (Elt F)) :
    after opsB V (Proc.devRef .tc main_v22)
      = Host.reduce FloatOps.maximumf (select (val_main_v18 (F := F) (V (Proc.devRef .tc main_arg1))) (V (Proc.devRef .tc main_v6)) (broadcastInDim S8192x8192 ![] bcast_S_S8192x8192 (Host.negf (V (Proc.devRef .tc main_cst)))))
          (val_main_cst_1 (F := F)) reducesTo_S8192x8192_S8192_d1 h_S_ := by
  after_results_simp <;> rfl
theorem B_v6 (V : Valuation τ sig (Elt F)) :
    after opsB V (Proc.devRef .tc main_v6) = V (Proc.devRef .tc main_v6) := by
  after_results_simp <;> rfl
theorem B_cst (V : Valuation τ sig (Elt F)) :
    after opsB V (Proc.devRef .tc main_cst) = V (Proc.devRef .tc main_cst) := by
  after_results_simp <;> rfl

/-! ### Piece C -/

theorem C_v26 (V : Valuation τ sig (Elt F)) :
    after opsC V (Proc.devRef .tc main_v26) = andi (V (Proc.devRef .tc main_v19)) (cmpf .ogt (V (Proc.devRef .tc main_v6)) (broadcastInDim S8192x8192 ![0, 1] bcast_S8192x1_S8192x8192_0_1 (broadcastInDim S8192x1 ![0] bcast_S8192_S8192x1_0 (V (Proc.devRef .tc main_v22))))) := by
  after_results_simp <;> rfl
theorem C_v28 (V : Valuation τ sig (Elt F)) :
    after opsC V (Proc.devRef .tc main_v28)
      = Host.reduce FloatOps.minimumf (select (andi (V (Proc.devRef .tc main_v19)) (cmpf .ogt (V (Proc.devRef .tc main_v6)) (broadcastInDim S8192x8192 ![0, 1] bcast_S8192x1_S8192x8192_0_1 (broadcastInDim S8192x1 ![0] bcast_S8192_S8192x1_0 (V (Proc.devRef .tc main_v22)))))) (V (Proc.devRef .tc main_v6)) (broadcastInDim S8192x8192 ![] bcast_S_S8192x8192 (V (Proc.devRef .tc main_cst))))
          (val_main_cst_2 (F := F)) reducesTo_S8192x8192_S8192_d1 h_S_ := by
  after_results_simp <;> rfl
theorem C_v6 (V : Valuation τ sig (Elt F)) :
    after opsC V (Proc.devRef .tc main_v6) = V (Proc.devRef .tc main_v6) := by
  after_results_simp <;> rfl
theorem C_cst (V : Valuation τ sig (Elt F)) :
    after opsC V (Proc.devRef .tc main_cst) = V (Proc.devRef .tc main_cst) := by
  after_results_simp <;> rfl
theorem C_v18 (V : Valuation τ sig (Elt F)) :
    after opsC V (Proc.devRef .tc main_v18) = V (Proc.devRef .tc main_v18) := by
  after_results_simp <;> rfl
theorem C_v19 (V : Valuation τ sig (Elt F)) :
    after opsC V (Proc.devRef .tc main_v19) = V (Proc.devRef .tc main_v19) := by
  after_results_simp <;> rfl
theorem C_v22 (V : Valuation τ sig (Elt F)) :
    after opsC V (Proc.devRef .tc main_v22) = V (Proc.devRef .tc main_v22) := by
  after_results_simp <;> rfl

/-! ### Piece D -/

theorem D_v30 (V : Valuation τ sig (Elt F)) :
    after opsD V (Proc.devRef .tc main_v30)
      = Host.reduce FloatOps.minimumf (select (V (Proc.devRef .tc main_v19)) (V (Proc.devRef .tc main_v6)) (broadcastInDim S8192x8192 ![] bcast_S_S8192x8192 (V (Proc.devRef .tc main_cst)))) (val_main_cst_3 (F := F)) reducesTo_S8192x8192_S8192_d1 h_S_ := by
  after_results_simp <;> rfl
theorem D_v31 (V : Valuation τ sig (Elt F)) :
    after opsD V (Proc.devRef .tc main_v31) = Host.reduce IntOp.ori (V (Proc.devRef .tc main_v26)) (val_main_c_4 (F := F)) reducesTo_S8192x8192_S8192_d1 h_S_ := by
  after_results_simp <;> rfl
theorem D_v18 (V : Valuation τ sig (Elt F)) :
    after opsD V (Proc.devRef .tc main_v18) = V (Proc.devRef .tc main_v18) := by
  after_results_simp <;> rfl
theorem D_v19 (V : Valuation τ sig (Elt F)) :
    after opsD V (Proc.devRef .tc main_v19) = V (Proc.devRef .tc main_v19) := by
  after_results_simp <;> rfl
theorem D_v22 (V : Valuation τ sig (Elt F)) :
    after opsD V (Proc.devRef .tc main_v22) = V (Proc.devRef .tc main_v22) := by
  after_results_simp <;> rfl
theorem D_v28 (V : Valuation τ sig (Elt F)) :
    after opsD V (Proc.devRef .tc main_v28) = V (Proc.devRef .tc main_v28) := by
  after_results_simp <;> rfl

/-! ### Piece E -/

theorem E_v32 (V : Valuation τ sig (Elt F)) :
    after opsE V (Proc.devRef .tc main_v32) = select (V (Proc.devRef .tc main_v31)) (V (Proc.devRef .tc main_v28)) (V (Proc.devRef .tc main_v30)) := by
  after_results_simp <;> rfl
theorem E_v35 (V : Valuation τ sig (Elt F)) :
    after opsE V (Proc.devRef .tc main_v35)
      = andi (Host.reduce IntOp.ori (V (Proc.devRef .tc main_v18)) (val_main_c_5 (F := F)) reducesTo_S8192x8192_S8192_d1 h_S_)
          (Host.reduce IntOp.ori (V (Proc.devRef .tc main_v19)) (val_main_c_6 (F := F)) reducesTo_S8192x8192_S8192_d1 h_S_) := by
  after_results_simp <;> rfl
theorem E_v22 (V : Valuation τ sig (Elt F)) :
    after opsE V (Proc.devRef .tc main_v22) = V (Proc.devRef .tc main_v22) := by
  after_results_simp <;> rfl

/-! ### Piece G -/

theorem G_v46 (V : Valuation τ sig (Elt F)) :
    after opsG V (Proc.devRef .tc main_v46)
      = Host.divf
          (Host.reduceAdd (select (V (Proc.devRef .tc main_v35)) (maximumf (addf (subf (V (Proc.devRef .tc main_v22)) (V (Proc.devRef .tc main_v32))) (val_main_v37 (F := F))) (val_main_call5_v0 (F := F)))
              (val_main_call6_v1 (F := F))) (val_main_cst_10 (F := F)) reducesTo_S8192_S_d0 h_S_)
          (sitofp .f32 (maxsi (Host.reduce IntOp.addi (extui 32 (V (Proc.devRef .tc main_v35)) natLt_1_32) (val_main_c_8 (F := F)) reducesTo_S8192_S_d0 h_S_)
              (val_main_c_11 (F := F)))) := by
  after_results_simp <;> rfl

/-! ## The pieces in a row

`VA V … VE V`: the valuation after each piece, from `V`. Each live buffer is held at its stage of the two arguments
`V main_arg0`, `V main_arg1` (the stages `val_main_vN` of the read module): a piece's own results by its lemma above and
the facts of the piece before, the others carried along. -/

abbrev VA (V : Valuation τ sig (Elt F)) : Valuation τ sig (Elt F) := after opsA V
abbrev VB (V : Valuation τ sig (Elt F)) : Valuation τ sig (Elt F) := after opsB (VA V)
abbrev VC (V : Valuation τ sig (Elt F)) : Valuation τ sig (Elt F) := after opsC (VB V)
abbrev VD (V : Valuation τ sig (Elt F)) : Valuation τ sig (Elt F) := after opsD (VC V)
abbrev VE (V : Valuation τ sig (Elt F)) : Valuation τ sig (Elt F) := after opsE (VD V)

section Chain

variable (V : Valuation τ sig (Elt F))

theorem a_v6 : VA V (Proc.devRef .tc main_v6) = val_main_v6 (F := F) (V (Proc.devRef .tc main_arg0)) := A_v6 V
theorem a_cst : VA V (Proc.devRef .tc main_cst) = val_main_cst (F := F) := A_cst V
theorem a_arg1 : VA V (Proc.devRef .tc main_arg1) = (V (Proc.devRef .tc main_arg1)) := A_arg1 V

theorem b_v6 : VB V (Proc.devRef .tc main_v6) = val_main_v6 (F := F) (V (Proc.devRef .tc main_arg0)) := (B_v6 (VA V)).trans (a_v6 V)
theorem b_cst : VB V (Proc.devRef .tc main_cst) = val_main_cst (F := F) := (B_cst (VA V)).trans (a_cst V)
theorem b_v18 : VB V (Proc.devRef .tc main_v18) = val_main_v18 (F := F) (V (Proc.devRef .tc main_arg1)) := (B_v18 (VA V)).trans (congrArg (val_main_v18 (F := F)) (a_arg1 V))
theorem b_v19 : VB V (Proc.devRef .tc main_v19) = val_main_v19 (F := F) (V (Proc.devRef .tc main_arg1)) := (B_v19 (VA V)).trans (congrArg (val_main_v19 (F := F)) (a_arg1 V))
theorem b_v22 : VB V (Proc.devRef .tc main_v22) = val_main_v22 (F := F) (V (Proc.devRef .tc main_arg0)) (V (Proc.devRef .tc main_arg1)) := by
  rw [VB, B_v22, a_v6, a_cst, a_arg1]; rfl

theorem c_v6 : VC V (Proc.devRef .tc main_v6) = val_main_v6 (F := F) (V (Proc.devRef .tc main_arg0)) := (C_v6 (VB V)).trans (b_v6 V)
theorem c_cst : VC V (Proc.devRef .tc main_cst) = val_main_cst (F := F) := (C_cst (VB V)).trans (b_cst V)
theorem c_v18 : VC V (Proc.devRef .tc main_v18) = val_main_v18 (F := F) (V (Proc.devRef .tc main_arg1)) := (C_v18 (VB V)).trans (b_v18 V)
theorem c_v19 : VC V (Proc.devRef .tc main_v19) = val_main_v19 (F := F) (V (Proc.devRef .tc main_arg1)) := (C_v19 (VB V)).trans (b_v19 V)
theorem c_v22 : VC V (Proc.devRef .tc main_v22) = val_main_v22 (F := F) (V (Proc.devRef .tc main_arg0)) (V (Proc.devRef .tc main_arg1)) := (C_v22 (VB V)).trans (b_v22 V)
theorem c_v26 : VC V (Proc.devRef .tc main_v26) = val_main_v26 (F := F) (V (Proc.devRef .tc main_arg0)) (V (Proc.devRef .tc main_arg1)) := by
  rw [VC, C_v26, b_v19, b_v6, b_v22]; rfl
theorem c_v28 : VC V (Proc.devRef .tc main_v28) = val_main_v28 (F := F) (V (Proc.devRef .tc main_arg0)) (V (Proc.devRef .tc main_arg1)) := by
  rw [VC, C_v28, b_v19, b_v6, b_v22, b_cst]; rfl

theorem d_v18 : VD V (Proc.devRef .tc main_v18) = val_main_v18 (F := F) (V (Proc.devRef .tc main_arg1)) := (D_v18 (VC V)).trans (c_v18 V)
theorem d_v19 : VD V (Proc.devRef .tc main_v19) = val_main_v19 (F := F) (V (Proc.devRef .tc main_arg1)) := (D_v19 (VC V)).trans (c_v19 V)
theorem d_v22 : VD V (Proc.devRef .tc main_v22) = val_main_v22 (F := F) (V (Proc.devRef .tc main_arg0)) (V (Proc.devRef .tc main_arg1)) := (D_v22 (VC V)).trans (c_v22 V)
theorem d_v28 : VD V (Proc.devRef .tc main_v28) = val_main_v28 (F := F) (V (Proc.devRef .tc main_arg0)) (V (Proc.devRef .tc main_arg1)) := (D_v28 (VC V)).trans (c_v28 V)
theorem d_v30 : VD V (Proc.devRef .tc main_v30) = val_main_v30 (F := F) (V (Proc.devRef .tc main_arg0)) (V (Proc.devRef .tc main_arg1)) := by
  rw [VD, D_v30, c_v19, c_v6, c_cst]; rfl
theorem d_v31 : VD V (Proc.devRef .tc main_v31) = val_main_v31 (F := F) (V (Proc.devRef .tc main_arg0)) (V (Proc.devRef .tc main_arg1)) := by
  rw [VD, D_v31, c_v26]; rfl

theorem e_v22 : VE V (Proc.devRef .tc main_v22) = val_main_v22 (F := F) (V (Proc.devRef .tc main_arg0)) (V (Proc.devRef .tc main_arg1)) := (E_v22 (VD V)).trans (d_v22 V)
theorem e_v32 : VE V (Proc.devRef .tc main_v32) = val_main_v32 (F := F) (V (Proc.devRef .tc main_arg0)) (V (Proc.devRef .tc main_arg1)) := by
  rw [VE, E_v32, d_v31, d_v28, d_v30]; rfl
theorem e_v35 : VE V (Proc.devRef .tc main_v35) = val_main_v35 (F := F) (V (Proc.devRef .tc main_arg1)) := by
  rw [VE, E_v35, d_v18, d_v19]; rfl

/-- The whole line's result buffer holds the last stage of the two arguments. -/
theorem value : after ops V (Proc.devRef .tc main_v46) = val_main_v46 (F := F) (V (Proc.devRef .tc main_arg0)) (V (Proc.devRef .tc main_arg1)) := by
  rw [ops_eq, after_append, after_append, after_append, after_append, after_append]
  show after opsG (VE V) (Proc.devRef .tc main_v46) = _
  rw [G_v46, e_v35, e_v22, e_v32]; rfl

end Chain

/-- On every device, for any float values, from any memory with zero counters: every weakly fair execution of
    @main terminates with the result buffer at the read module's last stage `val_main_v46` of the two arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = val_main_v46 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (value (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.ValueV

end
-- ==== Proof.LibReduceAny.lean ====
/- A printed predicate's "any", read back. A test "some element along an axis satisfies p" prints as a one-operand reduce of the
   one-bit array p by "or" from the constant 0; if the result is 1 at an index, some element that reduces into that index is 1. -/
import Idealize.ShloMosaic.Lib.ReduceAll

namespace Cert.Lib.ReduceAny

open Idealize.ShloMosaic

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_ori_eq_one f l _ h with h1 | ⟨n, hn, hf⟩
    · rcases IntOp.ori_eq_one.1 h1 with hi | ha
      · exact .inl hi
      · exact .inr ⟨a, List.mem_cons_self, ha⟩
    · exact .inr ⟨n, List.mem_cons_of_mem _ hn, hf⟩

variable {s t u : Shape} {axes : List (Fin s.rank)}

/-- A reduce by "or" from an initial 0 that is 1 at `j` had a 1 at some operand index that reduces into `j`. -/
theorem reduce_ori_eq_one (x : s.Idx → BitVec 1) (init : u.Idx → BitVec 1) (h : s.ReducesTo axes t) (hu : 0 < u.numel)
    (hinit : init (Shape.Idx.first hu) = 0#1) (j : t.Idx) (e : Host.reduce IntOp.ori x init h hu j = 1#1) :
    ∃ i, h.drop i = j ∧ x i = 1#1 := by
  rw [Host.reduce_eq_foldl] at e
  rcases foldl_ori_eq_one x _ _ e with h0 | ⟨i, hi, hx⟩
  · rw [hinit] at h0; exact absurd h0 (by decide)
  · exact ⟨i, by simpa using (List.mem_filter.1 hi).2, hx⟩

end Cert.Lib.ReduceAny
-- ==== Proof.PreFacts.lean ====
/- What the precondition says of the embeddings: every entry is a real number, and every row has an entry that is not zero.
   The printed predicate is the conjunction of two "all" tests: |x| < +∞ at every entry, and "some entry of the row differs from 0"
   at every row. -/
import proofs.«165275_j48198122996409_2_alg».proof.Defs
import proofs.«165275_j48198122996409_2_alg».proof.Proof.Gen.Pre_finite_inputs
import proofs.«165275_j48198122996409_2_alg».proof.Proof.LibReduceAny
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

/-- A shape with no axis has one index. -/
instance : Subsingleton S_.Idx := ⟨fun a b => funext fun d => d.elim0⟩

variable [Cert.Pre_finite_inputs.Facts]
open Cert.Pre_finite_inputs.Facts

/-- If the predicate is all ones on the embeddings `E`, then no entry of `E` is infinite and every row of `E` has a nonzero entry. -/
theorem decode (E : FVec Ideal S8192x128 .f32) (Lb : IVec S8192 32) (h : Cert.Pre_finite_inputs.fn (F := Ideal) E Lb = fun _ => 1#1) :
    (∀ idx : S8192x128.Idx, E idx ≠ ⊤ ∧ E idx ≠ ⊥) ∧ (∀ r : Fin 8192, ∃ k : Fin 128, E (ValueIdx.ix2 r k) ≠ 0) := by
  have h0 := congrFun h ValueIdx.ix0
  dsimp only [Cert.Pre_finite_inputs.fn] at h0
  obtain ⟨h3, h7⟩ := IntOp.andi_eq_one.1 h0
  constructor
  · -- |E idx| < +∞ excludes both infinities
    intro idx
    have h1 := Host.reduce_andi_all _ _ reducesTo_S8192x128_S_d0_1 h_S_ _ h3 idx
    change Ideal.cmp .olt (max (E idx) (-(E idx))) (Ideal.ofBits .f32 0x7F800000#32) = 1#1 at h1
    have htop : Ideal.ofBits .f32 0x7F800000#32 = ⊤ := by simp [Ideal.ofBits, Ideal.ieee]
    rw [htop] at h1
    have hlt : max (E idx) (-(E idx)) < (⊤ : EReal) := by
      by_contra hcon
      have h00 : Ideal.cmp .olt (max (E idx) (-(E idx))) ⊤ = 0#1 := by simp [Ideal.cmp, hcon]
      rw [h00] at h1; exact absurd h1 (by decide)
    constructor
    · intro ht; rw [ht] at hlt; simp at hlt
    · intro hb; rw [hb] at hlt; simp at hlt
  · -- the row's "some entry differs from 0" names an entry of that row
    intro r
    have h2 := Host.reduce_andi_all _ _ reducesTo_S8192_S_d0 h_S_ _ h7 (ValueIdx.ix1 r)
    obtain ⟨i, hi, hx⟩ := Cert.Lib.ReduceAny.reduce_ori_eq_one _ _ reducesTo_S8192x128_S8192_d1 h_S_ rfl _ h2
    change Ideal.cmp .une (E i) (Ideal.ofBits .f32 0x00000000#32) = 1#1 at hx
    rw [Ideal.ofBits_zero_f32] at hx
    have hne : E i ≠ 0 := by
      intro h0'
      have h00 : Ideal.cmp .une (E i) 0 = 0#1 := by simp [Ideal.cmp, h0']
      rw [h00] at hx; exact absurd hx (by decide)
    obtain ⟨p, q, rfl⟩ : ∃ (p : Fin 8192) (q : Fin 128), i = ValueIdx.ix2 p q := ⟨i 0, i 1, ValueIdx.eq_ix2 i⟩
    have hpr : p = r := Fin.ext (congrArg Fin.val (congrFun hi 0))
    subst hpr
    exact ⟨q, hne⟩

end Cert.PreFacts

end
-- ==== Proof.Algebraic.lean ====
/- The two idealized programs compute the same loss. Under the precondition (finite embeddings, no zero row) the three columns the
   kernel's passes write are, row by row, the reference's hardest-positive distances, chosen negative distances and flags; the last
   step of the loss is the same function of them on both sides. -/
import proofs.«165275_j48198122996409_2_alg».proof.Defs
import proofs.«165275_j48198122996409_2_alg».proof.Proof.Gen.KernelIdeal
import proofs.«165275_j48198122996409_2_alg».proof.Proof.Gen.ReferenceIdeal
import proofs.«165275_j48198122996409_2_alg».proof.Proof.Gen.Pre_finite_inputs
import proofs.«165275_j48198122996409_2_alg».proof.Proof.KICol23
import proofs.«165275_j48198122996409_2_alg».proof.Proof.RefValueRunP
import proofs.«165275_j48198122996409_2_alg».proof.Proof.PreFacts

set_option maxRecDepth 16384

noncomputable section

namespace Cert.Proof.Alg

open Idealize.ShloMosaic Idealize.SL.Sem Idealize.ShloMosaic.TcCoe Idealize.ShloMosaic.ValueIdx
open Cert.ReferenceIdeal.Rows Cert.Lib.Sentinel

/-- Two one-bit words are equal if one is 1 exactly when the other is. -/
theorem bit_ext : ∀ x y : BitVec 1, (x = 1#1 ↔ y = 1#1) → x = y := by decide

variable [Cert.KernelIdeal.Facts] [Cert.ReferenceIdeal.Facts] [Cert.Pre_finite_inputs.Facts]

set_option maxHeartbeats 4000000 in
/-- The three columns, flattened, are the reference's three row-indexed stages. -/
theorem cols (m : (ℓ : Loc Cert.KernelIdeal.nD Cert.KernelIdeal.τ Cert.KernelIdeal.sig) → Buf (Elt Ideal) ℓ) (hpre : Cert.Pre_KernelIdeal m)
    (c : Dev Cert.KernelIdeal.nD) :
    shapeCast Cert.KernelIdeal.S8192 (Cert.KernelIdeal.Run.res9 m c : FVec Ideal Cert.KernelIdeal.S8192x1 .f32) Cert.KernelIdeal.Facts₀.shapeCasts_S8192x1_S8192
        = Cert.ReferenceIdeal.ReadP.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ shapeCast Cert.KernelIdeal.S8192 (Cert.KernelIdeal.Run.res10a m c : FVec Ideal Cert.KernelIdeal.S8192x1 .f32) Cert.KernelIdeal.Facts₀.shapeCasts_S8192x1_S8192
        = Cert.ReferenceIdeal.ReadP.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ cmpf (F := Ideal) .ogt (shapeCast Cert.KernelIdeal.S8192 (Cert.KernelIdeal.Run.res10b m c : FVec Ideal Cert.KernelIdeal.S8192x1 .f32) Cert.KernelIdeal.Facts₀.shapeCasts_S8192x1_S8192)
            (broadcastInDim Cert.KernelIdeal.S8192 ![] Cert.KernelIdeal.Facts₀.bcast_S_S8192 (constant Cert.KernelIdeal.S_ .f32 0x3F000000#32))
        = Cert.ReferenceIdeal.ReadP.val_main_v35 (F := Ideal) (m ((c.tc : Thread Cert.KernelIdeal.nD Cert.KernelIdeal.τ).loc Cert.KernelIdeal.main_arg1)) := by
  obtain ⟨hfin, hne⟩ := Cert.PreFacts.decode _ _ (hpre c)
  refine ⟨?_, ?_, ?_⟩
  · funext i
    obtain ⟨r, rfl⟩ : ∃ r : Fin 8192, i = ix1 r := ⟨i 0, eq_ix1 i⟩
    rw [Cert.Lib.Column.shapeCast_a1_a_apply]
    exact (Cert.KernelIdeal.Run.col1 m c r).trans (kerDap_ref _ _ r)
  · funext i
    obtain ⟨r, rfl⟩ : ∃ r : Fin 8192, i = ix1 r := ⟨i 0, eq_ix1 i⟩
    rw [Cert.Lib.Column.shapeCast_a1_a_apply]
    exact (Cert.KernelIdeal.Run.col2 m c r).trans (kerDan_ref _ _ hfin hne r)
  · funext i
    obtain ⟨r, rfl⟩ : ∃ r : Fin 8192, i = ix1 r := ⟨i 0, eq_ix1 i⟩
    refine bit_ext _ _ ?_
    show FloatOps.cmpf (F := Ideal) (φ := .f32) .ogt
        (shapeCast Cert.KernelIdeal.S8192 (Cert.KernelIdeal.Run.res10b m c : FVec Ideal Cert.KernelIdeal.S8192x1 .f32) Cert.KernelIdeal.Facts₀.shapeCasts_S8192x1_S8192 (ix1 r))
        (Ideal.ofBits .f32 0x3F000000#32) = 1#1 ↔ _
    rw [cmpf_ogt_eq_one, Cert.Lib.Column.shapeCast_a1_a_apply, Cert.KernelIdeal.Run.col3, Cert.Words.onehalf_eq,
      ← kerValid_ref _ _ hfin hne r]
    unfold kerValid
    split_ifs with hP
    · exact ⟨fun _ => hP, fun _ => by rw [← EReal.coe_one, EReal.coe_lt_coe_iff]; norm_num⟩
    · exact ⟨fun h => absurd h (by rw [← EReal.coe_zero, EReal.coe_lt_coe_iff]; norm_num), fun h => absurd h hP⟩

/-- From memories that agree on the embeddings and the labels, both programs run to the end and leave the same loss. -/
theorem algebraic : Cert.algebraic_KernelIdeal_ReferenceIdeal := by
  intro m ρ m' ρ' hpre hagree
  refine ⟨fun c => Cert.KernelIdeal.Gen.V8 m (Cert.KernelIdeal.Run.outs m) c Cert.KernelIdeal.main_v26, ?_, ?_⟩
  · exact Cert.KernelIdeal.Run.value_run (F := Ideal) m ρ
  · refine (θ_run Cert.ReferenceIdeal.defs _ _).mono (fun _ h c => ⟨(h c).1.trans ?_, (h c).2.1, (h c).2.2⟩)
      (Cert.ReferenceIdeal.ValueV.run (F := Ideal) m' ρ')
    obtain ⟨h22, h32, h35⟩ := cols m hpre c
    rw [(hagree c).1, (hagree c).2, Cert.ReferenceIdeal.Rows.val_v46_tail]
    beta_reduce
    rw [Cert.KernelIdeal.Run.result_eq, ← h22, ← h32, ← h35]

end Cert.Proof.Alg

end
-- ==== Proof.lean ====
/- The claim of this certificate, for a semi-hard triplet loss over 8192 embeddings of width 128 with integer labels.
   The kernel program normalises each embedding by its Euclidean norm on the host and then runs two passes over the 8192 × 8192
   matrix of cosine distances, tile by tile (8 row tiles × 8 column tiles of 1024): the first keeps, per anchor row, the largest
   distance to another row of the same label; the second keeps the smallest distance to a row of another label and the smallest
   such distance exceeding the first pass's value, and says which anchors have both a positive and a negative; host lines then
   average relu(d_ap − d_an + 0.2) over those anchors. The reference computes the same quantities with whole-matrix operations.
   Each program runs to its end, faults nowhere and leaves the embeddings and the labels as launched (the three frames); the
   idealized kernel program is the printed one read over the extended reals with nothing rewritten (preserves).
   The two idealized programs agree (algebraic) when every embedding entry is finite and no embedding row is zero: then each row's norm is a
   positive real, every normalised entry is at most one in absolute value, every distance is a real between −127 and 129, and so the
   kernel's running maxima and minima started at the fill values ±13234890·2^76 and its comparisons with the half-way values
   ±13234890·2^75 give the reference's suprema, infima and existence tests; the diagonal entry, always filled, absorbs the initial value.
   On a zero row both programs divide zero by zero and the claim fails, which is why the precondition excludes it. -/
import proofs.«165275_j48198122996409_2_alg».proof.Defs
import proofs.«165275_j48198122996409_2_alg».proof.Proof.Gen.Kernel
import proofs.«165275_j48198122996409_2_alg».proof.Proof.Gen.KernelIdeal
import proofs.«165275_j48198122996409_2_alg».proof.Proof.Gen.ReferenceIdeal
import proofs.«165275_j48198122996409_2_alg».proof.Proof.Gen.Pre_finite_inputs
import proofs.«165275_j48198122996409_2_alg».proof.Proof.KFrame
import proofs.«165275_j48198122996409_2_alg».proof.Proof.KIFrame
import proofs.«165275_j48198122996409_2_alg».proof.Proof.RefRunP
import proofs.«165275_j48198122996409_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => Cert.ReferenceIdeal.ValueP.run (F := Ideal) m ρ,
  trivial,
  Cert.Proof.Alg.algebraic⟩

end Cert.Proof

end
